-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S50000x128 : Shape := ⟨2, ![50000, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S50000x128 : S_.BroadcastsInDim S50000x128 (![] : Fin 0 → Fin S50000x128.rank)
  reducesTo_S50000x128_S_d0_1 : S50000x128.ReducesTo [0, 1] S_

variable [Facts]

def fn_part1 {F : FTy → Type} [FloatOps F] (main_arg5 : FVec F S40 .f32) (main_arg6 : FVec F S50000x128 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S50000x128 .f32 := Host.absf main_arg6
  let main_cst_8 : FVec F S_ .f32 := constant S_ .f32 0x7F800000#32
  let main_v25 : FVec F S50000x128 .f32 := broadcastInDim S50000x128 ![] bcast_S_S50000x128 main_cst_8
  let main_v26 : IVec S50000x128 1 := cmpf .olt main_v24 main_v25
  let main_c_9 : IVec S_ 1 := constantI S_ 1 1#1
  let main_v27 : IVec S_ 1 := (fun x v => Host.reduce IntOp.andi x v reducesTo_S50000x128_S_d0_1 h_S_) main_v26 main_c_9
  let main_v28 : IVec S_ 1 := andi main_v23 main_v27
  main_v28

def fn {F : FTy → Type} [FloatOps F] (main_arg0 : FVec F S50000x256 .f32) (main_arg1 : IVec S2x1600000 32) (main_arg2 : FVec F S256x128 .f32) (main_arg3 : FVec F S128 .f32) (main_arg4 : FVec F S128x40 .f32) (main_arg5 : FVec F S40 .f32) (main_arg6 : FVec F S50000x128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_arg6 main_v13 main_v16
-- ==== Kernel.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S50000x128 : Shape := ⟨2, ![50000, 128]⟩
abbrev S1x1600000 : Shape := ⟨2, ![1, 1600000]⟩
abbrev S1600000 : Shape := ⟨1, ![1600000]⟩
abbrev S2000x256 : Shape := ⟨2, ![2000, 256]⟩
abbrev S2000x128 : Shape := ⟨2, ![2000, 128]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x40 : Shape := ⟨2, ![50000, 40]⟩
abbrev S2000x40 : Shape := ⟨2, ![2000, 40]⟩
abbrev S1650000x40 : Shape := ⟨2, ![1650000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 117
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S50000x128, .f32⟩
  | .hbm, ⟨12, _⟩ => ⟨S50000, .i32⟩
  | .hbm, ⟨13, _⟩ => ⟨S1650000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S1650000, .i32⟩
  | .hbm, ⟨27, _⟩ => ⟨S1650000, .i1⟩
  | .hbm, ⟨28, _⟩ => ⟨S_, .i32⟩
  | .hbm, ⟨29, _⟩ => ⟨S1650000, .i32⟩
  | .hbm, ⟨30, _⟩ => ⟨S1650000, .i32⟩
  | .hbm, ⟨31, _⟩ => ⟨S1650000, .i32⟩
  | .hbm, ⟨32, _⟩ => ⟨S1650000x1, .i32⟩
  | .hbm, ⟨33, _⟩ => ⟨S1650000, .f32⟩
  | .hbm, ⟨34, _⟩ => ⟨S_, .i32⟩
  | .hbm, ⟨35, _⟩ => ⟨S1650000, .i32⟩
  | .hbm, ⟨36, _⟩ => ⟨S1650000, .i1⟩
  | .hbm, ⟨37, _⟩ => ⟨S_, .i32⟩
  | .hbm, ⟨38, _⟩ => ⟨S1650000, .i32⟩
  | .hbm, ⟨39, _⟩ => ⟨S1650000, .i32⟩
  | .hbm, ⟨40, _⟩ => ⟨S1650000, .i32⟩
  | .hbm, ⟨41, _⟩ => ⟨S1650000x1, .i32⟩
  | .hbm, ⟨42, _⟩ => ⟨S1650000, .f32⟩
  | .hbm, ⟨43, _⟩ => ⟨S1650000, .f32⟩
  | .hbm, ⟨44, _⟩ => ⟨S_, .i32⟩
  | .hbm, ⟨45, _⟩ => ⟨S1650000, .i32⟩
  | .hbm, ⟨46, _⟩ => ⟨S1650000, .i1⟩
  | .hbm, ⟨47, _⟩ => ⟨S_, .i32⟩
  | .hbm, ⟨48, _⟩ => ⟨S1650000, .i32⟩
  | .hbm, ⟨49, _⟩ => ⟨S1650000, .i32⟩
  | .hbm, ⟨50, _⟩ => ⟨S1650000, .i32⟩
  | .hbm, ⟨51, _⟩ => ⟨S1650000x1, .i32⟩
  | .hbm, ⟨52, _⟩ => ⟨S1650000x128, .f32⟩
  | .hbm, ⟨53, _⟩ => ⟨S1650000x1, .f32⟩
  | .hbm, ⟨54, _⟩ => ⟨S1650000x128, .f32⟩
  | .hbm, ⟨55, _⟩ => ⟨S1650000x128, .f32⟩
  | .hbm, ⟨56, _⟩ => ⟨S_, .f32⟩
  | .hbm, ⟨57, _⟩ => ⟨S50000x128, .f32⟩
  | .hbm, ⟨58, _⟩ => ⟨S1650000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x40, .f32⟩
  | .hbm, ⟨65, _⟩ => ⟨S50000, .i32⟩
  | .hbm, ⟨66, _⟩ => ⟨S1650000, .i32⟩
  | .hbm, ⟨67, _⟩ => ⟨S1650000, .i32⟩
  | .hbm, ⟨68, _⟩ => ⟨S_, .f32⟩
  | .hbm, ⟨69, _⟩ => ⟨S1650000, .f32⟩
  | .hbm, ⟨70, _⟩ => ⟨S_, .f32⟩
  | .hbm, ⟨71, _⟩ => ⟨S50000, .f32⟩
  | .hbm, ⟨72, _⟩ => ⟨S1650000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S1650000, .i32⟩
  | .hbm, ⟨80, _⟩ => ⟨S1650000, .i1⟩
  | .hbm, ⟨81, _⟩ => ⟨S_, .i32⟩
  | .hbm, ⟨82, _⟩ => ⟨S1650000, .i32⟩
  | .hbm, ⟨83, _⟩ => ⟨S1650000, .i32⟩
  | .hbm, ⟨84, _⟩ => ⟨S1650000, .i32⟩
  | .hbm, ⟨85, _⟩ => ⟨S1650000x1, .i32⟩
  | .hbm, ⟨86, _⟩ => ⟨S1650000, .f32⟩
  | .hbm, ⟨87, _⟩ => ⟨S_, .i32⟩
  | .hbm, ⟨88, _⟩ => ⟨S1650000, .i32⟩
  | .hbm, ⟨89, _⟩ => ⟨S1650000, .i1⟩
  | .hbm, ⟨90, _⟩ => ⟨S_, .i32⟩
  | .hbm, ⟨91, _⟩ => ⟨S1650000, .i32⟩
  | .hbm, ⟨92, _⟩ => ⟨S1650000, .i32⟩
  | .hbm, ⟨93, _⟩ => ⟨S1650000, .i32⟩
  | .hbm, ⟨94, _⟩ => ⟨S1650000x1, .i32⟩
  | .hbm, ⟨95, _⟩ => ⟨S1650000, .f32⟩
  | .hbm, ⟨96, _⟩ => ⟨S1650000, .f32⟩
  | .hbm, ⟨97, _⟩ => ⟨S_, .i32⟩
  | .hbm, ⟨98, _⟩ => ⟨S1650000, .i32⟩
  | .hbm, ⟨99, _⟩ => ⟨S1650000, .i1⟩
  | .hbm, ⟨100, _⟩ => ⟨S_, .i32⟩
  | .hbm, ⟨101, _⟩ => ⟨S1650000, .i32⟩
  | .hbm, ⟨102, _⟩ => ⟨S1650000, .i32⟩
  | .hbm, ⟨103, _⟩ => ⟨S1650000, .i32⟩
  | .hbm, ⟨104, _⟩ => ⟨S1650000x1, .i32⟩
  | .hbm, ⟨105, _⟩ => ⟨S1650000x40, .f32⟩
  | .hbm, ⟨106, _⟩ => ⟨S1650000x1, .f32⟩
  | .hbm, ⟨107, _⟩ => ⟨S1650000x40, .f32⟩
  | .hbm, ⟨108, _⟩ => ⟨S1650000x40, .f32⟩
  | .hbm, ⟨109, _⟩ => ⟨S_, .f32⟩
  | .hbm, ⟨110, _⟩ => ⟨S50000x40, .f32⟩
  | .hbm, ⟨111, _⟩ => ⟨S1650000x1, .i32⟩
  | .hbm, ⟨112, _⟩ => ⟨S50000x40, .f32⟩
  | .hbm, ⟨113, _⟩ => ⟨S1x40, .f32⟩
  | .hbm, ⟨114, _⟩ => ⟨S50000x40, .f32⟩
  | .hbm, ⟨115, _⟩ => ⟨S50000x40, .f32⟩
  | .hbm, ⟨116, _⟩ => ⟨S50000x40, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S2000x40, .f32⟩
  | .local _ .vmem, ⟨18, _⟩ => ⟨S2000x40, .f32⟩
  | .local _ .vmem, ⟨19, _⟩ => ⟨S2000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_c_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_13 : Ref sig .tc := ⟨.hbm, 87, rfl⟩
abbrev main_v65 : Ref sig .tc := ⟨.hbm, 88, rfl⟩
abbrev main_v66 : Ref sig .tc := ⟨.hbm, 89, rfl⟩
abbrev main_c_14 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_15 : Ref sig .tc := ⟨.hbm, 97, rfl⟩
abbrev main_v73 : Ref sig .tc := ⟨.hbm, 98, rfl⟩
abbrev main_v74 : Ref sig .tc := ⟨.hbm, 99, rfl⟩
abbrev main_c_16 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_17 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  shapeCasts_S2000x40_S2000x40 : S2000x40.ShapeCasts S2000x40
  reduces_S2000x40_S2000 : S2000x40.Reduces [1] S2000
  shapeCasts_S2000_S2000x1 : S2000.ShapeCasts S2000x1
  broadcasts_S2000x1_S2000x40 : S2000x1.Broadcasts S2000x40
  dot_S2000x256_S256x128_S2000x128_1_0_0_1_n_n_wf : DotDims.WF S2000x256 S256x128 S2000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x40_S2000x40_1_0_0_1_n_n_wf : DotDims.WF S2000x128 S128x40 S2000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S50000x40.size a
  hwx3_0 : ∀ i : grid3.Coords, EltTy.bits .f32 = 32 ∨ (Rect.block (s := S50000x40) S2000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x40.size a ≤ S50000x40.size a
  hwx3_1 : ∀ i : grid3.Coords, EltTy.bits .f32 = 32 ∨ (Rect.block (s := S50000x40) S2000x40.size (cc3_transform_1 i) (hinb3_1 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v88) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S2000x40.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S50000x128 : Shape := ⟨2, ![50000, 128]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x40 : Shape := ⟨2, ![50000, 40]⟩
abbrev S1650000x40 : Shape := ⟨2, ![1650000, 40]⟩
abbrev S1x40 : Shape := ⟨2, ![1, 40]⟩
abbrev S50000x1 : Shape := ⟨2, ![50000, 1]⟩

abbrev nBuf : Space → Nat
  | .hbm => 134
  | .vmem => 0
  | .smem => 0
  | _ => 0

abbrev hbmTy0_0 (i : Nat) : BufTy := match i % 128 with
  | 0 => ⟨S50000x256, .f32⟩
  | 1 => ⟨S2x1600000, .i32⟩
  | 2 => ⟨S256x128, .f32⟩
  | 3 => ⟨S128, .f32⟩
  | 4 => ⟨S128x40, .f32⟩
  | 5 => ⟨S40, .f32⟩
  | 6 => ⟨S50000x128, .f32⟩
  | 7 => ⟨S1x1600000, .i32⟩
  | 8 => ⟨S1600000, .i32⟩
  | 9 => ⟨S1x1600000, .i32⟩
  | 10 => ⟨S1600000, .i32⟩
  | 11 => ⟨S50000x128, .f32⟩
  | 12 => ⟨S50000, .i32⟩
  | 13 => ⟨S1650000, .i32⟩
  | 14 => ⟨S1650000, .i32⟩
  | 15 => ⟨S_, .f32⟩
  | 16 => ⟨S1650000, .f32⟩
  | 17 => ⟨S_, .f32⟩
  | 18 => ⟨S50000, .f32⟩
  | 19 => ⟨S1650000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S1650000, .i32⟩
  | 27 => ⟨S1650000, .i1⟩
  | 28 => ⟨S_, .i32⟩
  | 29 => ⟨S1650000, .i32⟩
  | 30 => ⟨S1650000, .i32⟩
  | 31 => ⟨S1650000, .i32⟩
  | 32 => ⟨S1650000x1, .i32⟩
  | 33 => ⟨S1650000, .f32⟩
  | 34 => ⟨S_, .i32⟩
  | 35 => ⟨S1650000, .i32⟩
  | 36 => ⟨S1650000, .i1⟩
  | 37 => ⟨S_, .i32⟩
  | 38 => ⟨S1650000, .i32⟩
  | 39 => ⟨S1650000, .i32⟩
  | 40 => ⟨S1650000, .i32⟩
  | 41 => ⟨S1650000x1, .i32⟩
  | 42 => ⟨S1650000, .f32⟩
  | 43 => ⟨S1650000, .f32⟩
  | 44 => ⟨S_, .i32⟩
  | 45 => ⟨S1650000, .i32⟩
  | 46 => ⟨S1650000, .i1⟩
  | 47 => ⟨S_, .i32⟩
  | 48 => ⟨S1650000, .i32⟩
  | 49 => ⟨S1650000, .i32⟩
  | 50 => ⟨S1650000, .i32⟩
  | 51 => ⟨S1650000x1, .i32⟩
  | 52 => ⟨S1650000x128, .f32⟩
  | 53 => ⟨S1650000x1, .f32⟩
  | 54 => ⟨S1650000x128, .f32⟩
  | 55 => ⟨S1650000x128, .f32⟩
  | 56 => ⟨S_, .f32⟩
  | 57 => ⟨S50000x128, .f32⟩
  | 58 => ⟨S1650000x1, .i32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x128, .f32⟩
  | 67 => ⟨S50000x40, .f32⟩
  | 68 => ⟨S50000, .i32⟩
  | 69 => ⟨S1650000, .i32⟩
  | 70 => ⟨S1650000, .i32⟩
  | 71 => ⟨S_, .f32⟩
  | 72 => ⟨S1650000, .f32⟩
  | 73 => ⟨S_, .f32⟩
  | 74 => ⟨S50000, .f32⟩
  | 75 => ⟨S1650000x1, .i32⟩
  | 76 => ⟨S50000, .f32⟩
  | 77 => ⟨S_, .f32⟩
  | 78 => ⟨S50000, .f32⟩
  | 79 => ⟨S50000, .f32⟩
  | 80 => ⟨S50000, .f32⟩
  | 81 => ⟨S_, .i32⟩
  | 82 => ⟨S1650000, .i32⟩
  | 83 => ⟨S1650000, .i1⟩
  | 84 => ⟨S_, .i32⟩
  | 85 => ⟨S1650000, .i32⟩
  | 86 => ⟨S1650000, .i32⟩
  | 87 => ⟨S1650000, .i32⟩
  | 88 => ⟨S1650000x1, .i32⟩
  | 89 => ⟨S1650000, .f32⟩
  | 90 => ⟨S_, .i32⟩
  | 91 => ⟨S1650000, .i32⟩
  | 92 => ⟨S1650000, .i1⟩
  | 93 => ⟨S_, .i32⟩
  | 94 => ⟨S1650000, .i32⟩
  | 95 => ⟨S1650000, .i32⟩
  | 96 => ⟨S1650000, .i32⟩
  | 97 => ⟨S1650000x1, .i32⟩
  | 98 => ⟨S1650000, .f32⟩
  | 99 => ⟨S1650000, .f32⟩
  | 100 => ⟨S_, .i32⟩
  | 101 => ⟨S1650000, .i32⟩
  | 102 => ⟨S1650000, .i1⟩
  | 103 => ⟨S_, .i32⟩
  | 104 => ⟨S1650000, .i32⟩
  | 105 => ⟨S1650000, .i32⟩
  | 106 => ⟨S1650000, .i32⟩
  | 107 => ⟨S1650000x1, .i32⟩
  | 108 => ⟨S1650000x40, .f32⟩
  | 109 => ⟨S1650000x1, .f32⟩
  | 110 => ⟨S1650000x40, .f32⟩
  | 111 => ⟨S1650000x40, .f32⟩
  | 112 => ⟨S_, .f32⟩
  | 113 => ⟨S50000x40, .f32⟩
  | 114 => ⟨S1650000x1, .i32⟩
  | 115 => ⟨S50000x40, .f32⟩
  | 116 => ⟨S1x40, .f32⟩
  | 117 => ⟨S50000x40, .f32⟩
  | 118 => ⟨S50000x40, .f32⟩
  | 119 => ⟨S_, .f32⟩
  | 120 => ⟨S50000, .f32⟩
  | 121 => ⟨S_, .f32⟩
  | 122 => ⟨S50000, .f32⟩
  | 123 => ⟨S50000, .f32⟩
  | 124 => ⟨S50000x1, .f32⟩
  | 125 => ⟨S50000x40, .f32⟩
  | 126 => ⟨S50000x40, .f32⟩
  | 127 => ⟨S50000x40, .f32⟩
  | _ => ⟨S50000x256, .f32⟩

abbrev hbmTy0_1 (i : Nat) : BufTy := match i % 128 with
  | 0 => ⟨S_, .f32⟩
  | 1 => ⟨S50000, .f32⟩
  | 2 => ⟨S50000x1, .f32⟩
  | 3 => ⟨S50000x1, .f32⟩
  | 4 => ⟨S50000x40, .f32⟩
  | 5 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_cst : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_11 : Ref sig .tc := ⟨.hbm, 81, rfl⟩
abbrev main_v59 : Ref sig .tc := ⟨.hbm, 82, rfl⟩
abbrev main_v60 : Ref sig .tc := ⟨.hbm, 83, rfl⟩
abbrev main_c_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_13 : Ref sig .tc := ⟨.hbm, 90, rfl⟩
abbrev main_v66 : Ref sig .tc := ⟨.hbm, 91, rfl⟩
abbrev main_v67 : Ref sig .tc := ⟨.hbm, 92, rfl⟩
abbrev main_c_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_15 : Ref sig .tc := ⟨.hbm, 100, rfl⟩
abbrev main_v74 : Ref sig .tc := ⟨.hbm, 101, rfl⟩
abbrev main_v75 : Ref sig .tc := ⟨.hbm, 102, rfl⟩
abbrev main_c_16 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_call1_cst : Ref sig .tc := ⟨.hbm, 119, rfl⟩
abbrev main_call1_v0 : Ref sig .tc := ⟨.hbm, 120, rfl⟩
abbrev main_call1_cst_0 : Ref sig .tc := ⟨.hbm, 121, rfl⟩
abbrev main_call1_v1 : Ref sig .tc := ⟨.hbm, 122, rfl⟩
abbrev main_call1_v2 : Ref sig .tc := ⟨.hbm, 123, rfl⟩
abbrev main_call1_v3 : Ref sig .tc := ⟨.hbm, 124, rfl⟩
abbrev main_call1_v4 : Ref sig .tc := ⟨.hbm, 125, rfl⟩
abbrev main_call1_v5 : Ref sig .tc := ⟨.hbm, 126, rfl⟩
abbrev main_call1_v6 : Ref sig .tc := ⟨.hbm, 127, rfl⟩
abbrev main_call1_cst_1 : Ref sig .tc := ⟨.hbm, 128, rfl⟩
abbrev main_call1_v7 : Ref sig .tc := ⟨.hbm, 129, rfl⟩
abbrev main_call1_v8 : Ref sig .tc := ⟨.hbm, 130, rfl⟩
abbrev main_call1_v9 : Ref sig .tc := ⟨.hbm, 131, rfl⟩
abbrev main_call1_v10 : Ref sig .tc := ⟨.hbm, 132, rfl⟩
abbrev main_v90 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x256_S256x128_S50000x128_1_0_0_1_n_n_wf : DotDims.WF S50000x256 S256x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x40_S50000x40_1_0_0_1_n_n_wf : DotDims.WF S50000x128 S128x40 S50000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

class Facts : Prop extends Facts₀ where

variable [Facts]
-- ==== Proof.KernelRun.lean ====
/-
  The kernel's run with its result named.

  The program is seven segments in a row: index preparation on the host, a dense product, message passing on the host,
  relu times mask, a second dense product, message passing again, a row-wise log-softmax. The launch over these segments ends
  in a state where every buffer that outlives a region holds the last boundary's contents; reading the result buffer
  and the seven argument buffers off that state gives the post below. The boundary contents themselves are opened in
  the modules that follow.
-/
import proofs.«104665_j59622736003658_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, without a fault, with the result buffer at the last boundary's contents and the
    arguments as launched. -/
theorem run_named : θ_run defs (onTc (τ := τ) (main (F := F))) ⟨m, fun _ => 0, ρ⟩ (fun r => ∀ c : Dev nD,
      r.2.mem ((c.tc : Thread nD τ).loc main_v89) = W7 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v89 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunValue

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«104665_j59622736003658_1_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.LibHostBroadcast.lean ====
/-
  The host's broadcast along named axes, read at an index, for two layouts.

  A row [1, n] broadcast over a matrix [a, n] with its axes sent to axes 0 and 1 holds at (p, q) the row's entry of
  lane q: along axis 0 the source's extent is one, so the coordinate read there is 0 whatever p is; along axis 1 the
  coordinate is kept (and when n = 1 the only coordinate is 0 anyway). A scalar broadcast over any shape holds the
  scalar everywhere: the source has no axis to read a coordinate for. The entries may be of any type.
-/
import Idealize.ShloMosaic.Lib.ValueIdx
import Idealize.ShloMosaic.Lib.Pipeline.Value

noncomputable section

namespace Cert.Lib.HostBroadcast

open Idealize.ShloMosaic Idealize.ShloMosaic.ValueIdx

variable {α : Type}

/-- A row [1, n] broadcast to [a, n] along axes 0 and 1 reads, at (p, q), the row at (0, q). -/
theorem row_matrix_apply {a n : ℕ} (y : (⟨2, ![1, n]⟩ : Shape).Idx → α)
    (hb : (⟨2, ![1, n]⟩ : Shape).BroadcastsInDim (⟨2, ![a, n]⟩ : Shape) (![0, 1] : Fin 2 → Fin (⟨2, ![a, n]⟩ : Shape).rank))
    (p : Fin a) (q : Fin n) :
    broadcastInDim (⟨2, ![a, n]⟩ : Shape) ![0, 1] hb y (ix2 p q) = y (ix2 (0 : Fin 1) q) :=
  broadcastInDim_apply _ hb y (ix2 p q) (ix2 (0 : Fin 1) q) (fun ax => match ax with
    | ⟨0, _⟩ => rfl
    | ⟨1, _⟩ => by
      show q.val = if n = 1 then 0 else q.val
      split
      · have := q.isLt; omega
      · rfl)

/-- A scalar broadcast to any shape reads the scalar at every index. -/
theorem scalar_apply {t : Shape} (y : (⟨0, ![]⟩ : Shape).Idx → α)
    (hb : (⟨0, ![]⟩ : Shape).BroadcastsInDim t (![] : Fin 0 → Fin t.rank)) (j : t.Idx) :
    broadcastInDim t ![] hb y j = y ix0 :=
  broadcastInDim_apply _ hb y j ix0 (fun ax => ax.elim0)

end Cert.Lib.HostBroadcast

end
-- ==== Proof.DenseRows.lean ====
/-
  The two dense layers and the relu-and-mask step, read at an index, at the ideal instance.

  At the ideal instance a float is an extended real, every operation is the exact one and a change of float format is the
  identity. So a block's matrix product of two operands first rounded to a narrower format, accumulated into the zero
  splat, is at (p, q) the plain sum over k of x (p, k) · w (k, q); the host's dot_general over the whole arrays is the same
  sum; and relu followed by the mask product is, at every index, max (h i) 0 · m i on both sides, the zero being spelled as
  a splat of the scalar constant in the block and as a scalar constant broadcast over the array on the host.

  For each of the four dimension records the six facts the general matrix-product lemma asks for (one contracted axis, its
  extent, and the coordinates the record names for the two operands) are computations on the literal record.
-/
import proofs.«104665_j59622736003658_1_alg».proof.Proof.Gen.KernelIdeal.Skeleton
import proofs.«104665_j59622736003658_1_alg».proof.Proof.Gen.ReferenceIdeal
import proofs.«104665_j59622736003658_1_alg».proof.Proof.LibRowRead
import proofs.«104665_j59622736003658_1_alg».proof.Proof.LibPlainDot
import proofs.«104665_j59622736003658_1_alg».proof.Proof.LibHostBroadcast

noncomputable section

namespace Cert.Bridge.DenseRows

open Idealize.ShloMosaic Idealize.ShloMosaic.ValueIdx

/-! ## The blocks -/

section Kernel

open Cert.KernelIdeal Cert.KernelIdeal.Gen

/-! The first layer's record: [2000, 256] · [256, 128]. -/

theorem block_dot1_rank : dot_S2000x256_S256x128_S2000x128_1_0_0_1_n_n.contr.rank = 1 := rfl
theorem block_dot1_size : dot_S2000x256_S256x128_S2000x128_1_0_0_1_n_n.contr.size ⟨0, by decide⟩ = 256 := rfl
theorem block_dot1_lhs0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl
theorem block_dot1_lhs1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem block_dot1_rhs0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem block_dot1_rhs1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-! The second layer's record: [2000, 128] · [128, 40]. -/

theorem block_dot2_rank : dot_S2000x128_S128x40_S2000x40_1_0_0_1_n_n.contr.rank = 1 := rfl
theorem block_dot2_size : dot_S2000x128_S128x40_S2000x40_1_0_0_1_n_n.contr.size ⟨0, by decide⟩ = 128 := rfl
theorem block_dot2_lhs0 (i : S2000x40.Idx) (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide),
    dif_pos (show (0 : Fin S2000x128.rank) ∈ dot_S2000x128_S128x40_S2000x40_1_0_0_1_n_n.lhsNonContracting by decide)]
  rfl
theorem block_dot2_lhs1 (i : S2000x40.Idx) (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q
theorem block_dot2_rhs0 (i : S2000x40.Idx) (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q
theorem block_dot2_rhs1 (i : S2000x40.Idx) (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide),
    dif_pos (show (1 : Fin S128x40.rank) ∈ dot_S2000x128_S128x40_S2000x40_1_0_0_1_n_n.rhsNonContracting by decide)]
  rfl

/-- The first layer's block at (p, q): the sum over the 256 input features of x (p, k) · w (k, q). The rounding of both
    operands to the narrower format is the identity on extended reals. -/
theorem dense1_block (x : Vec Ideal Cert.KernelIdeal.S2000x256 .f32) (w : Vec Ideal Cert.KernelIdeal.S256x128 .f32)
    (p : Fin 2000) (q : Fin 128) :
    Cert.KernelIdeal.Gen.k0_pay1 (F := Ideal) x w (ix2 p q) = ∑ k : Fin 256, x (ix2 p k) * w (ix2 k q) := by
  unfold Cert.KernelIdeal.Gen.k0_pay1
  exact Cert.Lib.RowRead.matmul_zero_apply dot_S2000x256_S256x128_S2000x128_1_0_0_1_n_n block_dot1_rank block_dot1_size
    block_dot1_lhs0 block_dot1_lhs1 block_dot1_rhs0 block_dot1_rhs1 none _ _ p q

/-- Relu then the mask product, in a block: max (h j) 0 · m j at every index j. -/
theorem relu_mask_block (h mk : Vec Ideal Cert.KernelIdeal.S2000x128 .f32) (j : Cert.KernelIdeal.S2000x128.Idx) :
    Cert.KernelIdeal.Gen.k1_pay1 (F := Ideal) h mk j = max (h j) 0 * mk j := by
  unfold Cert.KernelIdeal.Gen.k1_pay1
  rw [shapeCast_self]
  show max (h j) (Ideal.ofBits .f32 0x00000000#32) * mk j = _
  rw [Ideal.ofBits_zero_f32]

/-- The second layer's block at (p, q): the sum over the 128 hidden features of x (p, k) · w (k, q). The cast of the
    block's shape to itself changes nothing. -/
theorem dense2_block (x : Vec Ideal Cert.KernelIdeal.S2000x128 .f32) (w : Vec Ideal Cert.KernelIdeal.S128x40 .f32)
    (p : Fin 2000) (q : Fin 40) :
    Cert.KernelIdeal.Gen.k2_pay1 (F := Ideal) x w (ix2 p q) = ∑ k : Fin 128, x (ix2 p k) * w (ix2 k q) := by
  unfold Cert.KernelIdeal.Gen.k2_pay1
  rw [shapeCast_self]
  exact Cert.Lib.RowRead.matmul_zero_apply dot_S2000x128_S128x40_S2000x40_1_0_0_1_n_n block_dot2_rank block_dot2_size
    block_dot2_lhs0 block_dot2_lhs1 block_dot2_rhs0 block_dot2_rhs1 none _ _ p q

end Kernel

/-! ## The host -/

section Reference

open Cert.ReferenceIdeal

/-! The first layer's record: [50000, 256] · [256, 128]. -/

theorem host_dot1_rank : dot_S50000x256_S256x128_S50000x128_1_0_0_1_n_n.contr.rank = 1 := rfl
theorem host_dot1_size : dot_S50000x256_S256x128_S50000x128_1_0_0_1_n_n.contr.size ⟨0, by decide⟩ = 256 := rfl
theorem host_dot1_lhs0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide),
    dif_pos (show (0 : Fin S50000x256.rank) ∈ dot_S50000x256_S256x128_S50000x128_1_0_0_1_n_n.lhsNonContracting by decide)]
  rfl
theorem host_dot1_lhs1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q
theorem host_dot1_rhs0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q
theorem host_dot1_rhs1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide),
    dif_pos (show (1 : Fin S256x128.rank) ∈ dot_S50000x256_S256x128_S50000x128_1_0_0_1_n_n.rhsNonContracting by decide)]
  rfl

/-! The second layer's record: [50000, 128] · [128, 40]. -/

theorem host_dot2_rank : dot_S50000x128_S128x40_S50000x40_1_0_0_1_n_n.contr.rank = 1 := rfl
theorem host_dot2_size : dot_S50000x128_S128x40_S50000x40_1_0_0_1_n_n.contr.size ⟨0, by decide⟩ = 128 := rfl
theorem host_dot2_lhs0 (i : S50000x40.Idx) (q : dot_S50000x128_S128x40_S50000x40_1_0_0_1_n_n.contr.Idx) :
    (dot_S50000x128_S128x40_S50000x40_1_0_0_1_n_n.lhsIdx i q 0).val = (i 0).val := by
  unfold DotDims.lhsIdx
  rw [dif_neg (show ¬(0 : Fin S50000x128.rank) ∈ dot_S50000x128_S128x40_S50000x40_1_0_0_1_n_n.lhsBatch by decide),
    dif_pos (show (0 : Fin S50000x128.rank) ∈ dot_S50000x128_S128x40_S50000x40_1_0_0_1_n_n.lhsNonContracting by decide)]
  rfl
theorem host_dot2_lhs1 (i : S50000x40.Idx) (q : dot_S50000x128_S128x40_S50000x40_1_0_0_1_n_n.contr.Idx) :
    (dot_S50000x128_S128x40_S50000x40_1_0_0_1_n_n.lhsIdx i q 1).val = (q ⟨0, by decide⟩).val :=
  dot_S50000x128_S128x40_S50000x40_1_0_0_1_n_n.lhsIdx_val_of_single rfl i q
theorem host_dot2_rhs0 (i : S50000x40.Idx) (q : dot_S50000x128_S128x40_S50000x40_1_0_0_1_n_n.contr.Idx) :
    (dot_S50000x128_S128x40_S50000x40_1_0_0_1_n_n.rhsIdx i q 0).val = (q ⟨0, by decide⟩).val :=
  dot_S50000x128_S128x40_S50000x40_1_0_0_1_n_n.rhsIdx_val_of_single rfl i q
theorem host_dot2_rhs1 (i : S50000x40.Idx) (q : dot_S50000x128_S128x40_S50000x40_1_0_0_1_n_n.contr.Idx) :
    (dot_S50000x128_S128x40_S50000x40_1_0_0_1_n_n.rhsIdx i q 1).val = (i 1).val := by
  unfold DotDims.rhsIdx
  rw [dif_neg (show ¬(1 : Fin S128x40.rank) ∈ dot_S50000x128_S128x40_S50000x40_1_0_0_1_n_n.rhsBatch by decide),
    dif_pos (show (1 : Fin S128x40.rank) ∈ dot_S50000x128_S128x40_S50000x40_1_0_0_1_n_n.rhsNonContracting by decide)]
  rfl

/-- The host's first layer at (r, q): the sum over the 256 input features of x (r, k) · w (k, q). -/
theorem dense1_host (x0 : (⟨Cert.ReferenceIdeal.S50000x256, .f32⟩ : BufTy).Contents (Elt Ideal))
    (x2 : (⟨Cert.ReferenceIdeal.S256x128, .f32⟩ : BufTy).Contents (Elt Ideal)) (r : Fin 50000) (q : Fin 128) :
    Host.dotGeneral (F := Ideal) (φ₁ := .f32) (φ₂ := .f32) Cert.ReferenceIdeal.dot_S50000x256_S256x128_S50000x128_1_0_0_1_n_n none x0 x2 (ix2 r q) = ∑ k : Fin 256, x0 (ix2 r k) * x2 (ix2 k q) :=
  Cert.Lib.PlainDot.dotGeneral_apply dot_S50000x256_S256x128_S50000x128_1_0_0_1_n_n host_dot1_rank host_dot1_size
    host_dot1_lhs0 host_dot1_lhs1 host_dot1_rhs0 host_dot1_rhs1 none x0 x2 r q

/-- The host's second layer at (r, q): the sum over the 128 hidden features of h (r, k) · w (k, q). -/
theorem dense2_host (h : (⟨Cert.ReferenceIdeal.S50000x128, .f32⟩ : BufTy).Contents (Elt Ideal))
    (w : (⟨Cert.ReferenceIdeal.S128x40, .f32⟩ : BufTy).Contents (Elt Ideal)) (r : Fin 50000) (q : Fin 40) :
    Host.dotGeneral (F := Ideal) (φ₁ := .f32) (φ₂ := .f32) Cert.ReferenceIdeal.dot_S50000x128_S128x40_S50000x40_1_0_0_1_n_n none h w (ix2 r q) = ∑ k : Fin 128, h (ix2 r k) * w (ix2 k q) :=
  Cert.Lib.PlainDot.dotGeneral_apply dot_S50000x128_S128x40_S50000x40_1_0_0_1_n_n host_dot2_rank host_dot2_size
    host_dot2_lhs0 host_dot2_lhs1 host_dot2_rhs0 host_dot2_rhs1 none h w r q

/-- The host's zero array — the scalar constant zero broadcast over [50000, 128] — is 0 at every index. -/
theorem zero_host_apply (hb : Cert.ReferenceIdeal.S_.BroadcastsInDim Cert.ReferenceIdeal.S50000x128 (![] : Fin 0 → Fin Cert.ReferenceIdeal.S50000x128.rank))
    (i : Cert.ReferenceIdeal.S50000x128.Idx) :
    broadcastInDim Cert.ReferenceIdeal.S50000x128 ![] hb
      (constant (F := Ideal) Cert.ReferenceIdeal.S_ .f32 0x00000000#32) i = 0 := by
  rw [Cert.Lib.HostBroadcast.scalar_apply]
  exact Ideal.ofBits_zero_f32

/-- Relu then the mask product, on the host, against any array z that is 0 at the index: max (h i) 0 · m i. -/
theorem relu_mask_host_of_zero (h x6 z : (⟨Cert.ReferenceIdeal.S50000x128, .f32⟩ : BufTy).Contents (Elt Ideal))
    (i : Cert.ReferenceIdeal.S50000x128.Idx) (hz : z i = 0) :
    mulf (F := Ideal) (φ := .f32) (maximumf (F := Ideal) (φ := .f32) h z) x6 i = max (h i) 0 * x6 i := by
  show max (h i) (z i) * x6 i = _
  rw [hz]

/-- Relu then the mask product, on the host, with the zero spelled as the broadcast scalar constant. -/
theorem relu_mask_host (hb : Cert.ReferenceIdeal.S_.BroadcastsInDim Cert.ReferenceIdeal.S50000x128 (![] : Fin 0 → Fin Cert.ReferenceIdeal.S50000x128.rank))
    (h x6 : (⟨Cert.ReferenceIdeal.S50000x128, .f32⟩ : BufTy).Contents (Elt Ideal)) (i : Cert.ReferenceIdeal.S50000x128.Idx) :
    mulf (F := Ideal) (φ := .f32) (maximumf (F := Ideal) (φ := .f32) h (broadcastInDim Cert.ReferenceIdeal.S50000x128 ![] hb
      (constant (F := Ideal) Cert.ReferenceIdeal.S_ .f32 0x00000000#32))) x6 i
      = max (h i) 0 * x6 i :=
  relu_mask_host_of_zero h x6 _ i (zero_host_apply hb i)

/-- The same, with the broadcast's side condition taken from the program's own facts: the spelling of the printed program's
    constant, broadcast, maximum and multiply. -/
theorem relu_mask_host_printed (h x6 : (⟨Cert.ReferenceIdeal.S50000x128, .f32⟩ : BufTy).Contents (Elt Ideal))
    (i : Cert.ReferenceIdeal.S50000x128.Idx) :
    mulf (F := Ideal) (φ := .f32) (maximumf (F := Ideal) (φ := .f32) h (broadcastInDim Cert.ReferenceIdeal.S50000x128 ![]
      Cert.ReferenceIdeal.Facts₀.bcast_S_S50000x128 (constant (F := Ideal) Cert.ReferenceIdeal.S_ .f32 0x00000000#32))) x6 i
      = max (h i) 0 * x6 i :=
  relu_mask_host _ h x6 i

end Reference

end Cert.Bridge.DenseRows

end
-- ==== Proof.LibRowMax.lean ====
/-
  The maximum of a row of a matrix, at the ideal instance.

  A float reduction with a maximum body over the lanes of an [a, b] matrix, read at row p, is the fold of max, from
  the value the accumulator's word denotes, over the b entries of row p: the reduced index p with lane k put back is
  (p, k), and max on the extended reals commutes and associates, so the fold does not depend on the order of the lanes.
-/
import Idealize.ShloMosaic.PureOps.Ideal.Laws
import Idealize.ShloMosaic.Lib.ValueIdx

noncomputable section

namespace Cert.Lib.RowMax

open Idealize.ShloMosaic Idealize.ShloMosaic.ValueIdx

/-- The reduced index p with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane maximum of an [a, b] matrix, at row p, is the fold of max over the b entries of row p. -/
theorem rowMax_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (Ideal.ofBits φ acc) (fun k => src (ix2 p k)) := by
  rw [Ideal.multiReduction_maximumf_single]
  exact congrArg (fun f => Finset.fold max (Ideal.ofBits φ acc) f (Finset.univ : Finset (Fin b)))
    (funext fun k => by show src (h.lift (ix1 p) k) = src (ix2 p k); rw [lift_lane]; rfl)

end Cert.Lib.RowMax

end
-- ==== Proof.LibKeepdims.lean ====
/-
  A vector seen as a column, and as a row.

  A vector y of length n can be laid out as a column [n, 1] or as a row [1, n] in two ways: by reading its n entries in
  row-major order under the new shape (a reshape), or by declaring which axis of the new shape the vector's axis goes to
  and repeating it along the other (a broadcast along a named axis; here the other axis has length one, so nothing is
  repeated). Both give the array whose entry (p, 0), resp. (0, q), is y(p), resp. y(q):

    * in a column [n, 1] the entry (p, u) has u = 0 and row-major position p * 1 + 0 = p, which is the position of y(p);
      the broadcast sends the vector's axis to axis 0 and so reads y at the coordinate p;
    * in a row [1, n] the entry (r, q) has r = 0 and row-major position 0 * n + q = q, the position of y(q); the broadcast
      sends the vector's axis to axis 1 and so reads y at the coordinate q.

  When n = 1 the broadcast reads coordinate 0 whatever the index, and the only coordinate below 1 is 0, so the two agree
  in that case as well. The entries may be of any type.
-/
import Idealize.ShloMosaic.Lib.ValueIdx
import Idealize.ShloMosaic.Lib.Pipeline.Value

noncomputable section

namespace Cert.Lib.Keepdims

open Idealize.ShloMosaic Idealize.ShloMosaic.ValueIdx

variable {α : Type}

/-- A vector [n] reshaped to a column [n, 1] reads, at (p, u), the vector at p. -/
theorem shapeCast_column_apply {n : ℕ} (y : (⟨1, ![n]⟩ : Shape).Idx → α) (h : (⟨1, ![n]⟩ : Shape).ShapeCasts ⟨2, ![n, 1]⟩)
    (j : (⟨2, ![n, 1]⟩ : Shape).Idx) : shapeCast (⟨2, ![n, 1]⟩ : Shape) y h j = y (ix1 (j 0)) :=
  shapeCast_apply y h j (ix1 (j 0)) (by
    have hu : (j 1).val = 0 := by have := idx2_lt1 j; omega
    rw [Shape.rowMajor_val_one, Shape.rowMajor_val_two]
    show (j 0).val = (j 0).val * 1 + (j 1).val
    rw [hu, Nat.mul_one, Nat.add_zero])

/-- A vector [n] broadcast along axis 0 of a column [n, 1] reads, at (p, u), the vector at p. -/
theorem broadcastInDim_column_apply {n : ℕ} (y : (⟨1, ![n]⟩ : Shape).Idx → α)
    (hb : (⟨1, ![n]⟩ : Shape).BroadcastsInDim (⟨2, ![n, 1]⟩ : Shape) (![0] : Fin 1 → Fin (⟨2, ![n, 1]⟩ : Shape).rank))
    (j : (⟨2, ![n, 1]⟩ : Shape).Idx) : broadcastInDim (⟨2, ![n, 1]⟩ : Shape) ![0] hb y j = y (ix1 (j 0)) :=
  broadcastInDim_apply _ hb y j (ix1 (j 0)) (fun a => match a with
    | ⟨0, _⟩ => by
      show (j 0).val = if n = 1 then 0 else (j 0).val
      split
      · have := idx2_lt0 j; omega
      · rfl)

/-- The column made from a vector by a reshape is the column made by a broadcast along axis 0. -/
theorem column_eq {n : ℕ} (y : (⟨1, ![n]⟩ : Shape).Idx → α) (h : (⟨1, ![n]⟩ : Shape).ShapeCasts ⟨2, ![n, 1]⟩)
    (hb : (⟨1, ![n]⟩ : Shape).BroadcastsInDim (⟨2, ![n, 1]⟩ : Shape) (![0] : Fin 1 → Fin (⟨2, ![n, 1]⟩ : Shape).rank)) :
    shapeCast (⟨2, ![n, 1]⟩ : Shape) y h = broadcastInDim (⟨2, ![n, 1]⟩ : Shape) ![0] hb y :=
  funext fun j => (shapeCast_column_apply y h j).trans (broadcastInDim_column_apply y hb j).symm

/-- A vector [n] reshaped to a row [1, n] reads, at (r, q), the vector at q. -/
theorem shapeCast_row_apply {n : ℕ} (y : (⟨1, ![n]⟩ : Shape).Idx → α) (h : (⟨1, ![n]⟩ : Shape).ShapeCasts ⟨2, ![1, n]⟩)
    (j : (⟨2, ![1, n]⟩ : Shape).Idx) : shapeCast (⟨2, ![1, n]⟩ : Shape) y h j = y (ix1 (j 1)) :=
  shapeCast_apply y h j (ix1 (j 1)) (by
    have hu : (j 0).val = 0 := by have := idx2_lt0 j; omega
    rw [Shape.rowMajor_val_one, Shape.rowMajor_val_two]
    show (j 1).val = (j 0).val * n + (j 1).val
    rw [hu, Nat.zero_mul, Nat.zero_add])

/-- A vector [n] broadcast along axis 1 of a row [1, n] reads, at (r, q), the vector at q. -/
theorem broadcastInDim_row_apply {n : ℕ} (y : (⟨1, ![n]⟩ : Shape).Idx → α)
    (hb : (⟨1, ![n]⟩ : Shape).BroadcastsInDim (⟨2, ![1, n]⟩ : Shape) (![1] : Fin 1 → Fin (⟨2, ![1, n]⟩ : Shape).rank))
    (j : (⟨2, ![1, n]⟩ : Shape).Idx) : broadcastInDim (⟨2, ![1, n]⟩ : Shape) ![1] hb y j = y (ix1 (j 1)) :=
  broadcastInDim_apply _ hb y j (ix1 (j 1)) (fun a => match a with
    | ⟨0, _⟩ => by
      show (j 1).val = if n = 1 then 0 else (j 1).val
      split
      · have := idx2_lt1 j; omega
      · rfl)

/-- The row made from a vector by a reshape is the row made by a broadcast along axis 1. -/
theorem row_eq {n : ℕ} (y : (⟨1, ![n]⟩ : Shape).Idx → α) (h : (⟨1, ![n]⟩ : Shape).ShapeCasts ⟨2, ![1, n]⟩)
    (hb : (⟨1, ![n]⟩ : Shape).BroadcastsInDim (⟨2, ![1, n]⟩ : Shape) (![1] : Fin 1 → Fin (⟨2, ![1, n]⟩ : Shape).rank)) :
    shapeCast (⟨2, ![1, n]⟩ : Shape) y h = broadcastInDim (⟨2, ![1, n]⟩ : Shape) ![1] hb y :=
  funext fun j => (shapeCast_row_apply y h j).trans (broadcastInDim_row_apply y hb j).symm

end Cert.Lib.Keepdims

end
-- ==== Proof.SoftmaxRows.lean ====
/-
  The log-softmax of a row, read off a row-blocked kernel body and off the host's operation sequence.

  For a row r of 40 extended reals put M = max (m₀, r₀, …, r₃₉), where m₀ is the value the accumulator word of the
  maximum denotes, and lsm(r)(q) = (r q − M) − log (∑ₖ exp (r k − M)). The kernel body takes a [2000, 40] block,
  reduces each row to its maximum, subtracts it along the lanes, sums the exponentials of each row, and subtracts the
  logarithm of that sum along the lanes: at (p, q) this is lsm of row p at q. The host sequence does the same over a
  [50000, 40] array, with one more maximum against m₀ (which changes nothing, the fold from m₀ being at least m₀) and
  a sum started from the zero word (which denotes 0).
-/
import Idealize.ShloMosaic.PureOps.Ideal.Laws
import Idealize.ShloMosaic.Lib.ValueIdx
import Idealize.ShloMosaic.Lib.ValueLayout
import Idealize.ShloMosaic.Lib.Pipeline.Value
import proofs.«104665_j59622736003658_1_alg».proof.Proof.Gen.KernelIdeal.Skeleton
import proofs.«104665_j59622736003658_1_alg».proof.Proof.Gen.ReferenceIdeal
import proofs.«104665_j59622736003658_1_alg».proof.Proof.LibRowRead
import proofs.«104665_j59622736003658_1_alg».proof.Proof.LibRowMax
import proofs.«104665_j59622736003658_1_alg».proof.Proof.LibHostBroadcast
import proofs.«104665_j59622736003658_1_alg».proof.Proof.LibKeepdims

noncomputable section

namespace Cert.Bridge.SoftmaxRows

open Idealize.ShloMosaic Idealize.ShloMosaic.ValueIdx

/-- The maximum of a row of 40 entries, folded from the value the word 0xFF800000 denotes. -/
def rowMaxOf (row : Fin 40 → EReal) : EReal :=
  (Finset.univ : Finset (Fin 40)).fold max (Ideal.ofBits .f32 0xFF800000#32) row

/-- The log-softmax of a row of 40 entries: (row q − M) − log (∑ₖ exp (row k − M)), M the row's maximum. -/
def lsmRow (row : Fin 40 → EReal) (q : Fin 40) : EReal :=
  (row q - rowMaxOf row) - Ideal.log (∑ k : Fin 40, Ideal.exp (row k - rowMaxOf row))

/-! ## The kernel body -/

/-- A vector [a] made a column [a, 1] and spread over the b lanes reads, at (p, q), the vector at p. -/
theorem column_lanes_apply {a b : ℕ} (v : (⟨1, ![a]⟩ : Shape).Idx → EReal)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo (⟨2, ![a, b]⟩ : Shape) (shapeCast (⟨2, ![a, 1]⟩ : Shape) v hc) hb (ix2 p q) = v (ix1 p) :=
  (Cert.Lib.RowRead.broadcastTo_a1_ab_apply _ hb p q).trans (Cert.Lib.RowRead.shapeCast_a_a1_apply v hc p 0)

/-- The logarithm of such a column, spread over the lanes, reads at (p, q) the logarithm of the vector at p. -/
theorem log_column_lanes_apply {a b : ℕ} (v : FVec Ideal (⟨1, ![a]⟩ : Shape) .f32)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo (⟨2, ![a, b]⟩ : Shape) (log (shapeCast (⟨2, ![a, 1]⟩ : Shape) v hc)) hb (ix2 p q) = Ideal.log (v (ix1 p)) :=
  (Cert.Lib.RowRead.broadcastTo_a1_ab_apply _ hb p q).trans
    (congrArg Ideal.log (Cert.Lib.RowRead.shapeCast_a_a1_apply v hc p 0))

/-- The body over a [2000, 40] block x: at (p, q) it is the log-softmax of row p of x at q. -/
theorem body_rows (x : FVec Ideal (⟨2, ![2000, 40]⟩ : Shape) .f32)
    (hr : (⟨2, ![2000, 40]⟩ : Shape).Reduces [1] (⟨1, ![2000]⟩ : Shape))
    (hc : (⟨1, ![2000]⟩ : Shape).ShapeCasts ⟨2, ![2000, 1]⟩)
    (hb : (⟨2, ![2000, 1]⟩ : Shape).Broadcasts ⟨2, ![2000, 40]⟩)
    (hφ : FKind.Formats .f32) (hm : (0xFF800000#32 : BitVec (FTy.bits .f32)) = FKind.maximumf.neutral .f32 hφ)
    (ha : (0x00000000#32 : BitVec (FTy.bits .f32)) = FKind.add.neutral .f32 hφ) (p : Fin 2000) (q : Fin 40) :
    subf
        (subf x (broadcastTo (⟨2, ![2000, 40]⟩ : Shape) (shapeCast (⟨2, ![2000, 1]⟩ : Shape)
          (multiReduction .maximumf [1] (⟨1, ![2000]⟩ : Shape) x 0xFF800000#32 hr hφ hm) hc) hb))
        (broadcastTo (⟨2, ![2000, 40]⟩ : Shape) (log (shapeCast (⟨2, ![2000, 1]⟩ : Shape)
          (multiReduction .add [1] (⟨1, ![2000]⟩ : Shape)
            (exp (subf x (broadcastTo (⟨2, ![2000, 40]⟩ : Shape) (shapeCast (⟨2, ![2000, 1]⟩ : Shape)
              (multiReduction .maximumf [1] (⟨1, ![2000]⟩ : Shape) x 0xFF800000#32 hr hφ hm) hc) hb)))
            0x00000000#32 hr hφ ha) hc)) hb)
        (ix2 p q)
      = lsmRow (fun k => x (ix2 p k)) q := by
  have hB : ∀ k : Fin 40,
      broadcastTo (⟨2, ![2000, 40]⟩ : Shape) (shapeCast (⟨2, ![2000, 1]⟩ : Shape)
        (multiReduction .maximumf [1] (⟨1, ![2000]⟩ : Shape) x 0xFF800000#32 hr hφ hm) hc) hb (ix2 p k)
        = rowMaxOf (fun k => x (ix2 p k)) := fun k =>
    (column_lanes_apply _ hc hb p k).trans (Cert.Lib.RowMax.rowMax_apply x _ hr hφ hm p)
  generalize broadcastTo (⟨2, ![2000, 40]⟩ : Shape) (shapeCast (⟨2, ![2000, 1]⟩ : Shape)
        (multiReduction .maximumf [1] (⟨1, ![2000]⟩ : Shape) x 0xFF800000#32 hr hφ hm) hc) hb = B at hB ⊢
  show x (ix2 p q) - B (ix2 p q) - broadcastTo (⟨2, ![2000, 40]⟩ : Shape) (log (shapeCast (⟨2, ![2000, 1]⟩ : Shape)
          (multiReduction .add [1] (⟨1, ![2000]⟩ : Shape) (exp (subf x B)) 0x00000000#32 hr hφ ha) hc)) hb (ix2 p q) = _
  rw [log_column_lanes_apply, Cert.Lib.RowRead.rowSum_apply, hB]
  exact congrArg (fun s => x (ix2 p q) - rowMaxOf (fun k => x (ix2 p k)) - Ideal.log s)
    (Finset.sum_congr rfl fun k _ => by
      show Ideal.exp (x (ix2 p k) - B (ix2 p k)) = _
      rw [hB])

/-- The kernel's log-softmax body at (p, q) is the log-softmax of row p of the block at q. -/
theorem kernel_rows (x : Vec Ideal Cert.KernelIdeal.S2000x40 .f32) (p : Fin 2000) (q : Fin 40) :
    Cert.KernelIdeal.Gen.k3_pay1 (F := Ideal) x (ix2 p q) = lsmRow (fun k => x (ix2 p k)) q := by
  unfold Cert.KernelIdeal.Gen.k3_pay1
  dsimp only
  rw [shapeCast_self]
  exact body_rows x _ _ _ _ _ _ p q

/-! ## The host sequence -/

section Host

variable {α : Type}

/-- A column [a, 1] laid over [a, b] with its axes sent to axes 0 and 1 reads, at (r, q), the column at (r, 0). -/
theorem column_matrix_apply {a b : ℕ} (y : (⟨2, ![a, 1]⟩ : Shape).Idx → α)
    (hb : (⟨2, ![a, 1]⟩ : Shape).BroadcastsInDim (⟨2, ![a, b]⟩ : Shape) (![0, 1] : Fin 2 → Fin (⟨2, ![a, b]⟩ : Shape).rank))
    (r : Fin a) (q : Fin b) :
    broadcastInDim (⟨2, ![a, b]⟩ : Shape) ![0, 1] hb y (ix2 r q) = y (ix2 r (0 : Fin 1)) :=
  broadcastInDim_apply _ hb y (ix2 r q) (ix2 r (0 : Fin 1)) (fun ax => match ax with
    | ⟨0, _⟩ => by
      show r.val = if a = 1 then 0 else r.val
      split
      · have := r.isLt; omega
      · rfl
    | ⟨1, _⟩ => rfl)

/-- A vector [a] made a column [a, 1] along axis 0 and laid over the b lanes reads, at (r, q), the vector at r. -/
theorem vector_lanes_apply {a b : ℕ} (v : (⟨1, ![a]⟩ : Shape).Idx → α)
    (hc : (⟨1, ![a]⟩ : Shape).BroadcastsInDim (⟨2, ![a, 1]⟩ : Shape) (![0] : Fin 1 → Fin (⟨2, ![a, 1]⟩ : Shape).rank))
    (hb : (⟨2, ![a, 1]⟩ : Shape).BroadcastsInDim (⟨2, ![a, b]⟩ : Shape) (![0, 1] : Fin 2 → Fin (⟨2, ![a, b]⟩ : Shape).rank))
    (r : Fin a) (q : Fin b) :
    broadcastInDim (⟨2, ![a, b]⟩ : Shape) ![0, 1] hb (broadcastInDim (⟨2, ![a, 1]⟩ : Shape) ![0] hc v) (ix2 r q) = v (ix1 r) :=
  (column_matrix_apply _ hb r q).trans (Cert.Lib.Keepdims.broadcastInDim_column_apply v hc (ix2 r (0 : Fin 1)))

end Host

/-- The host's reduction with a maximum body over the lanes of an [a, b] array, at row r: the fold of max, from the
    initial value, over the b entries of row r. -/
theorem hostRowMax_apply {a b : ℕ} {u : Shape} (x : FVec Ideal (⟨2, ![a, b]⟩ : Shape) .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x _ h' h hu]
  have hf : (x ∘ h.lift (ix1 r)) = fun k : Fin b => x (ix2 r k) :=
    funext fun k => congrArg x (Cert.Lib.RowMax.lift_lane h r k)
  exact congrArg (fun f => Finset.fold max (init (Shape.Idx.first hu)) f (Finset.univ : Finset (Fin b))) hf

/-- The host's sum over the lanes of an [a, b] array, at row r: the initial value plus the sum of row r. -/
theorem hostRowSum_apply {a b : ℕ} {u : Shape} (y : FVec Ideal (⟨2, ![a, b]⟩ : Shape) .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduceAdd y init h' hu (ix1 r) = init (Shape.Idx.first hu) + ∑ k : Fin b, y (ix2 r k) := by
  simp only [Host.reduceAdd, Ideal.hostReduceAdd_def]
  rw [Ideal.hostReduceAdd_single h' h]
  refine congrArg (_ + ·) (Finset.sum_congr rfl fun k _ => ?_)
  exact congrArg y (Cert.Lib.RowMax.lift_lane h r k)

/-- The logarithm of a vector [a] made a column along axis 0, laid over the b lanes, reads at (r, q) the logarithm
    of the vector at r. -/
theorem log_vector_lanes_apply {a b : ℕ} (v : FVec Ideal (⟨1, ![a]⟩ : Shape) .f32)
    (hc : (⟨1, ![a]⟩ : Shape).BroadcastsInDim (⟨2, ![a, 1]⟩ : Shape) (![0] : Fin 1 → Fin (⟨2, ![a, 1]⟩ : Shape).rank))
    (hb : (⟨2, ![a, 1]⟩ : Shape).BroadcastsInDim (⟨2, ![a, b]⟩ : Shape) (![0, 1] : Fin 2 → Fin (⟨2, ![a, b]⟩ : Shape).rank))
    (r : Fin a) (q : Fin b) :
    broadcastInDim (⟨2, ![a, b]⟩ : Shape) ![0, 1] hb (Host.log (broadcastInDim (⟨2, ![a, 1]⟩ : Shape) ![0] hc v)) (ix2 r q)
      = Ideal.log (v (ix1 r)) :=
  (column_matrix_apply _ hb r q).trans
    (congrArg Ideal.log (Cert.Lib.Keepdims.broadcastInDim_column_apply v hc (ix2 r (0 : Fin 1))))

/-- The host sequence over a [50000, 40] array h: at (r, q) it is the log-softmax of row r of h at q. The extra
    maximum against the starting value changes nothing, the fold of max from that value being at least it; the sum
    starts from the zero word, which denotes 0. -/
theorem host_body_rows (h : FVec Ideal (⟨2, ![50000, 40]⟩ : Shape) .f32)
    (hrt : (⟨2, ![50000, 40]⟩ : Shape).ReducesTo [1] (⟨1, ![50000]⟩ : Shape)) (hr : (⟨2, ![50000, 40]⟩ : Shape).Reduces [1] (⟨1, ![50000]⟩ : Shape)) (hu : 0 < (⟨0, ![]⟩ : Shape).numel)
    (hz : (⟨0, ![]⟩ : Shape).BroadcastsInDim (⟨1, ![50000]⟩ : Shape) (![] : Fin 0 → Fin (⟨1, ![50000]⟩ : Shape).rank))
    (hc : (⟨1, ![50000]⟩ : Shape).BroadcastsInDim (⟨2, ![50000, 1]⟩ : Shape) (![0] : Fin 1 → Fin (⟨2, ![50000, 1]⟩ : Shape).rank))
    (hb : (⟨2, ![50000, 1]⟩ : Shape).BroadcastsInDim (⟨2, ![50000, 40]⟩ : Shape) (![0, 1] : Fin 2 → Fin (⟨2, ![50000, 40]⟩ : Shape).rank))
    (r : Fin 50000) (q : Fin 40) :
    subf
        (subf h (broadcastInDim (⟨2, ![50000, 40]⟩ : Shape) ![0, 1] hb (broadcastInDim (⟨2, ![50000, 1]⟩ : Shape) ![0] hc
          (maximumf (broadcastInDim (⟨1, ![50000]⟩ : Shape) ![] hz (constant (⟨0, ![]⟩ : Shape) .f32 0xFF800000#32))
            (Host.reduce (FloatOps.maximumf (F := Ideal) (φ := .f32)) h (constant (⟨0, ![]⟩ : Shape) .f32 0xFF800000#32) hrt hu)))))
        (broadcastInDim (⟨2, ![50000, 40]⟩ : Shape) ![0, 1] hb (Host.log (broadcastInDim (⟨2, ![50000, 1]⟩ : Shape) ![0] hc
          (Host.reduceAdd (Host.exp (subf h (broadcastInDim (⟨2, ![50000, 40]⟩ : Shape) ![0, 1] hb (broadcastInDim (⟨2, ![50000, 1]⟩ : Shape) ![0] hc
          (maximumf (broadcastInDim (⟨1, ![50000]⟩ : Shape) ![] hz (constant (⟨0, ![]⟩ : Shape) .f32 0xFF800000#32))
            (Host.reduce (FloatOps.maximumf (F := Ideal) (φ := .f32)) h (constant (⟨0, ![]⟩ : Shape) .f32 0xFF800000#32) hrt hu)))))) (constant (⟨0, ![]⟩ : Shape) .f32 0x00000000#32) hrt hu))))
        (ix2 r q)
      = lsmRow (fun k => h (ix2 r k)) q := by
  -- the row maximum, then forget how it was computed
  have hV0 : (Host.reduce (FloatOps.maximumf (F := Ideal) (φ := .f32)) h (constant (⟨0, ![]⟩ : Shape) .f32 0xFF800000#32) hrt hu) (ix1 r) = rowMaxOf (fun k => h (ix2 r k)) := hostRowMax_apply h _ hrt hr hu r
  generalize (Host.reduce (FloatOps.maximumf (F := Ideal) (φ := .f32)) h (constant (⟨0, ![]⟩ : Shape) .f32 0xFF800000#32) hrt hu) = V0 at hV0 ⊢
  -- the maximum laid over the lanes
  have hB : ∀ k : Fin 40, (broadcastInDim (⟨2, ![50000, 40]⟩ : Shape) ![0, 1] hb (broadcastInDim (⟨2, ![50000, 1]⟩ : Shape) ![0] hc
          (maximumf (broadcastInDim (⟨1, ![50000]⟩ : Shape) ![] hz (constant (⟨0, ![]⟩ : Shape) .f32 0xFF800000#32))
            V0))) (ix2 r k) = rowMaxOf (fun k => h (ix2 r k)) := fun k => by
    refine (vector_lanes_apply _ hc hb r k).trans ?_
    rw [maximumf_apply, Cert.Lib.HostBroadcast.scalar_apply, hV0]
    exact max_eq_right ((Finset.le_fold_max _).2 (Or.inl le_rfl))
  generalize (broadcastInDim (⟨2, ![50000, 40]⟩ : Shape) ![0, 1] hb (broadcastInDim (⟨2, ![50000, 1]⟩ : Shape) ![0] hc
          (maximumf (broadcastInDim (⟨1, ![50000]⟩ : Shape) ![] hz (constant (⟨0, ![]⟩ : Shape) .f32 0xFF800000#32))
            V0))) = B at hB ⊢
  -- the row sum of the exponentials, then forget how it was computed
  have hS : (Host.reduceAdd (Host.exp (subf h B)) (constant (⟨0, ![]⟩ : Shape) .f32 0x00000000#32) hrt hu) (ix1 r) = ∑ k : Fin 40, Ideal.exp (h (ix2 r k) - rowMaxOf (fun k => h (ix2 r k))) := by
    rw [hostRowSum_apply _ _ hrt hr hu r, constant_apply, Ideal.ofBits_zero_f32, zero_add]
    exact Finset.sum_congr rfl fun k _ => by
      show Ideal.exp (h (ix2 r k) - B (ix2 r k)) = _
      rw [hB]
  generalize (Host.reduceAdd (Host.exp (subf h B)) (constant (⟨0, ![]⟩ : Shape) .f32 0x00000000#32) hrt hu) = V7 at hS ⊢
  rw [subf_apply, subf_apply, log_vector_lanes_apply, hS, hB]
  rfl

section Reference

open Cert.ReferenceIdeal Cert.ReferenceIdeal.Gen

/-- The host's log_softmax as its operations composed in program order, over an arbitrary [50000, 40] array. -/
def lsmHost (h : (⟨Cert.ReferenceIdeal.S50000x40, .f32⟩ : BufTy).Contents (Elt Ideal)) :
    (⟨Cert.ReferenceIdeal.S50000x40, .f32⟩ : BufTy).Contents (Elt Ideal) :=
  have cst : (⟨S_, .f32⟩ : BufTy).Contents (Elt Ideal) := constant (F := Ideal) S_ .f32 0xFF800000#32
  have v0 : (⟨S50000, .f32⟩ : BufTy).Contents (Elt Ideal) :=
    Host.reduce (FloatOps.maximumf (F := Ideal) (φ := .f32)) h cst reducesTo_S50000x40_S50000_d1 h_S_
  have cst_0 : (⟨S_, .f32⟩ : BufTy).Contents (Elt Ideal) := constant (F := Ideal) S_ .f32 0xFF800000#32
  have v1 : (⟨S50000, .f32⟩ : BufTy).Contents (Elt Ideal) := broadcastInDim S50000 ![] bcast_S_S50000 cst_0
  have v2 : (⟨S50000, .f32⟩ : BufTy).Contents (Elt Ideal) := maximumf (F := Ideal) (φ := .f32) v1 v0
  have v3 : (⟨S50000x1, .f32⟩ : BufTy).Contents (Elt Ideal) := broadcastInDim S50000x1 ![0] bcast_S50000_S50000x1_0 v2
  have v4 : (⟨S50000x40, .f32⟩ : BufTy).Contents (Elt Ideal) := broadcastInDim S50000x40 ![0, 1] bcast_S50000x1_S50000x40_0_1 v3
  have v5 : (⟨S50000x40, .f32⟩ : BufTy).Contents (Elt Ideal) := subf (F := Ideal) (φ := .f32) h v4
  have v6 : (⟨S50000x40, .f32⟩ : BufTy).Contents (Elt Ideal) := Host.exp (F := Ideal) (φ := .f32) v5
  have cst_1 : (⟨S_, .f32⟩ : BufTy).Contents (Elt Ideal) := constant (F := Ideal) S_ .f32 0x00000000#32
  have v7 : (⟨S50000, .f32⟩ : BufTy).Contents (Elt Ideal) :=
    Host.reduceAdd (F := Ideal) (φ := .f32) v6 cst_1 reducesTo_S50000x40_S50000_d1 h_S_
  have v8 : (⟨S50000x1, .f32⟩ : BufTy).Contents (Elt Ideal) := broadcastInDim S50000x1 ![0] bcast_S50000_S50000x1_0 v7
  have v9 : (⟨S50000x1, .f32⟩ : BufTy).Contents (Elt Ideal) := Host.log (F := Ideal) (φ := .f32) v8
  have v10 : (⟨S50000x40, .f32⟩ : BufTy).Contents (Elt Ideal) := broadcastInDim S50000x40 ![0, 1] bcast_S50000x1_S50000x40_0_1 v9
  subf (F := Ideal) (φ := .f32) v5 v10

/-- The host's log_softmax at (r, q) is the log-softmax of row r of the array at q. -/
theorem host_rows (h : (⟨Cert.ReferenceIdeal.S50000x40, .f32⟩ : BufTy).Contents (Elt Ideal)) (r : Fin 50000) (q : Fin 40) :
    lsmHost h (ix2 r q) = lsmRow (fun k => h (ix2 r k)) q := by
  unfold lsmHost
  dsimp only
  exact host_body_rows h _ (by decide) _ _ _ _ r q

end Reference

end Cert.Bridge.SoftmaxRows

end
-- ==== Proof.RegionArrays.lean ====
/-
  What each of the four regions leaves in its result array, as one function of the arrays it reads.

  Every region walks the 50000 rows in 25 blocks of 2000 rows; at point t it reads rows 2000 t … 2000 t + 1999 of its
  row-blocked operands (and, for the two dense products, the whole weight matrix), and writes back rows
  2000 t … 2000 t + 1999 of its result. Each body is row-wise — entry (r, q) of the result depends only on row r of the
  row-blocked operands — so the block a point writes back is the restriction to its rows of one function of the whole
  operand arrays, and the blocks tile the result array. Hence the result array after the region is that function:
    region 0:  (X, W) ↦ Σ_k X(r,k) · W(k,q)            (256 terms)
    region 1:  (H, M) ↦ max(H(r,q), 0) · M(r,q)
    region 2:  (H, W) ↦ Σ_k H(r,k) · W(k,q)            (128 terms)
    region 3:  H ↦ the log-softmax of row r of H, at lane q.
  All of it is stated at an arbitrary valuation V of the buffers at the region's entry.
-/
import proofs.«104665_j59622736003658_1_alg».proof.Proof.Gen.KernelIdeal.Frame
import proofs.«104665_j59622736003658_1_alg».proof.Proof.DenseRows
import proofs.«104665_j59622736003658_1_alg».proof.Proof.SoftmaxRows
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Bridge.DenseRows Cert.Bridge.SoftmaxRows

/-! ## The four whole-array functions -/

/-- The product of a [50000, 256] array with a [256, 128] matrix, entry by entry. -/
def denseArr1 (X : S50000x256.Idx → EReal) (W : S256x128.Idx → EReal) : S50000x128.Idx → EReal :=
  fun i => ∑ k : Fin 256, X (ix2 (n0 := 50000) (n1 := 256) ⟨(i 0).val, (i 0).isLt⟩ k) * W (ix2 (n0 := 256) (n1 := 128) k ⟨(i 1).val, (i 1).isLt⟩)

/-- relu of the first array times the second, entry by entry. -/
def reluMask (H M : S50000x128.Idx → EReal) : S50000x128.Idx → EReal := fun i => max (H i) 0 * M i

/-- The product of a [50000, 128] array with a [128, 40] matrix, entry by entry. -/
def denseArr2 (H : S50000x128.Idx → EReal) (W : S128x40.Idx → EReal) : S50000x40.Idx → EReal :=
  fun i => ∑ k : Fin 128, H (ix2 (n0 := 50000) (n1 := 128) ⟨(i 0).val, (i 0).isLt⟩ k) * W (ix2 (n0 := 128) (n1 := 40) k ⟨(i 1).val, (i 1).isLt⟩)

/-- The log-softmax of every row of a [50000, 40] array. -/
def lsmArr (H : S50000x40.Idx → EReal) : S50000x40.Idx → EReal :=
  fun i => lsmRow (fun k => H (ix2 (n0 := 50000) (n1 := 40) ⟨(i 0).val, (i 0).isLt⟩ k)) ⟨(i 1).val, (i 1).isLt⟩

/-! ## Each body on a block is the whole-array function on the rows the block holds

  Stated over plain variables: the block xb is the array X read through an embedding e0 of block indices into array
  indices, and row (j 0) of the block is row (i 0) of the array. -/

theorem dense1_rows (X : S50000x256.Idx → EReal) (W : S256x128.Idx → EReal) (xb : S2000x256.Idx → EReal) (wb : S256x128.Idx → EReal)
    (e0 : S2000x256.Idx → S50000x256.Idx) (e1 : S256x128.Idx → S256x128.Idx) (j : S2000x128.Idx) (i : S50000x128.Idx)
    (hx : ∀ y, xb y = X (e0 y)) (hw : ∀ y, wb y = W (e1 y))
    (h0 : ∀ k : Fin 256, e0 (ix2 (n0 := 2000) (n1 := 256) ⟨(j 0).val, (j 0).isLt⟩ k) = ix2 (n0 := 50000) (n1 := 256) ⟨(i 0).val, (i 0).isLt⟩ k)
    (h1 : ∀ k : Fin 256, e1 (ix2 (n0 := 256) (n1 := 128) k ⟨(j 1).val, (j 1).isLt⟩) = ix2 (n0 := 256) (n1 := 128) k ⟨(i 1).val, (i 1).isLt⟩) :
    k0_pay1 (F := Ideal) xb wb j = denseArr1 X W i := by
  have hj : j = ix2 (n0 := 2000) (n1 := 128) ⟨(j 0).val, (j 0).isLt⟩ ⟨(j 1).val, (j 1).isLt⟩ := by
    funext a; match a with | ⟨0, _⟩ => rfl | ⟨1, _⟩ => rfl
  rw [hj, dense1_block]
  unfold denseArr1
  refine Finset.sum_congr rfl fun k _ => ?_
  rw [hx, hw, h0, h1]

theorem relu_rows (H M : S50000x128.Idx → EReal) (hb mb : S2000x128.Idx → EReal)
    (e0 e1 : S2000x128.Idx → S50000x128.Idx) (j : S2000x128.Idx) (i : S50000x128.Idx)
    (hx : ∀ y, hb y = H (e0 y)) (hm : ∀ y, mb y = M (e1 y)) (h0 : e0 j = i) (h1 : e1 j = i) :
    k1_pay1 (F := Ideal) hb mb j = reluMask H M i := by
  rw [relu_mask_block, hx, hm, h0, h1]; rfl

theorem dense2_rows (H : S50000x128.Idx → EReal) (W : S128x40.Idx → EReal) (xb : S2000x128.Idx → EReal) (wb : S128x40.Idx → EReal)
    (e0 : S2000x128.Idx → S50000x128.Idx) (e1 : S128x40.Idx → S128x40.Idx) (j : S2000x40.Idx) (i : S50000x40.Idx)
    (hx : ∀ y, xb y = H (e0 y)) (hw : ∀ y, wb y = W (e1 y))
    (h0 : ∀ k : Fin 128, e0 (ix2 (n0 := 2000) (n1 := 128) ⟨(j 0).val, (j 0).isLt⟩ k) = ix2 (n0 := 50000) (n1 := 128) ⟨(i 0).val, (i 0).isLt⟩ k)
    (h1 : ∀ k : Fin 128, e1 (ix2 (n0 := 128) (n1 := 40) k ⟨(j 1).val, (j 1).isLt⟩) = ix2 (n0 := 128) (n1 := 40) k ⟨(i 1).val, (i 1).isLt⟩) :
    k2_pay1 (F := Ideal) xb wb j = denseArr2 H W i := by
  have hj : j = ix2 (n0 := 2000) (n1 := 40) ⟨(j 0).val, (j 0).isLt⟩ ⟨(j 1).val, (j 1).isLt⟩ := by
    funext a; match a with | ⟨0, _⟩ => rfl | ⟨1, _⟩ => rfl
  rw [hj, dense2_block]
  unfold denseArr2
  refine Finset.sum_congr rfl fun k _ => ?_
  rw [hx, hw, h0, h1]

theorem lsm_rows (H : S50000x40.Idx → EReal) (hb : S2000x40.Idx → EReal) (e0 : S2000x40.Idx → S50000x40.Idx)
    (j : S2000x40.Idx) (i : S50000x40.Idx) (hx : ∀ y, hb y = H (e0 y))
    (h0 : ∀ k : Fin 40, e0 (ix2 (n0 := 2000) (n1 := 40) ⟨(j 0).val, (j 0).isLt⟩ k) = ix2 (n0 := 50000) (n1 := 40) ⟨(i 0).val, (i 0).isLt⟩ k)
    (h1 : (j 1).val = (i 1).val) :
    k3_pay1 (F := Ideal) hb j = lsmArr H i := by
  have hj : j = ix2 (n0 := 2000) (n1 := 40) ⟨(j 0).val, (j 0).isLt⟩ ⟨(j 1).val, (j 1).isLt⟩ := by
    funext a; match a with | ⟨0, _⟩ => rfl | ⟨1, _⟩ => rfl
  rw [hj, kernel_rows]
  unfold lsmArr
  have hq : (⟨(j 1).val, (j 1).isLt⟩ : Fin 40) = ⟨(i 1).val, (i 1).isLt⟩ := Fin.ext h1
  rw [hq]
  exact congrArg (fun row => lsmRow row _) (funext fun k => by rw [hx, h0])

/-! ## The regions at an entry valuation -/

variable (V : (c : Dev nD) → (b : Ref sig .tc) → Buf (Elt Ideal) ((c : Thread nD τ).loc b))

theorem zero_offsets : (![0, 0] : Fin 2 → Nat) = fun _ => 0 := funext fun a => by fin_cases a <;> rfl

/-! ### The printed index maps, decided once over the 25 points: a row-blocked window is at block row t, lane block 0; the
    weight windows stay at block (0, 0) -/

theorem idx0_0_0 : ∀ t : Fin cfg0.N, win0_0.index t (0 : Fin 2) = t.val :=
  (by decide +kernel : ∀ t : Fin grid0.N, _)
theorem idx0_0_1 : ∀ t : Fin cfg0.N, win0_0.index t (1 : Fin 2) = 0 :=
  (by decide +kernel : ∀ t : Fin grid0.N, _)
theorem idx0_1_0 : ∀ t : Fin cfg0.N, win0_1.index t (0 : Fin 2) = 0 :=
  (by decide +kernel : ∀ t : Fin grid0.N, _)
theorem idx0_1_1 : ∀ t : Fin cfg0.N, win0_1.index t (1 : Fin 2) = 0 :=
  (by decide +kernel : ∀ t : Fin grid0.N, _)
theorem idx0_2_0 : ∀ t : Fin cfg0.N, win0_2.index t (0 : Fin 2) = t.val :=
  (by decide +kernel : ∀ t : Fin grid0.N, _)
theorem idx0_2_1 : ∀ t : Fin cfg0.N, win0_2.index t (1 : Fin 2) = 0 :=
  (by decide +kernel : ∀ t : Fin grid0.N, _)
theorem idx1_0_0 : ∀ t : Fin cfg1.N, win1_0.index t (0 : Fin 2) = t.val :=
  (by decide +kernel : ∀ t : Fin grid1.N, _)
theorem idx1_0_1 : ∀ t : Fin cfg1.N, win1_0.index t (1 : Fin 2) = 0 :=
  (by decide +kernel : ∀ t : Fin grid1.N, _)
theorem idx1_1_0 : ∀ t : Fin cfg1.N, win1_1.index t (0 : Fin 2) = t.val :=
  (by decide +kernel : ∀ t : Fin grid1.N, _)
theorem idx1_1_1 : ∀ t : Fin cfg1.N, win1_1.index t (1 : Fin 2) = 0 :=
  (by decide +kernel : ∀ t : Fin grid1.N, _)
theorem idx1_2_0 : ∀ t : Fin cfg1.N, win1_2.index t (0 : Fin 2) = t.val :=
  (by decide +kernel : ∀ t : Fin grid1.N, _)
theorem idx1_2_1 : ∀ t : Fin cfg1.N, win1_2.index t (1 : Fin 2) = 0 :=
  (by decide +kernel : ∀ t : Fin grid1.N, _)
theorem idx2_0_0 : ∀ t : Fin cfg2.N, win2_0.index t (0 : Fin 2) = t.val :=
  (by decide +kernel : ∀ t : Fin grid2.N, _)
theorem idx2_0_1 : ∀ t : Fin cfg2.N, win2_0.index t (1 : Fin 2) = 0 :=
  (by decide +kernel : ∀ t : Fin grid2.N, _)
theorem idx2_1_0 : ∀ t : Fin cfg2.N, win2_1.index t (0 : Fin 2) = 0 :=
  (by decide +kernel : ∀ t : Fin grid2.N, _)
theorem idx2_1_1 : ∀ t : Fin cfg2.N, win2_1.index t (1 : Fin 2) = 0 :=
  (by decide +kernel : ∀ t : Fin grid2.N, _)
theorem idx2_2_0 : ∀ t : Fin cfg2.N, win2_2.index t (0 : Fin 2) = t.val :=
  (by decide +kernel : ∀ t : Fin grid2.N, _)
theorem idx2_2_1 : ∀ t : Fin cfg2.N, win2_2.index t (1 : Fin 2) = 0 :=
  (by decide +kernel : ∀ t : Fin grid2.N, _)
theorem idx3_0_0 : ∀ t : Fin cfg3.N, win3_0.index t (0 : Fin 2) = t.val :=
  (by decide +kernel : ∀ t : Fin grid3.N, _)
theorem idx3_0_1 : ∀ t : Fin cfg3.N, win3_0.index t (1 : Fin 2) = 0 :=
  (by decide +kernel : ∀ t : Fin grid3.N, _)
theorem idx3_1_0 : ∀ t : Fin cfg3.N, win3_1.index t (0 : Fin 2) = t.val :=
  (by decide +kernel : ∀ t : Fin grid3.N, _)
theorem idx3_1_1 : ∀ t : Fin cfg3.N, win3_1.index t (1 : Fin 2) = 0 :=
  (by decide +kernel : ∀ t : Fin grid3.N, _)

/-! ### Region 0: the first dense product -/

theorem flushed0 (c : Dev nD) (t : Fin cfg0.N) :
    (dat0 V c).flushed 2 t = ((cfg0.win 2).blk t).view.read (Elt Ideal) (denseArr1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x128) zero_offsets]
  have a00 := idx0_0_0 t; have a01 := idx0_0_1 t
  have a10 := idx0_1_0 t; have a11 := idx0_1_1 t
  have a20 := idx0_2_0 t; have a21 := idx0_2_1 t
  funext j
  show k0_pay1 (F := Ideal) (iblk0 V c 0 t) (iblk0 V c 1 t) j = denseArr1 (V c main_arg0) (V c main_arg2) (((cfg0.win 2).blk t).view.emb j)
  refine dense1_rows (V c main_arg0) (V c main_arg2) (iblk0 V c 0 t) (iblk0 V c 1 t) (((cfg0.win 0).blk t).view.emb) (((cfg0.win 1).blk t).view.emb)
    j (((cfg0.win 2).blk t).view.emb j) (fun y => rfl) (fun y => rfl) (fun k => ?_) (fun k => ?_)
  · funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  · funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of region 0's result array is in point t's block iff each coordinate is in the block's range. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- Row r of the result array lies in the block of point r / 2000: the 25 blocks of 2000 rows tile the 50000 rows. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 25 := N_0
  have ht : (i 0).val / 2000 < cfg0.N := by show (i 0).val / 2000 < grid0.N; omega
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [idx0_2_0]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [idx0_2_1]; omega

/-- The first dense product's result array after region 0. -/
theorem final0 (c : Dev nD) : (dat0 V c).arrAt 2 cfg0.N = denseArr1 (V c main_arg0) (V c main_arg2) :=
  (dat0 V c).arrAt_eq_of_cover 2 _ (fun t _ => flushed0 V c t) cover0

/-! ### Region 1: relu times mask -/

theorem flushed1 (c : Dev nD) (t : Fin cfg1.N) :
    (dat1 V c).flushed 2 t = ((cfg1.win 2).blk t).view.read (Elt Ideal) (reluMask (V c main_v45) (V c main_arg6)) := by
  show (cfg1.win 2).cut (grid1.coords t) ((dat1 V c).after 2 t) = _
  rw [after1_2]
  unfold out1_2
  rw [View.canon_unit_zero zero_offsets]
  simp only [View.ld_unit_zero (S := S2000x128) zero_offsets]
  have a00 := idx1_0_0 t; have a01 := idx1_0_1 t
  have a10 := idx1_1_0 t; have a11 := idx1_1_1 t
  have a20 := idx1_2_0 t; have a21 := idx1_2_1 t
  funext j
  show k1_pay1 (F := Ideal) (iblk1 V c 0 t) (iblk1 V c 1 t) j = reluMask (V c main_v45) (V c main_arg6) (((cfg1.win 2).blk t).view.emb j)
  refine relu_rows (V c main_v45) (V c main_arg6) (iblk1 V c 0 t) (iblk1 V c 1 t) (((cfg1.win 0).blk t).view.emb) (((cfg1.win 1).blk t).view.emb)
    j (((cfg1.win 2).blk t).view.emb j) (fun y => rfl) (fun y => rfl) ?_ ?_
  · funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  · funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 128 + 1 * (j 1).val = win1_2.index t (1 : Fin 2) * 128 + 1 * (j 1).val; omega

/-- An index of region 1's result array is in point t's block iff each coordinate is in the block's range. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v46).slice (win1_2.rect t)).set ↔ _
  rw [View.set_slice_whole, Rect.mem_set_unit]
  exact Iff.rfl

/-- Row r of the result array lies in the block of point r / 2000: the 25 blocks of 2000 rows tile the 50000 rows. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 25 := N_1
  have ht : (i 0).val / 2000 < cfg1.N := by show (i 0).val / 2000 < grid1.N; omega
  refine ⟨⟨(i 0).val / 2000, ht⟩, flush1_2 _, ?_⟩
  rw [mem_blk1]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [idx1_2_0]; show (i 0).val / 2000 * 2000 ≤ (i 0).val ∧ (i 0).val < (i 0).val / 2000 * 2000 + 2000; omega
  | ⟨1, _⟩ =>
    show win1_2.index ⟨(i 0).val / 2000, ht⟩ (1 : Fin 2) * 128 ≤ (i 1).val ∧ (i 1).val < win1_2.index ⟨(i 0).val / 2000, ht⟩ (1 : Fin 2) * 128 + 128
    rw [idx1_2_1]; omega

/-- The masked activations after region 1. -/
theorem final1 (c : Dev nD) : (dat1 V c).arrAt 2 cfg1.N = reluMask (V c main_v45) (V c main_arg6) :=
  (dat1 V c).arrAt_eq_of_cover 2 _ (fun t _ => flushed1 V c t) cover1

/-! ### Region 2: the second dense product -/

theorem flushed2 (c : Dev nD) (t : Fin cfg2.N) :
    (dat2 V c).flushed 2 t = ((cfg2.win 2).blk t).view.read (Elt Ideal) (denseArr2 (V c main_v46) (V c main_arg4)) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x40) zero_offsets]
  have a00 := idx2_0_0 t; have a01 := idx2_0_1 t
  have a10 := idx2_1_0 t; have a11 := idx2_1_1 t
  have a20 := idx2_2_0 t; have a21 := idx2_2_1 t
  funext j
  show k2_pay1 (F := Ideal) (iblk2 V c 0 t) (iblk2 V c 1 t) j = denseArr2 (V c main_v46) (V c main_arg4) (((cfg2.win 2).blk t).view.emb j)
  refine dense2_rows (V c main_v46) (V c main_arg4) (iblk2 V c 0 t) (iblk2 V c 1 t) (((cfg2.win 0).blk t).view.emb) (((cfg2.win 1).blk t).view.emb)
    j (((cfg2.win 2).blk t).view.emb j) (fun y => rfl) (fun y => rfl) (fun k => ?_) (fun k => ?_)
  · funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  · funext a; apply Fin.ext
    match a with
    | ⟨0, _⟩ => show win2_1.index t (0 : Fin 2) * 128 + 1 * k.val = k.val; omega
    | ⟨1, _⟩ => show win2_1.index t (1 : Fin 2) * 40 + 1 * (j 1).val = win2_2.index t (1 : Fin 2) * 40 + 1 * (j 1).val; omega

/-- An index of region 2's result array is in point t's block iff each coordinate is in the block's range. -/
theorem mem_blk2 (t : Fin cfg2.N) (i : S50000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v47).slice (win2_2.rect t)).set ↔ _
  rw [View.set_slice_whole, Rect.mem_set_unit]
  exact Iff.rfl

/-- Row r of the result array lies in the block of point r / 2000: the 25 blocks of 2000 rows tile the 50000 rows. -/
theorem cover2 (i : S50000x40.Idx) : ∃ t : Fin cfg2.N, (cfg2.win 2).flush t = true ∧ i ∈ ((cfg2.win 2).blk t).view.set := by
  have hi0 : (i 0).val < 50000 := (i 0).isLt
  have hi1 : (i 1).val < 40 := (i 1).isLt
  have hN : grid2.N = 25 := N_2
  have ht : (i 0).val / 2000 < cfg2.N := by show (i 0).val / 2000 < grid2.N; omega
  refine ⟨⟨(i 0).val / 2000, ht⟩, flush2_2 _, ?_⟩
  rw [mem_blk2]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [idx2_2_0]; show (i 0).val / 2000 * 2000 ≤ (i 0).val ∧ (i 0).val < (i 0).val / 2000 * 2000 + 2000; omega
  | ⟨1, _⟩ =>
    show win2_2.index ⟨(i 0).val / 2000, ht⟩ (1 : Fin 2) * 40 ≤ (i 1).val ∧ (i 1).val < win2_2.index ⟨(i 0).val / 2000, ht⟩ (1 : Fin 2) * 40 + 40
    rw [idx2_2_1]; omega

/-- The second dense product's result array after region 2. -/
theorem final2 (c : Dev nD) : (dat2 V c).arrAt 2 cfg2.N = denseArr2 (V c main_v46) (V c main_arg4) :=
  (dat2 V c).arrAt_eq_of_cover 2 _ (fun t _ => flushed2 V c t) cover2

/-! ### Region 3: the row-wise log-softmax -/

theorem flushed3 (c : Dev nD) (t : Fin cfg3.N) :
    (dat3 V c).flushed 1 t = ((cfg3.win 1).blk t).view.read (Elt Ideal) (lsmArr (V c main_v88)) := by
  show (cfg3.win 1).cut (grid3.coords t) ((dat3 V c).after 1 t) = _
  rw [after3_1]
  unfold out3_1
  rw [View.canon_unit_zero zero_offsets]
  simp only [View.ld_unit_zero (S := S2000x40) zero_offsets]
  have a00 := idx3_0_0 t; have a01 := idx3_0_1 t
  have a10 := idx3_1_0 t; have a11 := idx3_1_1 t
  funext j
  show k3_pay1 (F := Ideal) (iblk3 V c 0 t) j = lsmArr (V c main_v88) (((cfg3.win 1).blk t).view.emb j)
  refine lsm_rows (V c main_v88) (iblk3 V c 0 t) (((cfg3.win 0).blk t).view.emb) j (((cfg3.win 1).blk t).view.emb j) (fun y => rfl) (fun k => ?_) ?_
  · funext a; apply Fin.ext
    match a with
    | ⟨0, _⟩ => show win3_0.index t (0 : Fin 2) * 2000 + 1 * (j 0).val = win3_1.index t (0 : Fin 2) * 2000 + 1 * (j 0).val; omega
    | ⟨1, _⟩ => show win3_0.index t (1 : Fin 2) * 40 + 1 * k.val = k.val; omega
  · show (j 1).val = win3_1.index t (1 : Fin 2) * 40 + 1 * (j 1).val; omega

/-- An index of region 3's result array is in point t's block iff each coordinate is in the block's range. -/
theorem mem_blk3 (t : Fin cfg3.N) (i : S50000x40.Idx) :
    i ∈ ((cfg3.win 1).blk t).view.set ↔ ∀ a : Fin 2, win3_1.index t a * S2000x40.size a ≤ (i a).val ∧ (i a).val < win3_1.index t a * S2000x40.size a + S2000x40.size a := by
  show i ∈ ((View.whole main_v89).slice (win3_1.rect t)).set ↔ _
  rw [View.set_slice_whole, Rect.mem_set_unit]
  exact Iff.rfl

/-- Row r of the result array lies in the block of point r / 2000: the 25 blocks of 2000 rows tile the 50000 rows. -/
theorem cover3 (i : S50000x40.Idx) : ∃ t : Fin cfg3.N, (cfg3.win 1).flush t = true ∧ i ∈ ((cfg3.win 1).blk t).view.set := by
  have hi0 : (i 0).val < 50000 := (i 0).isLt
  have hi1 : (i 1).val < 40 := (i 1).isLt
  have hN : grid3.N = 25 := N_3
  have ht : (i 0).val / 2000 < cfg3.N := by show (i 0).val / 2000 < grid3.N; omega
  refine ⟨⟨(i 0).val / 2000, ht⟩, flush3_1 _, ?_⟩
  rw [mem_blk3]
  intro a
  match a with
  | ⟨0, _⟩ =>
    show win3_1.index ⟨(i 0).val / 2000, ht⟩ (0 : Fin 2) * 2000 ≤ (i 0).val ∧ (i 0).val < win3_1.index ⟨(i 0).val / 2000, ht⟩ (0 : Fin 2) * 2000 + 2000
    rw [idx3_1_0]; show (i 0).val / 2000 * 2000 ≤ (i 0).val ∧ (i 0).val < (i 0).val / 2000 * 2000 + 2000; omega
  | ⟨1, _⟩ =>
    show win3_1.index ⟨(i 0).val / 2000, ht⟩ (1 : Fin 2) * 40 ≤ (i 1).val ∧ (i 1).val < win3_1.index ⟨(i 0).val / 2000, ht⟩ (1 : Fin 2) * 40 + 40
    rw [idx3_1_1]; omega

/-- The result array after region 3. -/
theorem final3 (c : Dev nD) : (dat3 V c).arrAt 1 cfg3.N = lsmArr (V c main_v88) :=
  (dat3 V c).arrAt_eq_of_cover 1 _ (fun t _ => flushed3 V c t) cover3

end Cert.KernelIdeal.RegionValue

end
-- ==== Proof.LibAfter.lean ====
/-
  General facts about `StableHlo.after` over a line in single-assignment form: a line of host operations each of
  which writes exactly one reference, the written references pairwise distinct. For such a line the contents of a
  written reference after the whole line are the writing operation's result over the contents after the operations
  before it, and a reference written before position `k` (or never written) holds after the whole line what it holds
  after the first `k` operations. Hence the per-operation read equations `read_unary`, `read_binary`, … : the
  final contents of a result are the operation's function of the FINAL contents of its operands.
-/
import Idealize.ShloMosaic.Lib.StableHlo.Run

namespace Cert.LibAfter

open Idealize.ShloMosaic Idealize.ShloMosaic.StableHlo

variable {τ : Topo} {sig : RefSig} {Val : EltTy → Type}

/-- Operation by operation, the line writes exactly the references of the list. -/
abbrev Writes (ops : List (HloOp τ sig Val)) (wr : List (Ref sig .tc)) : Prop :=
  List.Forall₂ (fun op r => op.writes = {Proc.devRef (τ := τ) .tc r}) ops wr

/-- The fold over two lines in a row is the fold over the second from the fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference the line never writes keeps its contents. -/
theorem after_of_not_written {ops : List (HloOp τ sig Val)} {wr : List (Ref sig .tc)} (hw : Writes ops wr)
    {r : Ref sig .tc} (hr : r ∉ wr) (V : Valuation τ sig Val) :
    after ops V (Proc.devRef .tc r) = V (Proc.devRef .tc r) := by
  induction hw generalizing V with
  | nil => rfl
  | @cons op r' ops wr hop _ ih =>
    rw [after_cons, ih (fun h => hr (List.mem_cons_of_mem _ h)),
      op.result_of_not_mem V (by
        rw [hop, Finset.mem_singleton]
        exact devRef_ne_of_ne (fun e => hr (e ▸ List.mem_cons_self)))]

theorem writes_drop {ops : List (HloOp τ sig Val)} {wr : List (Ref sig .tc)} (hw : Writes ops wr) (k : Nat) :
    Writes (ops.drop k) (wr.drop k) := List.forall₂_drop k hw

theorem writes_append {o₁ o₂ : List (HloOp τ sig Val)} {w₁ w₂ : List (Ref sig .tc)} (h₁ : Writes o₁ w₁) (h₂ : Writes o₂ w₂) :
    Writes (o₁ ++ o₂) (w₁ ++ w₂) := List.rel_append h₁ h₂

/-- In a list without repetition, the entry at a position is not among the entries from a later position on. -/
theorem not_mem_drop_of_lt {α : Type} {l : List α} (hnd : l.Nodup) {i k : Nat} (hik : i < k) {a : α}
    (ha : l[i]? = some a) : a ∉ l.drop k := by
  intro hmem
  obtain ⟨j, hj⟩ := List.mem_iff_getElem?.mp hmem
  rw [List.getElem?_drop] at hj
  have hlt : k + j < l.length := (List.getElem?_eq_some_iff.mp hj).1
  exact (List.nodup_iff_getElem?_ne_getElem?.mp hnd i (k + j) (by omega) hlt) (ha.trans hj.symm)

theorem not_mem_drop_of_not_mem {α : Type} {l : List α} {a : α} (ha : a ∉ l) (k : Nat) : a ∉ l.drop k :=
  fun h => ha (List.mem_of_mem_drop h)

/-- A reference not written from position `k` on holds after the line what it holds after the first `k` operations. -/
theorem after_keep {ops : List (HloOp τ sig Val)} {wr : List (Ref sig .tc)} (hw : Writes ops wr) (k : Nat)
    {a : Ref sig .tc} (ha : a ∉ wr.drop k) (V : Valuation τ sig Val) :
    after ops V (Proc.devRef .tc a) = after (ops.take k) V (Proc.devRef .tc a) := by
  conv_lhs => rw [← List.take_append_drop k ops]
  rw [after_append, after_of_not_written (writes_drop hw k) ha]

/-- The reference written at position `k` holds after the line the result of that operation over the contents after
    the first `k` operations. -/
theorem after_at {ops : List (HloOp τ sig Val)} {wr : List (Ref sig .tc)} (hw : Writes ops wr) (hnd : wr.Nodup) (k : Nat)
    {op : HloOp τ sig Val} {y : Ref sig .tc} (hop : ops[k]? = some op) (hy : wr[k]? = some y) (V : Valuation τ sig Val) :
    after ops V (Proc.devRef .tc y) = op.result (after (ops.take k) V) (Proc.devRef .tc y) := by
  obtain ⟨hk, hopk⟩ := List.getElem?_eq_some_iff.mp hop
  have e : ops = ops.take k ++ op :: ops.drop (k + 1) := by
    rw [← hopk, ← List.drop_eq_getElem_cons hk, List.take_append_drop]
  conv_lhs => rw [e]
  rw [after_append, after_cons,
    after_of_not_written (writes_drop hw (k + 1)) (not_mem_drop_of_lt hnd (Nat.lt_succ_self k) hy)]

section Reads

variable {ops : List (HloOp τ sig Val)} {wr : List (Ref sig .tc)} (hw : Writes ops wr) (hnd : wr.Nodup) (k : Nat)
include hw hnd

/-- A constant's buffer holds the constant. -/
theorem read_nullary {y : Ref sig .tc} {v : y.ty.Contents Val} {hy}
    (hop : ops[k]? = some (nullary (τ := τ) y v hy)) (hyk : wr[k]? = some y) (V : Valuation τ sig Val) :
    after ops V (Proc.devRef .tc y) = v := by
  rw [after_at hw hnd k hop hyk, nullary_result]

/-- A one-operand operation's result holds its function of the operand's final contents. -/
theorem read_unary {x y : Ref sig .tc} {f : x.ty.Contents Val → y.ty.Contents Val} {hx hy}
    (hop : ops[k]? = some (unary (τ := τ) x y f hx hy)) (hyk : wr[k]? = some y) (hxk : x ∉ wr.drop k)
    (V : Valuation τ sig Val) :
    after ops V (Proc.devRef .tc y) = f (after ops V (Proc.devRef .tc x)) := by
  rw [after_at hw hnd k hop hyk, unary_result, after_keep hw k hxk]

/-- A two-operand operation's result holds its function of the operands' final contents. -/
theorem read_binary {a b y : Ref sig .tc} {f : a.ty.Contents Val → b.ty.Contents Val → y.ty.Contents Val} {ha hb hy}
    (hop : ops[k]? = some (binary (τ := τ) a b y f ha hb hy)) (hyk : wr[k]? = some y)
    (hak : a ∉ wr.drop k) (hbk : b ∉ wr.drop k) (V : Valuation τ sig Val) :
    after ops V (Proc.devRef .tc y) = f (after ops V (Proc.devRef .tc a)) (after ops V (Proc.devRef .tc b)) := by
  rw [after_at hw hnd k hop hyk, binary_result, after_keep hw k hak, after_keep hw k hbk]

/-- A three-operand operation's result holds its function of the operands' final contents. -/
theorem read_ternary {c a b y : Ref sig .tc}
    {f : c.ty.Contents Val → a.ty.Contents Val → b.ty.Contents Val → y.ty.Contents Val} {hc ha hb hy}
    (hop : ops[k]? = some (ternary (τ := τ) c a b y f hc ha hb hy)) (hyk : wr[k]? = some y)
    (hck : c ∉ wr.drop k) (hak : a ∉ wr.drop k) (hbk : b ∉ wr.drop k) (V : Valuation τ sig Val) :
    after ops V (Proc.devRef .tc y)
      = f (after ops V (Proc.devRef .tc c)) (after ops V (Proc.devRef .tc a)) (after ops V (Proc.devRef .tc b)) := by
  rw [after_at hw hnd k hop hyk, ternary_result, after_keep hw k hck, after_keep hw k hak, after_keep hw k hbk]

/-- A reshape's result holds the operand's final contents, re-indexed row-major at the result's shape. -/
theorem read_reshape {x y : Ref sig .tc} {he : x.ty.elt = y.ty.elt} {hn : x.ty.shape.ShapeCasts y.ty.shape} {hx hy}
    (hop : ops[k]? = some (reshape (τ := τ) (Val := Val) x y he hn hx hy)) (hyk : wr[k]? = some y) (hxk : x ∉ wr.drop k)
    (V : Valuation τ sig Val) :
    after ops V (Proc.devRef .tc y) = fun i => he ▸ shapeCast y.ty.shape (after ops V (Proc.devRef .tc x)) hn i := by
  rw [after_at hw hnd k hop hyk, reshape_result, after_keep hw k hxk]

end Reads

end Cert.LibAfter
-- ==== Proof.MessagePassing.lean ====
/-
  Message passing on the host, as one function.

  Between the dense products the program normalises and aggregates over the graph: with the self-loops appended to the
  edge list, deg is the scatter-add of ones over the destinations, dinv = rsqrt (max deg 1), every edge's weight is
  dinv[src] · dinv[dst], the messages are the gathered rows h[src] times that weight, and the result is their scatter-add
  over the destinations plus the bias. The same fifty-one operations run twice, on 128 and on 40 features. Here each run
  is one function of (features, bias, sources, destinations), spelled operation by operation as the program spells it,
  and never opened again: the proof only uses that both programs apply THIS function to equal arguments.
  Also: what the first four operations (two slices, two reshapes) make of the edge-index array, and that a stretch of
  host operations leaves every buffer it does not write as it was.
-/
import proofs.«104665_j59622736003658_1_alg».proof.Proof.Gen.KernelIdeal.Launch
import proofs.«104665_j59622736003658_1_alg».proof.Proof.LibAfter
import Idealize.ShloMosaic.Lib.StableHlo.Run

set_option maxRecDepth 16384

noncomputable section

namespace Cert.KernelIdeal.HostValue

open Cert.KernelIdeal Cert.KernelIdeal.Facts₀ Cert.KernelIdeal.Facts
open Idealize.ShloMosaic Idealize.ShloMosaic.TcCoe Idealize.SL.Sem Idealize.ShloMosaic.StableHlo

variable {F : FTy → Type} [FloatOps F]

/-- The sources: row 0 of the edge-index array, as a vector. -/
def edgeSrc (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- The destinations: row 1 of the edge-index array, as a vector. -/
def edgeDst (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- Normalised aggregation of 128 features over the graph with self-loops, plus the bias. -/
def pass128 (h : (⟨S50000x128, .f32⟩ : BufTy).Contents (Elt F)) (bias : (⟨S128, .f32⟩ : BufTy).Contents (Elt F)) (src dst : (⟨S1600000, .i32⟩ : BufTy).Contents (Elt F)) : (⟨S50000x128, .f32⟩ : BufTy).Contents (Elt F) :=
  have v5 : (⟨S50000, .i32⟩ : BufTy).Contents (Elt F) := iotaInDim S50000 32 0
  have v6 : (⟨S1650000, .i32⟩ : BufTy).Contents (Elt F) := ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) src v5
  have v7 : (⟨S1650000, .i32⟩ : BufTy).Contents (Elt F) := ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) dst v5
  have cst : (⟨S_, .f32⟩ : BufTy).Contents (Elt F) := constant S_ .f32 0x3F800000#32
  have v8 : (⟨S1650000, .f32⟩ : BufTy).Contents (Elt F) := (broadcastInDim S1650000 ![] bcast_S_S1650000 : (⟨S_, .f32⟩ : BufTy).Contents (Elt F) → (⟨S1650000, .f32⟩ : BufTy).Contents (Elt F)) cst
  have cst_0 : (⟨S_, .f32⟩ : BufTy).Contents (Elt F) := constant S_ .f32 0x00000000#32
  have v9 : (⟨S50000, .f32⟩ : BufTy).Contents (Elt F) := (broadcastInDim S50000 ![] bcast_S_S50000 : (⟨S_, .f32⟩ : BufTy).Contents (Elt F) → (⟨S50000, .f32⟩ : BufTy).Contents (Elt F)) cst_0
  have v10 : (⟨S1650000x1, .i32⟩ : BufTy).Contents (Elt F) := (broadcastInDim S1650000x1 ![0] bcast_S1650000_S1650000x1_0 : (⟨S1650000, .i32⟩ : BufTy).Contents (Elt F) → (⟨S1650000x1, .i32⟩ : BufTy).Contents (Elt F)) v7
  have v11 : (⟨S50000, .f32⟩ : BufTy).Contents (Elt F) := ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)) v9 v10 v8
  have cst_1 : (⟨S_, .f32⟩ : BufTy).Contents (Elt F) := constant S_ .f32 0x3F800000#32
  have v12 : (⟨S50000, .f32⟩ : BufTy).Contents (Elt F) := (broadcastInDim S50000 ![] bcast_S_S50000 : (⟨S_, .f32⟩ : BufTy).Contents (Elt F) → (⟨S50000, .f32⟩ : BufTy).Contents (Elt F)) cst_1
  have v13 : (⟨S50000, .f32⟩ : BufTy).Contents (Elt F) := (maximumf : (⟨S50000, .f32⟩ : BufTy).Contents (Elt F) → (⟨S50000, .f32⟩ : BufTy).Contents (Elt F) → (⟨S50000, .f32⟩ : BufTy).Contents (Elt F)) v11 v12
  have v14 : (⟨S50000, .f32⟩ : BufTy).Contents (Elt F) := (Host.rsqrt : (⟨S50000, .f32⟩ : BufTy).Contents (Elt F) → (⟨S50000, .f32⟩ : BufTy).Contents (Elt F)) v13
  have c : (⟨S_, .i32⟩ : BufTy).Contents (Elt F) := constantI S_ 32 0#32
  have v15 : (⟨S1650000, .i32⟩ : BufTy).Contents (Elt F) := (broadcastInDim S1650000 ![] bcast_S_S1650000 : (⟨S_, .i32⟩ : BufTy).Contents (Elt F) → (⟨S1650000, .i32⟩ : BufTy).Contents (Elt F)) c
  have v16 : (⟨S1650000, .i1⟩ : BufTy).Contents (Elt F) := (cmpi .slt : (⟨S1650000, .i32⟩ : BufTy).Contents (Elt F) → (⟨S1650000, .i32⟩ : BufTy).Contents (Elt F) → (⟨S1650000, .i1⟩ : BufTy).Contents (Elt F)) v6 v15
  have c_2 : (⟨S_, .i32⟩ : BufTy).Contents (Elt F) := constantI S_ 32 50000#32
  have v17 : (⟨S1650000, .i32⟩ : BufTy).Contents (Elt F) := (broadcastInDim S1650000 ![] bcast_S_S1650000 : (⟨S_, .i32⟩ : BufTy).Contents (Elt F) → (⟨S1650000, .i32⟩ : BufTy).Contents (Elt F)) c_2
  have v18 : (⟨S1650000, .i32⟩ : BufTy).Contents (Elt F) := (addi : (⟨S1650000, .i32⟩ : BufTy).Contents (Elt F) → (⟨S1650000, .i32⟩ : BufTy).Contents (Elt F) → (⟨S1650000, .i32⟩ : BufTy).Contents (Elt F)) v6 v17
  have v19 : (⟨S1650000, .i32⟩ : BufTy).Contents (Elt F) := (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)) v16 v18 v6
  have v20 : (⟨S1650000x1, .i32⟩ : BufTy).Contents (Elt F) := (broadcastInDim S1650000x1 ![0] bcast_S1650000_S1650000x1_0 : (⟨S1650000, .i32⟩ : BufTy).Contents (Elt F) → (⟨S1650000x1, .i32⟩ : BufTy).Contents (Elt F)) v19
  have v21 : (⟨S1650000, .f32⟩ : BufTy).Contents (Elt F) := ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)) v14 v20
  have c_3 : (⟨S_, .i32⟩ : BufTy).Contents (Elt F) := constantI S_ 32 0#32
  have v22 : (⟨S1650000, .i32⟩ : BufTy).Contents (Elt F) := (broadcastInDim S1650000 ![] bcast_S_S1650000 : (⟨S_, .i32⟩ : BufTy).Contents (Elt F) → (⟨S1650000, .i32⟩ : BufTy).Contents (Elt F)) c_3
  have v23 : (⟨S1650000, .i1⟩ : BufTy).Contents (Elt F) := (cmpi .slt : (⟨S1650000, .i32⟩ : BufTy).Contents (Elt F) → (⟨S1650000, .i32⟩ : BufTy).Contents (Elt F) → (⟨S1650000, .i1⟩ : BufTy).Contents (Elt F)) v7 v22
  have c_4 : (⟨S_, .i32⟩ : BufTy).Contents (Elt F) := constantI S_ 32 50000#32
  have v24 : (⟨S1650000, .i32⟩ : BufTy).Contents (Elt F) := (broadcastInDim S1650000 ![] bcast_S_S1650000 : (⟨S_, .i32⟩ : BufTy).Contents (Elt F) → (⟨S1650000, .i32⟩ : BufTy).Contents (Elt F)) c_4
  have v25 : (⟨S1650000, .i32⟩ : BufTy).Contents (Elt F) := (addi : (⟨S1650000, .i32⟩ : BufTy).Contents (Elt F) → (⟨S1650000, .i32⟩ : BufTy).Contents (Elt F) → (⟨S1650000, .i32⟩ : BufTy).Contents (Elt F)) v7 v24
  have v26 : (⟨S1650000, .i32⟩ : BufTy).Contents (Elt F) := (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)) v23 v25 v7
  have v27 : (⟨S1650000x1, .i32⟩ : BufTy).Contents (Elt F) := (broadcastInDim S1650000x1 ![0] bcast_S1650000_S1650000x1_0 : (⟨S1650000, .i32⟩ : BufTy).Contents (Elt F) → (⟨S1650000x1, .i32⟩ : BufTy).Contents (Elt F)) v26
  have v28 : (⟨S1650000, .f32⟩ : BufTy).Contents (Elt F) := ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)) v14 v27
  have v29 : (⟨S1650000, .f32⟩ : BufTy).Contents (Elt F) := (mulf : (⟨S1650000, .f32⟩ : BufTy).Contents (Elt F) → (⟨S1650000, .f32⟩ : BufTy).Contents (Elt F) → (⟨S1650000, .f32⟩ : BufTy).Contents (Elt F)) v21 v28
  have c_5 : (⟨S_, .i32⟩ : BufTy).Contents (Elt F) := constantI S_ 32 0#32
  have v30 : (⟨S1650000, .i32⟩ : BufTy).Contents (Elt F) := (broadcastInDim S1650000 ![] bcast_S_S1650000 : (⟨S_, .i32⟩ : BufTy).Contents (Elt F) → (⟨S1650000, .i32⟩ : BufTy).Contents (Elt F)) c_5
  have v31 : (⟨S1650000, .i1⟩ : BufTy).Contents (Elt F) := (cmpi .slt : (⟨S1650000, .i32⟩ : BufTy).Contents (Elt F) → (⟨S1650000, .i32⟩ : BufTy).Contents (Elt F) → (⟨S1650000, .i1⟩ : BufTy).Contents (Elt F)) v6 v30
  have c_6 : (⟨S_, .i32⟩ : BufTy).Contents (Elt F) := constantI S_ 32 50000#32
  have v32 : (⟨S1650000, .i32⟩ : BufTy).Contents (Elt F) := (broadcastInDim S1650000 ![] bcast_S_S1650000 : (⟨S_, .i32⟩ : BufTy).Contents (Elt F) → (⟨S1650000, .i32⟩ : BufTy).Contents (Elt F)) c_6
  have v33 : (⟨S1650000, .i32⟩ : BufTy).Contents (Elt F) := (addi : (⟨S1650000, .i32⟩ : BufTy).Contents (Elt F) → (⟨S1650000, .i32⟩ : BufTy).Contents (Elt F) → (⟨S1650000, .i32⟩ : BufTy).Contents (Elt F)) v6 v32
  have v34 : (⟨S1650000, .i32⟩ : BufTy).Contents (Elt F) := (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)) v31 v33 v6
  have v35 : (⟨S1650000x1, .i32⟩ : BufTy).Contents (Elt F) := (broadcastInDim S1650000x1 ![0] bcast_S1650000_S1650000x1_0 : (⟨S1650000, .i32⟩ : BufTy).Contents (Elt F) → (⟨S1650000x1, .i32⟩ : BufTy).Contents (Elt F)) v34
  have v36 : (⟨S1650000x128, .f32⟩ : BufTy).Contents (Elt F) := ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)) h v35
  have v37 : (⟨S1650000x1, .f32⟩ : BufTy).Contents (Elt F) := (broadcastInDim S1650000x1 ![0] bcast_S1650000_S1650000x1_0 : (⟨S1650000, .f32⟩ : BufTy).Contents (Elt F) → (⟨S1650000x1, .f32⟩ : BufTy).Contents (Elt F)) v29
  have v38 : (⟨S1650000x128, .f32⟩ : BufTy).Contents (Elt F) := (broadcastInDim S1650000x128 ![0, 1] bcast_S1650000x1_S1650000x128_0_1 : (⟨S1650000x1, .f32⟩ : BufTy).Contents (Elt F) → (⟨S1650000x128, .f32⟩ : BufTy).Contents (Elt F)) v37
  have v39 : (⟨S1650000x128, .f32⟩ : BufTy).Contents (Elt F) := (mulf : (⟨S1650000x128, .f32⟩ : BufTy).Contents (Elt F) → (⟨S1650000x128, .f32⟩ : BufTy).Contents (Elt F) → (⟨S1650000x128, .f32⟩ : BufTy).Contents (Elt F)) v36 v38
  have cst_7 : (⟨S_, .f32⟩ : BufTy).Contents (Elt F) := constant S_ .f32 0x00000000#32
  have v40 : (⟨S50000x128, .f32⟩ : BufTy).Contents (Elt F) := (broadcastInDim S50000x128 ![] bcast_S_S50000x128 : (⟨S_, .f32⟩ : BufTy).Contents (Elt F) → (⟨S50000x128, .f32⟩ : BufTy).Contents (Elt F)) cst_7
  have v41 : (⟨S1650000x1, .i32⟩ : BufTy).Contents (Elt F) := (broadcastInDim S1650000x1 ![0] bcast_S1650000_S1650000x1_0 : (⟨S1650000, .i32⟩ : BufTy).Contents (Elt F) → (⟨S1650000x1, .i32⟩ : BufTy).Contents (Elt F)) v7
  have v42 : (⟨S50000x128, .f32⟩ : BufTy).Contents (Elt F) := ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)) v40 v41 v39
  have v43 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) bias
  have v44 : (⟨S50000x128, .f32⟩ : BufTy).Contents (Elt F) := (broadcastInDim S50000x128 ![0, 1] bcast_S1x128_S50000x128_0_1 : (⟨S1x128, .f32⟩ : BufTy).Contents (Elt F) → (⟨S50000x128, .f32⟩ : BufTy).Contents (Elt F)) v43
  have v45 : (⟨S50000x128, .f32⟩ : BufTy).Contents (Elt F) := (addf : (⟨S50000x128, .f32⟩ : BufTy).Contents (Elt F) → (⟨S50000x128, .f32⟩ : BufTy).Contents (Elt F) → (⟨S50000x128, .f32⟩ : BufTy).Contents (Elt F)) v42 v44
  v45

/-- Normalised aggregation of 40 features over the graph with self-loops, plus the bias. -/
def pass40 (h : (⟨S50000x40, .f32⟩ : BufTy).Contents (Elt F)) (bias : (⟨S40, .f32⟩ : BufTy).Contents (Elt F)) (src dst : (⟨S1600000, .i32⟩ : BufTy).Contents (Elt F)) : (⟨S50000x40, .f32⟩ : BufTy).Contents (Elt F) :=
  have v48 : (⟨S50000, .i32⟩ : BufTy).Contents (Elt F) := iotaInDim S50000 32 0
  have v49 : (⟨S1650000, .i32⟩ : BufTy).Contents (Elt F) := ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) src v48
  have v50 : (⟨S1650000, .i32⟩ : BufTy).Contents (Elt F) := ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) dst v48
  have cst_8 : (⟨S_, .f32⟩ : BufTy).Contents (Elt F) := constant S_ .f32 0x3F800000#32
  have v51 : (⟨S1650000, .f32⟩ : BufTy).Contents (Elt F) := (broadcastInDim S1650000 ![] bcast_S_S1650000 : (⟨S_, .f32⟩ : BufTy).Contents (Elt F) → (⟨S1650000, .f32⟩ : BufTy).Contents (Elt F)) cst_8
  have cst_9 : (⟨S_, .f32⟩ : BufTy).Contents (Elt F) := constant S_ .f32 0x00000000#32
  have v52 : (⟨S50000, .f32⟩ : BufTy).Contents (Elt F) := (broadcastInDim S50000 ![] bcast_S_S50000 : (⟨S_, .f32⟩ : BufTy).Contents (Elt F) → (⟨S50000, .f32⟩ : BufTy).Contents (Elt F)) cst_9
  have v53 : (⟨S1650000x1, .i32⟩ : BufTy).Contents (Elt F) := (broadcastInDim S1650000x1 ![0] bcast_S1650000_S1650000x1_0 : (⟨S1650000, .i32⟩ : BufTy).Contents (Elt F) → (⟨S1650000x1, .i32⟩ : BufTy).Contents (Elt F)) v50
  have v54 : (⟨S50000, .f32⟩ : BufTy).Contents (Elt F) := ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)) v52 v53 v51
  have cst_10 : (⟨S_, .f32⟩ : BufTy).Contents (Elt F) := constant S_ .f32 0x3F800000#32
  have v55 : (⟨S50000, .f32⟩ : BufTy).Contents (Elt F) := (broadcastInDim S50000 ![] bcast_S_S50000 : (⟨S_, .f32⟩ : BufTy).Contents (Elt F) → (⟨S50000, .f32⟩ : BufTy).Contents (Elt F)) cst_10
  have v56 : (⟨S50000, .f32⟩ : BufTy).Contents (Elt F) := (maximumf : (⟨S50000, .f32⟩ : BufTy).Contents (Elt F) → (⟨S50000, .f32⟩ : BufTy).Contents (Elt F) → (⟨S50000, .f32⟩ : BufTy).Contents (Elt F)) v54 v55
  have v57 : (⟨S50000, .f32⟩ : BufTy).Contents (Elt F) := (Host.rsqrt : (⟨S50000, .f32⟩ : BufTy).Contents (Elt F) → (⟨S50000, .f32⟩ : BufTy).Contents (Elt F)) v56
  have c_11 : (⟨S_, .i32⟩ : BufTy).Contents (Elt F) := constantI S_ 32 0#32
  have v58 : (⟨S1650000, .i32⟩ : BufTy).Contents (Elt F) := (broadcastInDim S1650000 ![] bcast_S_S1650000 : (⟨S_, .i32⟩ : BufTy).Contents (Elt F) → (⟨S1650000, .i32⟩ : BufTy).Contents (Elt F)) c_11
  have v59 : (⟨S1650000, .i1⟩ : BufTy).Contents (Elt F) := (cmpi .slt : (⟨S1650000, .i32⟩ : BufTy).Contents (Elt F) → (⟨S1650000, .i32⟩ : BufTy).Contents (Elt F) → (⟨S1650000, .i1⟩ : BufTy).Contents (Elt F)) v49 v58
  have c_12 : (⟨S_, .i32⟩ : BufTy).Contents (Elt F) := constantI S_ 32 50000#32
  have v60 : (⟨S1650000, .i32⟩ : BufTy).Contents (Elt F) := (broadcastInDim S1650000 ![] bcast_S_S1650000 : (⟨S_, .i32⟩ : BufTy).Contents (Elt F) → (⟨S1650000, .i32⟩ : BufTy).Contents (Elt F)) c_12
  have v61 : (⟨S1650000, .i32⟩ : BufTy).Contents (Elt F) := (addi : (⟨S1650000, .i32⟩ : BufTy).Contents (Elt F) → (⟨S1650000, .i32⟩ : BufTy).Contents (Elt F) → (⟨S1650000, .i32⟩ : BufTy).Contents (Elt F)) v49 v60
  have v62 : (⟨S1650000, .i32⟩ : BufTy).Contents (Elt F) := (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)) v59 v61 v49
  have v63 : (⟨S1650000x1, .i32⟩ : BufTy).Contents (Elt F) := (broadcastInDim S1650000x1 ![0] bcast_S1650000_S1650000x1_0 : (⟨S1650000, .i32⟩ : BufTy).Contents (Elt F) → (⟨S1650000x1, .i32⟩ : BufTy).Contents (Elt F)) v62
  have v64 : (⟨S1650000, .f32⟩ : BufTy).Contents (Elt F) := ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)) v57 v63
  have c_13 : (⟨S_, .i32⟩ : BufTy).Contents (Elt F) := constantI S_ 32 0#32
  have v65 : (⟨S1650000, .i32⟩ : BufTy).Contents (Elt F) := (broadcastInDim S1650000 ![] bcast_S_S1650000 : (⟨S_, .i32⟩ : BufTy).Contents (Elt F) → (⟨S1650000, .i32⟩ : BufTy).Contents (Elt F)) c_13
  have v66 : (⟨S1650000, .i1⟩ : BufTy).Contents (Elt F) := (cmpi .slt : (⟨S1650000, .i32⟩ : BufTy).Contents (Elt F) → (⟨S1650000, .i32⟩ : BufTy).Contents (Elt F) → (⟨S1650000, .i1⟩ : BufTy).Contents (Elt F)) v50 v65
  have c_14 : (⟨S_, .i32⟩ : BufTy).Contents (Elt F) := constantI S_ 32 50000#32
  have v67 : (⟨S1650000, .i32⟩ : BufTy).Contents (Elt F) := (broadcastInDim S1650000 ![] bcast_S_S1650000 : (⟨S_, .i32⟩ : BufTy).Contents (Elt F) → (⟨S1650000, .i32⟩ : BufTy).Contents (Elt F)) c_14
  have v68 : (⟨S1650000, .i32⟩ : BufTy).Contents (Elt F) := (addi : (⟨S1650000, .i32⟩ : BufTy).Contents (Elt F) → (⟨S1650000, .i32⟩ : BufTy).Contents (Elt F) → (⟨S1650000, .i32⟩ : BufTy).Contents (Elt F)) v50 v67
  have v69 : (⟨S1650000, .i32⟩ : BufTy).Contents (Elt F) := (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)) v66 v68 v50
  have v70 : (⟨S1650000x1, .i32⟩ : BufTy).Contents (Elt F) := (broadcastInDim S1650000x1 ![0] bcast_S1650000_S1650000x1_0 : (⟨S1650000, .i32⟩ : BufTy).Contents (Elt F) → (⟨S1650000x1, .i32⟩ : BufTy).Contents (Elt F)) v69
  have v71 : (⟨S1650000, .f32⟩ : BufTy).Contents (Elt F) := ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)) v57 v70
  have v72 : (⟨S1650000, .f32⟩ : BufTy).Contents (Elt F) := (mulf : (⟨S1650000, .f32⟩ : BufTy).Contents (Elt F) → (⟨S1650000, .f32⟩ : BufTy).Contents (Elt F) → (⟨S1650000, .f32⟩ : BufTy).Contents (Elt F)) v64 v71
  have c_15 : (⟨S_, .i32⟩ : BufTy).Contents (Elt F) := constantI S_ 32 0#32
  have v73 : (⟨S1650000, .i32⟩ : BufTy).Contents (Elt F) := (broadcastInDim S1650000 ![] bcast_S_S1650000 : (⟨S_, .i32⟩ : BufTy).Contents (Elt F) → (⟨S1650000, .i32⟩ : BufTy).Contents (Elt F)) c_15
  have v74 : (⟨S1650000, .i1⟩ : BufTy).Contents (Elt F) := (cmpi .slt : (⟨S1650000, .i32⟩ : BufTy).Contents (Elt F) → (⟨S1650000, .i32⟩ : BufTy).Contents (Elt F) → (⟨S1650000, .i1⟩ : BufTy).Contents (Elt F)) v49 v73
  have c_16 : (⟨S_, .i32⟩ : BufTy).Contents (Elt F) := constantI S_ 32 50000#32
  have v75 : (⟨S1650000, .i32⟩ : BufTy).Contents (Elt F) := (broadcastInDim S1650000 ![] bcast_S_S1650000 : (⟨S_, .i32⟩ : BufTy).Contents (Elt F) → (⟨S1650000, .i32⟩ : BufTy).Contents (Elt F)) c_16
  have v76 : (⟨S1650000, .i32⟩ : BufTy).Contents (Elt F) := (addi : (⟨S1650000, .i32⟩ : BufTy).Contents (Elt F) → (⟨S1650000, .i32⟩ : BufTy).Contents (Elt F) → (⟨S1650000, .i32⟩ : BufTy).Contents (Elt F)) v49 v75
  have v77 : (⟨S1650000, .i32⟩ : BufTy).Contents (Elt F) := (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)) v74 v76 v49
  have v78 : (⟨S1650000x1, .i32⟩ : BufTy).Contents (Elt F) := (broadcastInDim S1650000x1 ![0] bcast_S1650000_S1650000x1_0 : (⟨S1650000, .i32⟩ : BufTy).Contents (Elt F) → (⟨S1650000x1, .i32⟩ : BufTy).Contents (Elt F)) v77
  have v79 : (⟨S1650000x40, .f32⟩ : BufTy).Contents (Elt F) := ((fun x i => Host.gather gather_S50000x40_S1650000x1_S1650000x40_1_0_n_n_0_1_140 x i) : (⟨S50000x40, .f32⟩ : BufTy).Contents (Elt F) → (⟨S1650000x1, .i32⟩ : BufTy).Contents (Elt F) → (⟨S1650000x40, .f32⟩ : BufTy).Contents (Elt F)) h v78
  have v80 : (⟨S1650000x1, .f32⟩ : BufTy).Contents (Elt F) := (broadcastInDim S1650000x1 ![0] bcast_S1650000_S1650000x1_0 : (⟨S1650000, .f32⟩ : BufTy).Contents (Elt F) → (⟨S1650000x1, .f32⟩ : BufTy).Contents (Elt F)) v72
  have v81 : (⟨S1650000x40, .f32⟩ : BufTy).Contents (Elt F) := (broadcastInDim S1650000x40 ![0, 1] bcast_S1650000x1_S1650000x40_0_1 : (⟨S1650000x1, .f32⟩ : BufTy).Contents (Elt F) → (⟨S1650000x40, .f32⟩ : BufTy).Contents (Elt F)) v80
  have v82 : (⟨S1650000x40, .f32⟩ : BufTy).Contents (Elt F) := (mulf : (⟨S1650000x40, .f32⟩ : BufTy).Contents (Elt F) → (⟨S1650000x40, .f32⟩ : BufTy).Contents (Elt F) → (⟨S1650000x40, .f32⟩ : BufTy).Contents (Elt F)) v79 v81
  have cst_17 : (⟨S_, .f32⟩ : BufTy).Contents (Elt F) := constant S_ .f32 0x00000000#32
  have v83 : (⟨S50000x40, .f32⟩ : BufTy).Contents (Elt F) := (broadcastInDim S50000x40 ![] bcast_S_S50000x40 : (⟨S_, .f32⟩ : BufTy).Contents (Elt F) → (⟨S50000x40, .f32⟩ : BufTy).Contents (Elt F)) cst_17
  have v84 : (⟨S1650000x1, .i32⟩ : BufTy).Contents (Elt F) := (broadcastInDim S1650000x1 ![0] bcast_S1650000_S1650000x1_0 : (⟨S1650000, .i32⟩ : BufTy).Contents (Elt F) → (⟨S1650000x1, .i32⟩ : BufTy).Contents (Elt F)) v50
  have v85 : (⟨S50000x40, .f32⟩ : BufTy).Contents (Elt F) := ((fun x i u => Host.scatterAdd scatter_S50000x40_S1650000x1_S1650000x40_1_0_0_1 x i u) : (⟨S50000x40, .f32⟩ : BufTy).Contents (Elt F) → (⟨S1650000x1, .i32⟩ : BufTy).Contents (Elt F) → (⟨S1650000x40, .f32⟩ : BufTy).Contents (Elt F) → (⟨S50000x40, .f32⟩ : BufTy).Contents (Elt F)) v83 v84 v82
  have v86 : (⟨S1x40, .f32⟩ : BufTy).Contents (Elt F) := (broadcastInDim S1x40 ![1] bcast_S40_S1x40_1 : (⟨S40, .f32⟩ : BufTy).Contents (Elt F) → (⟨S1x40, .f32⟩ : BufTy).Contents (Elt F)) bias
  have v87 : (⟨S50000x40, .f32⟩ : BufTy).Contents (Elt F) := (broadcastInDim S50000x40 ![0, 1] bcast_S1x40_S50000x40_0_1 : (⟨S1x40, .f32⟩ : BufTy).Contents (Elt F) → (⟨S50000x40, .f32⟩ : BufTy).Contents (Elt F)) v86
  have v88 : (⟨S50000x40, .f32⟩ : BufTy).Contents (Elt F) := (addf : (⟨S50000x40, .f32⟩ : BufTy).Contents (Elt F) → (⟨S50000x40, .f32⟩ : BufTy).Contents (Elt F) → (⟨S50000x40, .f32⟩ : BufTy).Contents (Elt F)) v85 v87
  v88

/-! ## The stretches read -/

theorem src_read (W : Valuation τ sig (Elt F)) :
    after Gen.hostOps0 W (Proc.devRef .tc main_v1) = edgeSrc (F := F) (W (Proc.devRef .tc main_arg1)) := by
  after_results <;> rfl

theorem dst_read (W : Valuation τ sig (Elt F)) :
    after Gen.hostOps0 W (Proc.devRef .tc main_v3) = edgeDst (F := F) (W (Proc.devRef .tc main_arg1)) := by
  after_results <;> rfl

set_option maxHeartbeats 4000000 in
theorem pass1_read (W : Valuation τ sig (Elt F)) :
    after Gen.hostOps1 W (Proc.devRef .tc main_v45)
      = pass128 (F := F) (W (Proc.devRef .tc main_v4)) (W (Proc.devRef .tc main_arg3)) (W (Proc.devRef .tc main_v1)) (W (Proc.devRef .tc main_v3)) := by
  after_results_simp <;> rfl

set_option maxHeartbeats 4000000 in
theorem pass2_read (W : Valuation τ sig (Elt F)) :
    after Gen.hostOps3 W (Proc.devRef .tc main_v88)
      = pass40 (F := F) (W (Proc.devRef .tc main_v47)) (W (Proc.devRef .tc main_arg5)) (W (Proc.devRef .tc main_v1)) (W (Proc.devRef .tc main_v3)) := by
  after_results_simp <;> rfl

/-! ## What a stretch does not write, it keeps -/

abbrev written0 : List (Ref sig .tc) := [main_v0, main_v1, main_v2, main_v3]
abbrev written1 : List (Ref sig .tc) := [main_v5, main_v6, main_v7, main_cst, main_v8, main_cst_0, main_v9, main_v10, main_v11, main_cst_1, main_v12, main_v13, main_v14, main_c, main_v15, main_v16, main_c_2, main_v17, main_v18, main_v19, main_v20, main_v21, main_c_3, main_v22, main_v23, main_c_4, main_v24, main_v25, main_v26, main_v27, main_v28, main_v29, main_c_5, main_v30, main_v31, main_c_6, main_v32, main_v33, main_v34, main_v35, main_v36, main_v37, main_v38, main_v39, main_cst_7, main_v40, main_v41, main_v42, main_v43, main_v44, main_v45]
abbrev written3 : List (Ref sig .tc) := [main_v48, main_v49, main_v50, main_cst_8, main_v51, main_cst_9, main_v52, main_v53, main_v54, main_cst_10, main_v55, main_v56, main_v57, main_c_11, main_v58, main_v59, main_c_12, main_v60, main_v61, main_v62, main_v63, main_v64, main_c_13, main_v65, main_v66, main_c_14, main_v67, main_v68, main_v69, main_v70, main_v71, main_v72, main_c_15, main_v73, main_v74, main_c_16, main_v75, main_v76, main_v77, main_v78, main_v79, main_v80, main_v81, main_v82, main_cst_17, main_v83, main_v84, main_v85, main_v86, main_v87, main_v88]

theorem writes0 : Cert.LibAfter.Writes (Gen.hostOps0 (F := F)) written0 := by repeat' constructor
theorem writes1 : Cert.LibAfter.Writes (Gen.hostOps1 (F := F)) written1 := by repeat' constructor
theorem writes3 : Cert.LibAfter.Writes (Gen.hostOps3 (F := F)) written3 := by repeat' constructor

theorem keeps0 {r : Ref sig .tc} (hr : r ∉ written0) (W : Valuation τ sig (Elt F)) :
    after Gen.hostOps0 W (Proc.devRef .tc r) = W (Proc.devRef .tc r) := Cert.LibAfter.after_of_not_written writes0 hr W
theorem keeps1 {r : Ref sig .tc} (hr : r ∉ written1) (W : Valuation τ sig (Elt F)) :
    after Gen.hostOps1 W (Proc.devRef .tc r) = W (Proc.devRef .tc r) := Cert.LibAfter.after_of_not_written writes1 hr W
theorem keeps3 {r : Ref sig .tc} (hr : r ∉ written3) (W : Valuation τ sig (Elt F)) :
    after Gen.hostOps3 W (Proc.devRef .tc r) = W (Proc.devRef .tc r) := Cert.LibAfter.after_of_not_written writes3 hr W

end Cert.KernelIdeal.HostValue

end
-- ==== Proof.KernelValue.lean ====
/-
  The kernel's result as one function of its arguments.

  Walking back from the last boundary: the result array is the row-wise log-softmax of the array the second message
  passing leaves; that is the 40-feature aggregation of the second dense product; that is the product of the masked
  activations with W2; those are relu of the first aggregation times the mask; that aggregates the first dense product
  of x with W1. Between boundaries a region changes only its own arrays and a stretch of host operations only the
  buffers it writes, so the arguments and the two edge-index vectors are found unchanged wherever they are read.
-/
import proofs.«104665_j59622736003658_1_alg».proof.Proof.RegionArrays
import proofs.«104665_j59622736003658_1_alg».proof.Proof.MessagePassing

set_option maxRecDepth 16384

noncomputable section

namespace Cert.KernelIdeal.WholeValue

open Cert.KernelIdeal Cert.KernelIdeal.Gen Cert.KernelIdeal.RegionValue Cert.KernelIdeal.HostValue
open Idealize.ShloMosaic Idealize.ShloMosaic.TcCoe Idealize.SL.Sem Idealize.ShloMosaic.StableHlo

/-- The whole computation: two rounds of (dense product, normalised aggregation), relu times mask between them,
    log-softmax at the end. -/
def model (x : S50000x256.Idx → EReal) (ei : (⟨S2x1600000, .i32⟩ : BufTy).Contents (Elt Ideal)) (w1 : S256x128.Idx → EReal)
    (b1 : S128.Idx → EReal) (w2 : S128x40.Idx → EReal) (b2 : S40.Idx → EReal) (mask : S50000x128.Idx → EReal) :
    S50000x40.Idx → EReal :=
  lsmArr (pass40 (F := Ideal) (denseArr2 (reluMask (pass128 (F := Ideal) (denseArr1 x w1) b1 (edgeSrc ei) (edgeDst ei)) mask) w2)
    b2 (edgeSrc ei) (edgeDst ei))

variable (m : (ℓ : Loc nD τ sig) → Buf (Elt Ideal) ℓ) (ρ : Dev nD → PrngReg) (c : Dev nD)

/-! ## After the edge-index stretch -/

theorem at1_keep {r : Ref sig .tc} (hr : r ∉ written0) :
    W1 m ρ c (Proc.devRef .tc r) = m ((c : Thread nD τ).loc r) := (keeps0 hr _).trans rfl
theorem at1_src : W1 m ρ c (Proc.devRef .tc main_v1) = edgeSrc (F := Ideal) (m ((c : Thread nD τ).loc main_arg1)) :=
  src_read (W0 m ρ c)
theorem at1_dst : W1 m ρ c (Proc.devRef .tc main_v3) = edgeDst (F := Ideal) (m ((c : Thread nD τ).loc main_arg1)) :=
  dst_read (W0 m ρ c)

/-! ## After the first dense product -/

theorem at2_keep {r : Ref sig .tc} (hr : ∀ w, Pipeline.arrRef spec0 w ≠ r) :
    W2 m ρ c (Proc.devRef .tc r) = W1 m ρ c (Proc.devRef .tc r) := W2_of_ne m ρ c r hr
theorem at2_dense : W2 m ρ c (Proc.devRef .tc main_v4)
    = denseArr1 (m ((c : Thread nD τ).loc main_arg0)) (m ((c : Thread nD τ).loc main_arg2)) := by
  have h := (W2_arr m ρ c 2).trans (final0 (V1 m ρ) c)
  have e0 : V1 m ρ c main_arg0 = m ((c : Thread nD τ).loc main_arg0) := at1_keep m ρ c (by decide)
  have e2 : V1 m ρ c main_arg2 = m ((c : Thread nD τ).loc main_arg2) := at1_keep m ρ c (by decide)
  rw [e0, e2] at h
  exact h

/-! ## After the first message passing -/

theorem at3_keep {r : Ref sig .tc} (hr : r ∉ written1) :
    W3 m ρ c (Proc.devRef .tc r) = W2 m ρ c (Proc.devRef .tc r) := keeps1 hr _
theorem at3_pass : W3 m ρ c (Proc.devRef .tc main_v45)
    = pass128 (F := Ideal) (denseArr1 (m ((c : Thread nD τ).loc main_arg0)) (m ((c : Thread nD τ).loc main_arg2)))
        (m ((c : Thread nD τ).loc main_arg3)) (edgeSrc (m ((c : Thread nD τ).loc main_arg1))) (edgeDst (m ((c : Thread nD τ).loc main_arg1))) := by
  have h := pass1_read (W2 m ρ c)
  rw [at2_dense m ρ c, at2_keep m ρ c (r := main_arg3) (by decide), at1_keep m ρ c (r := main_arg3) (by decide),
    at2_keep m ρ c (r := main_v1) (by decide), at1_src m ρ c, at2_keep m ρ c (r := main_v3) (by decide), at1_dst m ρ c] at h
  exact h

/-! ## After relu times mask -/

theorem at4_keep {r : Ref sig .tc} (hr : ∀ w, Pipeline.arrRef spec1 w ≠ r) :
    W4 m ρ c (Proc.devRef .tc r) = W3 m ρ c (Proc.devRef .tc r) := W4_of_ne m ρ c r hr
theorem at3_mask : W3 m ρ c (Proc.devRef .tc main_arg6) = m ((c : Thread nD τ).loc main_arg6) := by
  rw [at3_keep m ρ c (by decide), at2_keep m ρ c (by decide), at1_keep m ρ c (by decide)]
theorem at4_act : W4 m ρ c (Proc.devRef .tc main_v46)
    = reluMask (W3 m ρ c (Proc.devRef .tc main_v45)) (m ((c : Thread nD τ).loc main_arg6)) := by
  have h := (W4_arr m ρ c 2).trans (final1 (V3 m ρ) c)
  have e : V3 m ρ c main_arg6 = m ((c : Thread nD τ).loc main_arg6) := at3_mask m ρ c
  rw [e] at h
  exact h

/-! ## After the second dense product -/

theorem at5_keep {r : Ref sig .tc} (hr : ∀ w, Pipeline.arrRef spec2 w ≠ r) :
    W5 m ρ c (Proc.devRef .tc r) = W4 m ρ c (Proc.devRef .tc r) := W5_of_ne m ρ c r hr
theorem at4_w2 : W4 m ρ c (Proc.devRef .tc main_arg4) = m ((c : Thread nD τ).loc main_arg4) := by
  rw [at4_keep m ρ c (by decide), at3_keep m ρ c (by decide), at2_keep m ρ c (by decide), at1_keep m ρ c (by decide)]
theorem at5_dense : W5 m ρ c (Proc.devRef .tc main_v47)
    = denseArr2 (W4 m ρ c (Proc.devRef .tc main_v46)) (m ((c : Thread nD τ).loc main_arg4)) := by
  have h := (W5_arr m ρ c 2).trans (final2 (V4 m ρ) c)
  have e : V4 m ρ c main_arg4 = m ((c : Thread nD τ).loc main_arg4) := at4_w2 m ρ c
  rw [e] at h
  exact h

/-! ## After the second message passing, and the log-softmax -/

theorem at5_old {r : Ref sig .tc} (h5 : ∀ w, Pipeline.arrRef spec2 w ≠ r) (h4 : ∀ w, Pipeline.arrRef spec1 w ≠ r) (h3 : r ∉ written1)
    (h2 : ∀ w, Pipeline.arrRef spec0 w ≠ r) : W5 m ρ c (Proc.devRef .tc r) = W1 m ρ c (Proc.devRef .tc r) := by
  rw [at5_keep m ρ c h5, at4_keep m ρ c h4, at3_keep m ρ c h3, at2_keep m ρ c h2]

theorem at6_pass : W6 m ρ c (Proc.devRef .tc main_v88)
    = pass40 (F := Ideal) (W5 m ρ c (Proc.devRef .tc main_v47)) (m ((c : Thread nD τ).loc main_arg5))
        (edgeSrc (m ((c : Thread nD τ).loc main_arg1))) (edgeDst (m ((c : Thread nD τ).loc main_arg1))) := by
  have h := pass2_read (W5 m ρ c)
  rw [at5_old m ρ c (r := main_arg5) (by decide) (by decide) (by decide) (by decide), at1_keep m ρ c (r := main_arg5) (by decide),
    at5_old m ρ c (r := main_v1) (by decide) (by decide) (by decide) (by decide), at1_src m ρ c,
    at5_old m ρ c (r := main_v3) (by decide) (by decide) (by decide) (by decide), at1_dst m ρ c] at h
  exact h

theorem at7_out : W7 m ρ c (Proc.devRef .tc main_v89) = lsmArr (W6 m ρ c (Proc.devRef .tc main_v88)) :=
  (W7_arr m ρ c 1).trans (final3 (V6 m ρ) c)

/-- The result buffer at the last boundary is the model of the launch contents of the seven arguments. -/
theorem result_value : W7 m ρ c (Proc.devRef .tc main_v89)
    = model (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [at7_out, at6_pass, at5_dense, at4_act, at3_pass]
  rfl

end Cert.KernelIdeal.WholeValue

end
-- ==== Proof.ReferenceRun.lean ====
/-
  The reference program's run, operation by operation.

  The program is a line of 127 host operations, each writing one buffer of its own from buffers written before it or
  from the arguments. The line is cut here into eight consecutive segments — the edge list's two rows, the first dense
  layer, the first propagation over the graph, relu, the mask product, the second dense layer, the second propagation,
  the log-softmax of every row — and the whole line is the eight in a row. Every weakly fair execution of the program
  terminates with every buffer holding what the fold of the operations over the launch contents leaves there; the fold
  over the whole line is the fold over the eighth segment from the fold over the seventh, and so on down to the first;
  and no operation writes an argument, so the arguments end as launched.
-/
import proofs.«104665_j59622736003658_1_alg».proof.Proof.Gen.ReferenceIdeal
import Idealize.ShloMosaic.Lib.StableHlo.Run
import proofs.«104665_j59622736003658_1_alg».proof.Proof.LibAfter

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-! ## The eight segments -/

/-- The two rows of the edge list, each as a vector of 1 600 000 node numbers: a slice of the [2, 1 600 000] array
    and its reshape, for the sources and for the targets. -/
abbrev opsIdx : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

theorem opsIdx_sub : (opsIdx : List (HloOp τ sig (Elt F))).Forall fun op => op.bufs ⊆ tcRefs τ sig :=
  ⟨unary_bufs_sub .., reshape_bufs_sub .., unary_bufs_sub .., reshape_bufs_sub ..⟩

theorem opsIdx_fresh : (opsIdx : List (HloOp τ sig (Elt F))).Forall fun op => op.fresh = ∅ :=
  ⟨rfl, rfl, rfl, rfl⟩

/-- The first dense layer: the [50000, 256] features times the [256, 128] weights. -/
abbrev opsDense1 : List (HloOp τ sig (Elt F)) :=
  [ binary main_arg0 main_arg2 main_v4 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]

theorem opsDense1_sub : (opsDense1 : List (HloOp τ sig (Elt F))).Forall fun op => op.bufs ⊆ tcRefs τ sig :=
  binary_bufs_sub ..

theorem opsDense1_fresh : (opsDense1 : List (HloOp τ sig (Elt F))).Forall fun op => op.fresh = ∅ :=
  rfl

/-- The first propagation over the graph with a loop added at every node: the node numbers 0 … 49999 joined to both
    rows of the edge list; the degree of every node as a sum of ones over the targets, kept at least 1, and its inverse
    square root; both ends' node numbers brought into range; the edge weight as the product of the two ends' inverse
    square roots; the dense layer's rows read at the sources, scaled by the edge weight and summed into the targets;
    and the bias row added to every node's row. -/
abbrev opsPass1 : List (HloOp τ sig (Elt F)) :=
  [ nullary main_v5 (iotaInDim S50000 32 0),
    binary main_v1 main_v5 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v3 main_v5 main_v7 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst (constant S_ .f32 0x3F800000#32),
    unary main_cst main_v8 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S1650000x1 ![0] bcast_S1650000_S1650000x1_0 : (⟨S1650000, .i32⟩ : BufTy).Contents (Elt F) → (⟨S1650000x1, .i32⟩ : BufTy).Contents (Elt F)),
    ternary main_v9 main_v10 main_v8 main_v11 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x3F800000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (maximumf : (⟨S50000, .f32⟩ : BufTy).Contents (Elt F) → (⟨S50000, .f32⟩ : BufTy).Contents (Elt F) → (⟨S50000, .f32⟩ : BufTy).Contents (Elt F)),
    unary main_v13 main_v14 (Host.rsqrt : (⟨S50000, .f32⟩ : BufTy).Contents (Elt F) → (⟨S50000, .f32⟩ : BufTy).Contents (Elt F)),
    nullary main_c (constantI S_ 32 0#32),
    unary main_c main_v15 (broadcastInDim S1650000 ![] bcast_S_S1650000 : (⟨S_, .i32⟩ : BufTy).Contents (Elt F) → (⟨S1650000, .i32⟩ : BufTy).Contents (Elt F)),
    binary main_v6 main_v15 main_v16 (cmpi .slt : (⟨S1650000, .i32⟩ : BufTy).Contents (Elt F) → (⟨S1650000, .i32⟩ : BufTy).Contents (Elt F) → (⟨S1650000, .i1⟩ : BufTy).Contents (Elt F)),
    nullary main_c_2 (constantI S_ 32 50000#32),
    unary main_c_2 main_v17 (broadcastInDim S1650000 ![] bcast_S_S1650000 : (⟨S_, .i32⟩ : BufTy).Contents (Elt F) → (⟨S1650000, .i32⟩ : BufTy).Contents (Elt F)),
    binary main_v6 main_v17 main_v18 (addi : (⟨S1650000, .i32⟩ : BufTy).Contents (Elt F) → (⟨S1650000, .i32⟩ : BufTy).Contents (Elt F) → (⟨S1650000, .i32⟩ : BufTy).Contents (Elt F)),
    ternary main_v16 main_v18 main_v6 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v19 main_v20 (broadcastInDim S1650000x1 ![0] bcast_S1650000_S1650000x1_0 : (⟨S1650000, .i32⟩ : BufTy).Contents (Elt F) → (⟨S1650000x1, .i32⟩ : BufTy).Contents (Elt F)),
    binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_3 (constantI S_ 32 0#32),
    unary main_c_3 main_v22 (broadcastInDim S1650000 ![] bcast_S_S1650000 : (⟨S_, .i32⟩ : BufTy).Contents (Elt F) → (⟨S1650000, .i32⟩ : BufTy).Contents (Elt F)),
    binary main_v7 main_v22 main_v23 (cmpi .slt : (⟨S1650000, .i32⟩ : BufTy).Contents (Elt F) → (⟨S1650000, .i32⟩ : BufTy).Contents (Elt F) → (⟨S1650000, .i1⟩ : BufTy).Contents (Elt F)),
    nullary main_c_4 (constantI S_ 32 50000#32),
    unary main_c_4 main_v24 (broadcastInDim S1650000 ![] bcast_S_S1650000 : (⟨S_, .i32⟩ : BufTy).Contents (Elt F) → (⟨S1650000, .i32⟩ : BufTy).Contents (Elt F)),
    binary main_v7 main_v24 main_v25 (addi : (⟨S1650000, .i32⟩ : BufTy).Contents (Elt F) → (⟨S1650000, .i32⟩ : BufTy).Contents (Elt F) → (⟨S1650000, .i32⟩ : BufTy).Contents (Elt F)),
    ternary main_v23 main_v25 main_v7 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v26 main_v27 (broadcastInDim S1650000x1 ![0] bcast_S1650000_S1650000x1_0 : (⟨S1650000, .i32⟩ : BufTy).Contents (Elt F) → (⟨S1650000x1, .i32⟩ : BufTy).Contents (Elt F)),
    binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v21 main_v28 main_v29 (mulf : (⟨S1650000, .f32⟩ : BufTy).Contents (Elt F) → (⟨S1650000, .f32⟩ : BufTy).Contents (Elt F) → (⟨S1650000, .f32⟩ : BufTy).Contents (Elt F)),
    nullary main_c_5 (constantI S_ 32 0#32),
    unary main_c_5 main_v30 (broadcastInDim S1650000 ![] bcast_S_S1650000 : (⟨S_, .i32⟩ : BufTy).Contents (Elt F) → (⟨S1650000, .i32⟩ : BufTy).Contents (Elt F)),
    binary main_v6 main_v30 main_v31 (cmpi .slt : (⟨S1650000, .i32⟩ : BufTy).Contents (Elt F) → (⟨S1650000, .i32⟩ : BufTy).Contents (Elt F) → (⟨S1650000, .i1⟩ : BufTy).Contents (Elt F)),
    nullary main_c_6 (constantI S_ 32 50000#32),
    unary main_c_6 main_v32 (broadcastInDim S1650000 ![] bcast_S_S1650000 : (⟨S_, .i32⟩ : BufTy).Contents (Elt F) → (⟨S1650000, .i32⟩ : BufTy).Contents (Elt F)),
    binary main_v6 main_v32 main_v33 (addi : (⟨S1650000, .i32⟩ : BufTy).Contents (Elt F) → (⟨S1650000, .i32⟩ : BufTy).Contents (Elt F) → (⟨S1650000, .i32⟩ : BufTy).Contents (Elt F)),
    ternary main_v31 main_v33 main_v6 main_v34 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v34 main_v35 (broadcastInDim S1650000x1 ![0] bcast_S1650000_S1650000x1_0 : (⟨S1650000, .i32⟩ : BufTy).Contents (Elt F) → (⟨S1650000x1, .i32⟩ : BufTy).Contents (Elt F)),
    binary main_v4 main_v35 main_v36 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v29 main_v37 (broadcastInDim S1650000x1 ![0] bcast_S1650000_S1650000x1_0 : (⟨S1650000, .f32⟩ : BufTy).Contents (Elt F) → (⟨S1650000x1, .f32⟩ : BufTy).Contents (Elt F)),
    unary main_v37 main_v38 (broadcastInDim S1650000x128 ![0, 1] bcast_S1650000x1_S1650000x128_0_1 : (⟨S1650000x1, .f32⟩ : BufTy).Contents (Elt F) → (⟨S1650000x128, .f32⟩ : BufTy).Contents (Elt F)),
    binary main_v36 main_v38 main_v39 (mulf : (⟨S1650000x128, .f32⟩ : BufTy).Contents (Elt F) → (⟨S1650000x128, .f32⟩ : BufTy).Contents (Elt F) → (⟨S1650000x128, .f32⟩ : BufTy).Contents (Elt F)),
    nullary main_cst_7 (constant S_ .f32 0x00000000#32),
    unary main_cst_7 main_v40 (broadcastInDim S50000x128 ![] bcast_S_S50000x128 : (⟨S_, .f32⟩ : BufTy).Contents (Elt F) → (⟨S50000x128, .f32⟩ : BufTy).Contents (Elt F)),
    unary main_v7 main_v41 (broadcastInDim S1650000x1 ![0] bcast_S1650000_S1650000x1_0 : (⟨S1650000, .i32⟩ : BufTy).Contents (Elt F) → (⟨S1650000x1, .i32⟩ : BufTy).Contents (Elt F)),
    ternary main_v40 main_v41 main_v39 main_v42 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg3 main_v43 (broadcastInDim S1x128 ![1] bcast_S128_S1x128_1 : (⟨S128, .f32⟩ : BufTy).Contents (Elt F) → (⟨S1x128, .f32⟩ : BufTy).Contents (Elt F)),
    unary main_v43 main_v44 (broadcastInDim S50000x128 ![0, 1] bcast_S1x128_S50000x128_0_1 : (⟨S1x128, .f32⟩ : BufTy).Contents (Elt F) → (⟨S50000x128, .f32⟩ : BufTy).Contents (Elt F)),
    binary main_v42 main_v44 main_v45 (addf : (⟨S50000x128, .f32⟩ : BufTy).Contents (Elt F) → (⟨S50000x128, .f32⟩ : BufTy).Contents (Elt F) → (⟨S50000x128, .f32⟩ : BufTy).Contents (Elt F)) ]

theorem opsPass1_sub : (opsPass1 : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem opsPass1_fresh : (opsPass1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Relu: the zero constant, laid over [50000, 128], and the maximum with it. -/
abbrev opsRelu : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v45) (TRef.of (T := ⟨S50000x128, .f32⟩) main_call0_v0) (TRef.of (T := ⟨S50000x128, .f32⟩) main_v46) maximumf ]

theorem opsRelu_sub : (opsRelu : List (HloOp τ sig (Elt F))).Forall fun op => op.bufs ⊆ tcRefs τ sig :=
  ⟨nullary_bufs_sub .., unary_bufs_sub .., binary_bufs_sub ..⟩

theorem opsRelu_fresh : (opsRelu : List (HloOp τ sig (Elt F))).Forall fun op => op.fresh = ∅ :=
  ⟨rfl, rfl, rfl⟩

/-- The product with the [50000, 128] mask. -/
abbrev opsMask : List (HloOp τ sig (Elt F)) :=
  [ binary main_v46 main_arg6 main_v47 (mulf : (⟨S50000x128, .f32⟩ : BufTy).Contents (Elt F) → (⟨S50000x128, .f32⟩ : BufTy).Contents (Elt F) → (⟨S50000x128, .f32⟩ : BufTy).Contents (Elt F)) ]

theorem opsMask_sub : (opsMask : List (HloOp τ sig (Elt F))).Forall fun op => op.bufs ⊆ tcRefs τ sig :=
  binary_bufs_sub ..

theorem opsMask_fresh : (opsMask : List (HloOp τ sig (Elt F))).Forall fun op => op.fresh = ∅ :=
  rfl

/-- The second dense layer: the [50000, 128] hidden features times the [128, 40] weights. -/
abbrev opsDense2 : List (HloOp τ sig (Elt F)) :=
  [ binary main_v47 main_arg4 main_v48 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)) ]

theorem opsDense2_sub : (opsDense2 : List (HloOp τ sig (Elt F))).Forall fun op => op.bufs ⊆ tcRefs τ sig :=
  binary_bufs_sub ..

theorem opsDense2_fresh : (opsDense2 : List (HloOp τ sig (Elt F))).Forall fun op => op.fresh = ∅ :=
  rfl

/-- The second propagation, the same operations as the first on rows of 40 entries, with the second bias row. -/
abbrev opsPass2 : List (HloOp τ sig (Elt F)) :=
  [ nullary main_v49 (iotaInDim S50000 32 0),
    binary main_v1 main_v49 main_v50 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v3 main_v49 main_v51 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst_8 (constant S_ .f32 0x3F800000#32),
    unary main_cst_8 main_v52 (broadcastInDim S1650000 ![] bcast_S_S1650000 : (⟨S_, .f32⟩ : BufTy).Contents (Elt F) → (⟨S1650000, .f32⟩ : BufTy).Contents (Elt F)),
    nullary main_cst_9 (constant S_ .f32 0x00000000#32),
    unary main_cst_9 main_v53 (broadcastInDim S50000 ![] bcast_S_S50000 : (⟨S_, .f32⟩ : BufTy).Contents (Elt F) → (⟨S50000, .f32⟩ : BufTy).Contents (Elt F)),
    unary main_v51 main_v54 (broadcastInDim S1650000x1 ![0] bcast_S1650000_S1650000x1_0 : (⟨S1650000, .i32⟩ : BufTy).Contents (Elt F) → (⟨S1650000x1, .i32⟩ : BufTy).Contents (Elt F)),
    ternary main_v53 main_v54 main_v52 main_v55 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_10 (constant S_ .f32 0x3F800000#32),
    unary main_cst_10 main_v56 (broadcastInDim S50000 ![] bcast_S_S50000 : (⟨S_, .f32⟩ : BufTy).Contents (Elt F) → (⟨S50000, .f32⟩ : BufTy).Contents (Elt F)),
    binary main_v55 main_v56 main_v57 (maximumf : (⟨S50000, .f32⟩ : BufTy).Contents (Elt F) → (⟨S50000, .f32⟩ : BufTy).Contents (Elt F) → (⟨S50000, .f32⟩ : BufTy).Contents (Elt F)),
    unary main_v57 main_v58 (Host.rsqrt : (⟨S50000, .f32⟩ : BufTy).Contents (Elt F) → (⟨S50000, .f32⟩ : BufTy).Contents (Elt F)),
    nullary main_c_11 (constantI S_ 32 0#32),
    unary main_c_11 main_v59 (broadcastInDim S1650000 ![] bcast_S_S1650000 : (⟨S_, .i32⟩ : BufTy).Contents (Elt F) → (⟨S1650000, .i32⟩ : BufTy).Contents (Elt F)),
    binary main_v50 main_v59 main_v60 (cmpi .slt : (⟨S1650000, .i32⟩ : BufTy).Contents (Elt F) → (⟨S1650000, .i32⟩ : BufTy).Contents (Elt F) → (⟨S1650000, .i1⟩ : BufTy).Contents (Elt F)),
    nullary main_c_12 (constantI S_ 32 50000#32),
    unary main_c_12 main_v61 (broadcastInDim S1650000 ![] bcast_S_S1650000 : (⟨S_, .i32⟩ : BufTy).Contents (Elt F) → (⟨S1650000, .i32⟩ : BufTy).Contents (Elt F)),
    binary main_v50 main_v61 main_v62 (addi : (⟨S1650000, .i32⟩ : BufTy).Contents (Elt F) → (⟨S1650000, .i32⟩ : BufTy).Contents (Elt F) → (⟨S1650000, .i32⟩ : BufTy).Contents (Elt F)),
    ternary main_v60 main_v62 main_v50 main_v63 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v63 main_v64 (broadcastInDim S1650000x1 ![0] bcast_S1650000_S1650000x1_0 : (⟨S1650000, .i32⟩ : BufTy).Contents (Elt F) → (⟨S1650000x1, .i32⟩ : BufTy).Contents (Elt F)),
    binary main_v58 main_v64 main_v65 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_13 (constantI S_ 32 0#32),
    unary main_c_13 main_v66 (broadcastInDim S1650000 ![] bcast_S_S1650000 : (⟨S_, .i32⟩ : BufTy).Contents (Elt F) → (⟨S1650000, .i32⟩ : BufTy).Contents (Elt F)),
    binary main_v51 main_v66 main_v67 (cmpi .slt : (⟨S1650000, .i32⟩ : BufTy).Contents (Elt F) → (⟨S1650000, .i32⟩ : BufTy).Contents (Elt F) → (⟨S1650000, .i1⟩ : BufTy).Contents (Elt F)),
    nullary main_c_14 (constantI S_ 32 50000#32),
    unary main_c_14 main_v68 (broadcastInDim S1650000 ![] bcast_S_S1650000 : (⟨S_, .i32⟩ : BufTy).Contents (Elt F) → (⟨S1650000, .i32⟩ : BufTy).Contents (Elt F)),
    binary main_v51 main_v68 main_v69 (addi : (⟨S1650000, .i32⟩ : BufTy).Contents (Elt F) → (⟨S1650000, .i32⟩ : BufTy).Contents (Elt F) → (⟨S1650000, .i32⟩ : BufTy).Contents (Elt F)),
    ternary main_v67 main_v69 main_v51 main_v70 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v70 main_v71 (broadcastInDim S1650000x1 ![0] bcast_S1650000_S1650000x1_0 : (⟨S1650000, .i32⟩ : BufTy).Contents (Elt F) → (⟨S1650000x1, .i32⟩ : BufTy).Contents (Elt F)),
    binary main_v58 main_v71 main_v72 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v65 main_v72 main_v73 (mulf : (⟨S1650000, .f32⟩ : BufTy).Contents (Elt F) → (⟨S1650000, .f32⟩ : BufTy).Contents (Elt F) → (⟨S1650000, .f32⟩ : BufTy).Contents (Elt F)),
    nullary main_c_15 (constantI S_ 32 0#32),
    unary main_c_15 main_v74 (broadcastInDim S1650000 ![] bcast_S_S1650000 : (⟨S_, .i32⟩ : BufTy).Contents (Elt F) → (⟨S1650000, .i32⟩ : BufTy).Contents (Elt F)),
    binary main_v50 main_v74 main_v75 (cmpi .slt : (⟨S1650000, .i32⟩ : BufTy).Contents (Elt F) → (⟨S1650000, .i32⟩ : BufTy).Contents (Elt F) → (⟨S1650000, .i1⟩ : BufTy).Contents (Elt F)),
    nullary main_c_16 (constantI S_ 32 50000#32),
    unary main_c_16 main_v76 (broadcastInDim S1650000 ![] bcast_S_S1650000 : (⟨S_, .i32⟩ : BufTy).Contents (Elt F) → (⟨S1650000, .i32⟩ : BufTy).Contents (Elt F)),
    binary main_v50 main_v76 main_v77 (addi : (⟨S1650000, .i32⟩ : BufTy).Contents (Elt F) → (⟨S1650000, .i32⟩ : BufTy).Contents (Elt F) → (⟨S1650000, .i32⟩ : BufTy).Contents (Elt F)),
    ternary main_v75 main_v77 main_v50 main_v78 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v78 main_v79 (broadcastInDim S1650000x1 ![0] bcast_S1650000_S1650000x1_0 : (⟨S1650000, .i32⟩ : BufTy).Contents (Elt F) → (⟨S1650000x1, .i32⟩ : BufTy).Contents (Elt F)),
    binary main_v48 main_v79 main_v80 ((fun x i => Host.gather gather_S50000x40_S1650000x1_S1650000x40_1_0_n_n_0_1_140 x i) : (⟨S50000x40, .f32⟩ : BufTy).Contents (Elt F) → (⟨S1650000x1, .i32⟩ : BufTy).Contents (Elt F) → (⟨S1650000x40, .f32⟩ : BufTy).Contents (Elt F)),
    unary main_v73 main_v81 (broadcastInDim S1650000x1 ![0] bcast_S1650000_S1650000x1_0 : (⟨S1650000, .f32⟩ : BufTy).Contents (Elt F) → (⟨S1650000x1, .f32⟩ : BufTy).Contents (Elt F)),
    unary main_v81 main_v82 (broadcastInDim S1650000x40 ![0, 1] bcast_S1650000x1_S1650000x40_0_1 : (⟨S1650000x1, .f32⟩ : BufTy).Contents (Elt F) → (⟨S1650000x40, .f32⟩ : BufTy).Contents (Elt F)),
    binary main_v80 main_v82 main_v83 (mulf : (⟨S1650000x40, .f32⟩ : BufTy).Contents (Elt F) → (⟨S1650000x40, .f32⟩ : BufTy).Contents (Elt F) → (⟨S1650000x40, .f32⟩ : BufTy).Contents (Elt F)),
    nullary main_cst_17 (constant S_ .f32 0x00000000#32),
    unary main_cst_17 main_v84 (broadcastInDim S50000x40 ![] bcast_S_S50000x40 : (⟨S_, .f32⟩ : BufTy).Contents (Elt F) → (⟨S50000x40, .f32⟩ : BufTy).Contents (Elt F)),
    unary main_v51 main_v85 (broadcastInDim S1650000x1 ![0] bcast_S1650000_S1650000x1_0 : (⟨S1650000, .i32⟩ : BufTy).Contents (Elt F) → (⟨S1650000x1, .i32⟩ : BufTy).Contents (Elt F)),
    ternary main_v84 main_v85 main_v83 main_v86 ((fun x i u => Host.scatterAdd scatter_S50000x40_S1650000x1_S1650000x40_1_0_0_1 x i u) : (⟨S50000x40, .f32⟩ : BufTy).Contents (Elt F) → (⟨S1650000x1, .i32⟩ : BufTy).Contents (Elt F) → (⟨S1650000x40, .f32⟩ : BufTy).Contents (Elt F) → (⟨S50000x40, .f32⟩ : BufTy).Contents (Elt F)),
    unary main_arg5 main_v87 (broadcastInDim S1x40 ![1] bcast_S40_S1x40_1 : (⟨S40, .f32⟩ : BufTy).Contents (Elt F) → (⟨S1x40, .f32⟩ : BufTy).Contents (Elt F)),
    unary main_v87 main_v88 (broadcastInDim S50000x40 ![0, 1] bcast_S1x40_S50000x40_0_1 : (⟨S1x40, .f32⟩ : BufTy).Contents (Elt F) → (⟨S50000x40, .f32⟩ : BufTy).Contents (Elt F)),
    binary main_v86 main_v88 main_v89 (addf : (⟨S50000x40, .f32⟩ : BufTy).Contents (Elt F) → (⟨S50000x40, .f32⟩ : BufTy).Contents (Elt F) → (⟨S50000x40, .f32⟩ : BufTy).Contents (Elt F)) ]

theorem opsPass2_sub : (opsPass2 : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem opsPass2_fresh : (opsPass2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The log-softmax of every row: the row's maximum (kept above minus infinity), the row minus it, the logarithm of the
    sum of the exponentials of that difference, and the difference minus that logarithm. -/
abbrev opsLsm : List (HloOp τ sig (Elt F)) :=
  [ TRef.nullary (TRef.of (T := ⟨S_, .f32⟩) main_call1_cst) (constant S_ .f32 0xFF800000#32),
    TRef.binary (TRef.of (T := ⟨S50000x40, .f32⟩) main_v89) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v89) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v90) subf ]

theorem opsLsm_sub : (opsLsm : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem opsLsm_fresh : (opsLsm : List (HloOp τ sig (Elt F))).Forall fun op => op.fresh = ∅ :=
  ⟨rfl, rfl, rfl, rfl, rfl, rfl, rfl, rfl, rfl, rfl, rfl, rfl, rfl, rfl, rfl⟩

/-! ## The whole line -/

/-- The program's 127 operations, in order: the eight segments in a row, nested to the right. -/
abbrev ops : List (HloOp τ sig (Elt F)) :=
  opsIdx ++ (opsDense1 ++ (opsPass1 ++ (opsRelu ++ (opsMask ++ (opsDense2 ++ (opsPass2 ++ (opsLsm)))))))

set_option maxRecDepth 8192 in
set_option maxHeartbeats 4000000 in
/-- The program is the sequence of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  List.forall_append.mpr ⟨opsIdx_sub, List.forall_append.mpr ⟨opsDense1_sub, List.forall_append.mpr ⟨opsPass1_sub, List.forall_append.mpr ⟨opsRelu_sub, List.forall_append.mpr ⟨opsMask_sub, List.forall_append.mpr ⟨opsDense2_sub, List.forall_append.mpr ⟨opsPass2_sub, opsLsm_sub⟩⟩⟩⟩⟩⟩⟩

/-- Every operation determines what it writes. -/
theorem ops_fresh : (ops : List (HloOp τ sig (Elt F))).Forall fun op => op.fresh = ∅ :=
  List.forall_append.mpr ⟨opsIdx_fresh, List.forall_append.mpr ⟨opsDense1_fresh, List.forall_append.mpr ⟨opsPass1_fresh, List.forall_append.mpr ⟨opsRelu_fresh, List.forall_append.mpr ⟨opsMask_fresh, List.forall_append.mpr ⟨opsDense2_fresh, List.forall_append.mpr ⟨opsPass2_fresh, opsLsm_fresh⟩⟩⟩⟩⟩⟩⟩

/-- From any memory with zero counters, every weakly fair execution of the program terminates with every buffer
    holding what the fold of the 127 operations over the launch contents leaves there. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ
    (fun _ => List.forall_iff_forall_mem.mp ops_fresh)

/-! ## What each operation writes

Operation by operation, the buffer written; the 127 are pairwise distinct and none is an argument. -/

/-- The buffers the segment writes, in order. -/
abbrev wrIdx : List (Ref sig .tc) :=
  [main_v0, main_v1, main_v2, main_v3]

theorem opsIdx_writes : Cert.LibAfter.Writes (opsIdx : List (HloOp τ sig (Elt F))) wrIdx :=
  .cons rfl (.cons rfl (.cons rfl (.cons rfl (.nil))))

/-- The buffers the segment writes, in order. -/
abbrev wrDense1 : List (Ref sig .tc) :=
  [main_v4]

theorem opsDense1_writes : Cert.LibAfter.Writes (opsDense1 : List (HloOp τ sig (Elt F))) wrDense1 :=
  .cons rfl (.nil)

/-- The buffers the segment writes, in order. -/
abbrev wrPass1 : List (Ref sig .tc) :=
  [main_v5, main_v6, main_v7, main_cst, main_v8, main_cst_0, main_v9, main_v10, main_v11, main_cst_1, main_v12, main_v13, main_v14, main_c, main_v15, main_v16, main_c_2, main_v17, main_v18, main_v19, main_v20, main_v21, main_c_3, main_v22, main_v23, main_c_4, main_v24, main_v25, main_v26, main_v27, main_v28, main_v29, main_c_5, main_v30, main_v31, main_c_6, main_v32, main_v33, main_v34, main_v35, main_v36, main_v37, main_v38, main_v39, main_cst_7, main_v40, main_v41, main_v42, main_v43, main_v44, main_v45]

theorem opsPass1_writes : Cert.LibAfter.Writes (opsPass1 : List (HloOp τ sig (Elt F))) wrPass1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))

/-- The buffers the segment writes, in order. -/
abbrev wrRelu : List (Ref sig .tc) :=
  [main_call0_cst, main_call0_v0, main_v46]

theorem opsRelu_writes : Cert.LibAfter.Writes (opsRelu : List (HloOp τ sig (Elt F))) wrRelu :=
  .cons rfl (.cons rfl (.cons rfl (.nil)))

/-- The buffers the segment writes, in order. -/
abbrev wrMask : List (Ref sig .tc) :=
  [main_v47]

theorem opsMask_writes : Cert.LibAfter.Writes (opsMask : List (HloOp τ sig (Elt F))) wrMask :=
  .cons rfl (.nil)

/-- The buffers the segment writes, in order. -/
abbrev wrDense2 : List (Ref sig .tc) :=
  [main_v48]

theorem opsDense2_writes : Cert.LibAfter.Writes (opsDense2 : List (HloOp τ sig (Elt F))) wrDense2 :=
  .cons rfl (.nil)

/-- The buffers the segment writes, in order. -/
abbrev wrPass2 : List (Ref sig .tc) :=
  [main_v49, main_v50, main_v51, main_cst_8, main_v52, main_cst_9, main_v53, main_v54, main_v55, main_cst_10, main_v56, main_v57, main_v58, main_c_11, main_v59, main_v60, main_c_12, main_v61, main_v62, main_v63, main_v64, main_v65, main_c_13, main_v66, main_v67, main_c_14, main_v68, main_v69, main_v70, main_v71, main_v72, main_v73, main_c_15, main_v74, main_v75, main_c_16, main_v76, main_v77, main_v78, main_v79, main_v80, main_v81, main_v82, main_v83, main_cst_17, main_v84, main_v85, main_v86, main_v87, main_v88, main_v89]

theorem opsPass2_writes : Cert.LibAfter.Writes (opsPass2 : List (HloOp τ sig (Elt F))) wrPass2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))

/-- The buffers the segment writes, in order. -/
abbrev wrLsm : List (Ref sig .tc) :=
  [main_call1_cst, main_call1_v0, main_call1_cst_0, main_call1_v1, main_call1_v2, main_call1_v3, main_call1_v4, main_call1_v5, main_call1_v6, main_call1_cst_1, main_call1_v7, main_call1_v8, main_call1_v9, main_call1_v10, main_v90]

theorem opsLsm_writes : Cert.LibAfter.Writes (opsLsm : List (HloOp τ sig (Elt F))) wrLsm :=
  .cons rfl (.cons rfl (.cons rfl (.cons rfl (.cons rfl (.cons rfl (.cons rfl (.cons rfl (.cons rfl (.cons rfl (.cons rfl (.cons rfl (.cons rfl (.cons rfl (.cons rfl (.nil)))))))))))))))

/-- The buffers the whole line writes, in order. -/
abbrev wr : List (Ref sig .tc) :=
  wrIdx ++ (wrDense1 ++ (wrPass1 ++ (wrRelu ++ (wrMask ++ (wrDense2 ++ (wrPass2 ++ (wrLsm)))))))

theorem ops_writes : Cert.LibAfter.Writes (ops : List (HloOp τ sig (Elt F))) wr :=
  Cert.LibAfter.writes_append opsIdx_writes (Cert.LibAfter.writes_append opsDense1_writes (Cert.LibAfter.writes_append opsPass1_writes (Cert.LibAfter.writes_append opsRelu_writes (Cert.LibAfter.writes_append opsMask_writes (Cert.LibAfter.writes_append opsDense2_writes (Cert.LibAfter.writes_append opsPass2_writes (opsLsm_writes)))))))

/-- No buffer is written twice. -/
theorem wr_nodup : wr.Nodup := by decide

/-! ## The fold over the line, segment by segment -/

/-- The fold over the whole line is the fold over each segment in turn, from the fold over the segments before it. -/
theorem after_ops (V : Valuation τ sig (Elt F)) :
    after (ops : List (HloOp τ sig (Elt F))) V
      = after opsLsm (after opsPass2 (after opsDense2 (after opsMask (after opsRelu (after opsPass1 (after opsDense1 (after opsIdx V))))))) := by
  show after (opsIdx ++ (opsDense1 ++ (opsPass1 ++ (opsRelu ++ (opsMask ++ (opsDense2 ++ (opsPass2 ++ (opsLsm)))))))) V = _
  simp only [Cert.LibAfter.after_append]

/-! ## The arguments end as launched -/

/-- No operation writes argument 0. -/
theorem kept_arg0 (V : Valuation τ sig (Elt F)) :
    after (ops : List (HloOp τ sig (Elt F))) V (Proc.devRef .tc main_arg0) = V (Proc.devRef .tc main_arg0) :=
  Cert.LibAfter.after_of_not_written ops_writes (by decide) V

/-- No operation writes argument 1. -/
theorem kept_arg1 (V : Valuation τ sig (Elt F)) :
    after (ops : List (HloOp τ sig (Elt F))) V (Proc.devRef .tc main_arg1) = V (Proc.devRef .tc main_arg1) :=
  Cert.LibAfter.after_of_not_written ops_writes (by decide) V

/-- No operation writes argument 2. -/
theorem kept_arg2 (V : Valuation τ sig (Elt F)) :
    after (ops : List (HloOp τ sig (Elt F))) V (Proc.devRef .tc main_arg2) = V (Proc.devRef .tc main_arg2) :=
  Cert.LibAfter.after_of_not_written ops_writes (by decide) V

/-- No operation writes argument 3. -/
theorem kept_arg3 (V : Valuation τ sig (Elt F)) :
    after (ops : List (HloOp τ sig (Elt F))) V (Proc.devRef .tc main_arg3) = V (Proc.devRef .tc main_arg3) :=
  Cert.LibAfter.after_of_not_written ops_writes (by decide) V

/-- No operation writes argument 4. -/
theorem kept_arg4 (V : Valuation τ sig (Elt F)) :
    after (ops : List (HloOp τ sig (Elt F))) V (Proc.devRef .tc main_arg4) = V (Proc.devRef .tc main_arg4) :=
  Cert.LibAfter.after_of_not_written ops_writes (by decide) V

/-- No operation writes argument 5. -/
theorem kept_arg5 (V : Valuation τ sig (Elt F)) :
    after (ops : List (HloOp τ sig (Elt F))) V (Proc.devRef .tc main_arg5) = V (Proc.devRef .tc main_arg5) :=
  Cert.LibAfter.after_of_not_written ops_writes (by decide) V

/-- No operation writes argument 6. -/
theorem kept_arg6 (V : Valuation τ sig (Elt F)) :
    after (ops : List (HloOp τ sig (Elt F))) V (Proc.devRef .tc main_arg6) = V (Proc.devRef .tc main_arg6) :=
  Cert.LibAfter.after_of_not_written ops_writes (by decide) V

end Cert.ReferenceIdeal.RunValue

end
-- ==== Proof.ReferenceValue.lean ====
/-
  The reference program's result as one composed function of its arguments.

  The program's line of operations is eight segments in a row. Each segment is read here as one function of the buffers
  it reads: the two rows of the edge list; the first dense product; the first propagation over the graph, which is the
  same function of (features, bias, sources, targets) as the one the other program's host operations compute; relu
  against the zero array; the product with the mask; the second dense product; the second propagation; the log-softmax of
  every row. A segment leaves every buffer it does not write as it found it, so the sources, the targets and the
  arguments are found unchanged where later segments read them. Chaining the eight reads, the result buffer after the
  whole line is the model: log-softmax of the second propagation of the second dense product of the masked relu of the
  first propagation of the first dense product.
-/
import proofs.«104665_j59622736003658_1_alg».proof.Proof.ReferenceRun
import proofs.«104665_j59622736003658_1_alg».proof.Proof.MessagePassing
import proofs.«104665_j59622736003658_1_alg».proof.Proof.SoftmaxRows

set_option maxRecDepth 16384

noncomputable section

namespace Cert.ReferenceIdeal.WholeValue

open Cert.ReferenceIdeal Cert.ReferenceIdeal.Gen Cert.ReferenceIdeal.RunValue
open Idealize.ShloMosaic Idealize.ShloMosaic.TcCoe Idealize.SL.Sem Idealize.ShloMosaic.StableHlo

variable {F : FTy → Type} [FloatOps F]

/-! ## What a segment does not write, it keeps -/

theorem keepsIdx {r : Ref sig .tc} (hr : r ∉ wrIdx) (W : Valuation τ sig (Elt F)) :
    after (opsIdx : List (HloOp τ sig (Elt F))) W (Proc.devRef .tc r) = W (Proc.devRef .tc r) :=
  Cert.LibAfter.after_of_not_written opsIdx_writes hr W

theorem keepsDense1 {r : Ref sig .tc} (hr : r ∉ wrDense1) (W : Valuation τ sig (Elt F)) :
    after (opsDense1 : List (HloOp τ sig (Elt F))) W (Proc.devRef .tc r) = W (Proc.devRef .tc r) :=
  Cert.LibAfter.after_of_not_written opsDense1_writes hr W

theorem keepsPass1 {r : Ref sig .tc} (hr : r ∉ wrPass1) (W : Valuation τ sig (Elt F)) :
    after (opsPass1 : List (HloOp τ sig (Elt F))) W (Proc.devRef .tc r) = W (Proc.devRef .tc r) :=
  Cert.LibAfter.after_of_not_written opsPass1_writes hr W

theorem keepsRelu {r : Ref sig .tc} (hr : r ∉ wrRelu) (W : Valuation τ sig (Elt F)) :
    after (opsRelu : List (HloOp τ sig (Elt F))) W (Proc.devRef .tc r) = W (Proc.devRef .tc r) :=
  Cert.LibAfter.after_of_not_written opsRelu_writes hr W

theorem keepsMask {r : Ref sig .tc} (hr : r ∉ wrMask) (W : Valuation τ sig (Elt F)) :
    after (opsMask : List (HloOp τ sig (Elt F))) W (Proc.devRef .tc r) = W (Proc.devRef .tc r) :=
  Cert.LibAfter.after_of_not_written opsMask_writes hr W

theorem keepsDense2 {r : Ref sig .tc} (hr : r ∉ wrDense2) (W : Valuation τ sig (Elt F)) :
    after (opsDense2 : List (HloOp τ sig (Elt F))) W (Proc.devRef .tc r) = W (Proc.devRef .tc r) :=
  Cert.LibAfter.after_of_not_written opsDense2_writes hr W

theorem keepsPass2 {r : Ref sig .tc} (hr : r ∉ wrPass2) (W : Valuation τ sig (Elt F)) :
    after (opsPass2 : List (HloOp τ sig (Elt F))) W (Proc.devRef .tc r) = W (Proc.devRef .tc r) :=
  Cert.LibAfter.after_of_not_written opsPass2_writes hr W

theorem keepsLsm {r : Ref sig .tc} (hr : r ∉ wrLsm) (W : Valuation τ sig (Elt F)) :
    after (opsLsm : List (HloOp τ sig (Elt F))) W (Proc.devRef .tc r) = W (Proc.devRef .tc r) :=
  Cert.LibAfter.after_of_not_written opsLsm_writes hr W

/-! ## Each segment read as one function -/

/-- The sources: row 0 of the edge list as a vector. -/
theorem idx_src_read (W : Valuation τ sig (Elt F)) :
    after (opsIdx : List (HloOp τ sig (Elt F))) W (Proc.devRef .tc main_v1) = Cert.KernelIdeal.HostValue.edgeSrc (F := F) (W (Proc.devRef .tc main_arg1)) := by
  after_results <;> rfl

/-- The targets: row 1 of the edge list as a vector. -/
theorem idx_dst_read (W : Valuation τ sig (Elt F)) :
    after (opsIdx : List (HloOp τ sig (Elt F))) W (Proc.devRef .tc main_v3) = Cert.KernelIdeal.HostValue.edgeDst (F := F) (W (Proc.devRef .tc main_arg1)) := by
  after_results <;> rfl

/-- The first dense product. -/
theorem dense1_read (W : Valuation τ sig (Elt F)) :
    after (opsDense1 : List (HloOp τ sig (Elt F))) W (Proc.devRef .tc main_v4)
      = Host.dotGeneral (F := F) (φ₁ := .f32) (φ₂ := .f32) dot_S50000x256_S256x128_S50000x128_1_0_0_1_n_n none (W (Proc.devRef .tc main_arg0)) (W (Proc.devRef .tc main_arg2)) := by
  after_results <;> rfl

set_option maxHeartbeats 4000000 in
/-- The first propagation: the fifty-one operations are the propagation function of the dense product, the bias, the
    sources and the targets. -/
theorem pass1_read (W : Valuation τ sig (Elt F)) :
    after (opsPass1 : List (HloOp τ sig (Elt F))) W (Proc.devRef .tc main_v45)
      = Cert.KernelIdeal.HostValue.pass128 (F := F) (W (Proc.devRef .tc main_v4)) (W (Proc.devRef .tc main_arg3)) (W (Proc.devRef .tc main_v1)) (W (Proc.devRef .tc main_v3)) := by
  after_results_simp <;> rfl

/-- Relu: the maximum with the zero array. -/
theorem relu_read (W : Valuation τ sig (Elt F)) :
    after (opsRelu : List (HloOp τ sig (Elt F))) W (Proc.devRef .tc main_v46)
      = maximumf (F := F) (s := S50000x128) (φ := .f32) (W (Proc.devRef .tc main_v45)) (broadcastInDim S50000x128 ![] bcast_S_S50000x128 (constant (F := F) S_ .f32 0x00000000#32)) := by
  after_results <;> rfl

/-- The product with the mask. -/
theorem mask_read (W : Valuation τ sig (Elt F)) :
    after (opsMask : List (HloOp τ sig (Elt F))) W (Proc.devRef .tc main_v47)
      = mulf (F := F) (s := S50000x128) (φ := .f32) (W (Proc.devRef .tc main_v46)) (W (Proc.devRef .tc main_arg6)) := by
  after_results <;> rfl

/-- The second dense product. -/
theorem dense2_read (W : Valuation τ sig (Elt F)) :
    after (opsDense2 : List (HloOp τ sig (Elt F))) W (Proc.devRef .tc main_v48)
      = Host.dotGeneral (F := F) (φ₁ := .f32) (φ₂ := .f32) dot_S50000x128_S128x40_S50000x40_1_0_0_1_n_n none (W (Proc.devRef .tc main_v47)) (W (Proc.devRef .tc main_arg4)) := by
  after_results <;> rfl

set_option maxHeartbeats 4000000 in
/-- The second propagation, on rows of 40 entries. -/
theorem pass2_read (W : Valuation τ sig (Elt F)) :
    after (opsPass2 : List (HloOp τ sig (Elt F))) W (Proc.devRef .tc main_v89)
      = Cert.KernelIdeal.HostValue.pass40 (F := F) (W (Proc.devRef .tc main_v48)) (W (Proc.devRef .tc main_arg5)) (W (Proc.devRef .tc main_v1)) (W (Proc.devRef .tc main_v3)) := by
  after_results_simp <;> rfl

/-- Reading back, at the value's type, what was stored at the buffer's type gives the value: the two transports along the
    same equation of types cancel. -/
theorem ofBuf_toBuf {sg : RefSig} {Val : EltTy → Type} {T : BufTy} (x : TRef sg T) (v : T.Contents Val) :
    x.ofBuf (x.toBuf v) = v := by
  obtain ⟨ref, rfl, h1, h2⟩ := x
  rfl

/-- The log-softmax segment's operations composed in program order, over an arbitrary [50000, 40] array, for any floats:
    the row maxima from minus infinity, once more the maximum with minus infinity, spread back over the rows and
    subtracted; the exponentials summed along the rows from zero, the logarithm of the sums spread back and subtracted. -/
def lsmComposed (h : (⟨S50000x40, .f32⟩ : BufTy).Contents (Elt F)) :
    (⟨S50000x40, .f32⟩ : BufTy).Contents (Elt F) :=
  have cst : (⟨S_, .f32⟩ : BufTy).Contents (Elt F) := constant S_ .f32 0xFF800000#32
  have v0 : (⟨S50000, .f32⟩ : BufTy).Contents (Elt F) :=
    Host.reduce FloatOps.maximumf h cst reducesTo_S50000x40_S50000_d1 h_S_
  have cst_0 : (⟨S_, .f32⟩ : BufTy).Contents (Elt F) := constant S_ .f32 0xFF800000#32
  have v1 : (⟨S50000, .f32⟩ : BufTy).Contents (Elt F) := broadcastInDim S50000 ![] bcast_S_S50000 cst_0
  have v2 : (⟨S50000, .f32⟩ : BufTy).Contents (Elt F) := maximumf v1 v0
  have v3 : (⟨S50000x1, .f32⟩ : BufTy).Contents (Elt F) := broadcastInDim S50000x1 ![0] bcast_S50000_S50000x1_0 v2
  have v4 : (⟨S50000x40, .f32⟩ : BufTy).Contents (Elt F) :=
    broadcastInDim S50000x40 ![0, 1] bcast_S50000x1_S50000x40_0_1 v3
  have v5 : (⟨S50000x40, .f32⟩ : BufTy).Contents (Elt F) := subf h v4
  have v6 : (⟨S50000x40, .f32⟩ : BufTy).Contents (Elt F) := Host.exp v5
  have cst_1 : (⟨S_, .f32⟩ : BufTy).Contents (Elt F) := constant S_ .f32 0x00000000#32
  have v7 : (⟨S50000, .f32⟩ : BufTy).Contents (Elt F) :=
    Host.reduceAdd v6 cst_1 reducesTo_S50000x40_S50000_d1 h_S_
  have v8 : (⟨S50000x1, .f32⟩ : BufTy).Contents (Elt F) := broadcastInDim S50000x1 ![0] bcast_S50000_S50000x1_0 v7
  have v9 : (⟨S50000x1, .f32⟩ : BufTy).Contents (Elt F) := Host.log v8
  have v10 : (⟨S50000x40, .f32⟩ : BufTy).Contents (Elt F) :=
    broadcastInDim S50000x40 ![0, 1] bcast_S50000x1_S50000x40_0_1 v9
  subf v5 v10

/-- At the exact floats the composition is the host's log-softmax. -/
theorem lsmComposed_ideal (h : (⟨S50000x40, .f32⟩ : BufTy).Contents (Elt Ideal)) :
    lsmComposed (F := Ideal) h = Cert.Bridge.SoftmaxRows.lsmHost h := rfl

set_option maxHeartbeats 4000000 in
/-- The log-softmax segment read as that composition. Its operations are spelt over typed buffer names, which store and
    read back through transports that cancel. -/
theorem lsm_read_generic (W : Valuation τ sig (Elt F)) :
    after (opsLsm : List (HloOp τ sig (Elt F))) W (Proc.devRef .tc main_v90) = lsmComposed (F := F) (W (Proc.devRef .tc main_v89)) := by
  after_results_simp
  simp only [ofBuf_toBuf]
  rfl

/-- The log-softmax of every row. -/
theorem lsm_read (W : Valuation τ sig (Elt Ideal)) :
    after (opsLsm : List (HloOp τ sig (Elt Ideal))) W (Proc.devRef .tc main_v90) = Cert.Bridge.SoftmaxRows.lsmHost (W (Proc.devRef .tc main_v89)) :=
  (lsm_read_generic W).trans (lsmComposed_ideal _)

/-! ## The buffers after the first segments, as functions of the arguments

After the first s segments, each buffer a later segment reads holds a fixed function of the arguments' contents: the
segment's own result by its read above, every other one because the segment does not write it. -/

/-! After the edge list's rows. -/

theorem st1_main_v1 (V : Valuation τ sig (Elt F)) :
    (after (opsIdx : List (HloOp τ sig (Elt F))) V) (Proc.devRef .tc main_v1)
      = Cert.KernelIdeal.HostValue.edgeSrc (F := F) (V (Proc.devRef .tc main_arg1)) := by
  rw [idx_src_read]

theorem st1_main_v3 (V : Valuation τ sig (Elt F)) :
    (after (opsIdx : List (HloOp τ sig (Elt F))) V) (Proc.devRef .tc main_v3)
      = Cert.KernelIdeal.HostValue.edgeDst (F := F) (V (Proc.devRef .tc main_arg1)) := by
  rw [idx_dst_read]

theorem st1_main_arg0 (V : Valuation τ sig (Elt F)) :
    (after (opsIdx : List (HloOp τ sig (Elt F))) V) (Proc.devRef .tc main_arg0) = V (Proc.devRef .tc main_arg0) :=
  keepsIdx (by decide) V

theorem st1_main_arg2 (V : Valuation τ sig (Elt F)) :
    (after (opsIdx : List (HloOp τ sig (Elt F))) V) (Proc.devRef .tc main_arg2) = V (Proc.devRef .tc main_arg2) :=
  keepsIdx (by decide) V

theorem st1_main_arg3 (V : Valuation τ sig (Elt F)) :
    (after (opsIdx : List (HloOp τ sig (Elt F))) V) (Proc.devRef .tc main_arg3) = V (Proc.devRef .tc main_arg3) :=
  keepsIdx (by decide) V

theorem st1_main_arg4 (V : Valuation τ sig (Elt F)) :
    (after (opsIdx : List (HloOp τ sig (Elt F))) V) (Proc.devRef .tc main_arg4) = V (Proc.devRef .tc main_arg4) :=
  keepsIdx (by decide) V

theorem st1_main_arg5 (V : Valuation τ sig (Elt F)) :
    (after (opsIdx : List (HloOp τ sig (Elt F))) V) (Proc.devRef .tc main_arg5) = V (Proc.devRef .tc main_arg5) :=
  keepsIdx (by decide) V

theorem st1_main_arg6 (V : Valuation τ sig (Elt F)) :
    (after (opsIdx : List (HloOp τ sig (Elt F))) V) (Proc.devRef .tc main_arg6) = V (Proc.devRef .tc main_arg6) :=
  keepsIdx (by decide) V

/-! After the first dense product. -/

theorem st2_main_v4 (V : Valuation τ sig (Elt F)) :
    (after (opsDense1 : List (HloOp τ sig (Elt F))) (after (opsIdx : List (HloOp τ sig (Elt F))) V)) (Proc.devRef .tc main_v4)
      = Host.dotGeneral (F := F) (φ₁ := .f32) (φ₂ := .f32) dot_S50000x256_S256x128_S50000x128_1_0_0_1_n_n none (V (Proc.devRef .tc main_arg0)) (V (Proc.devRef .tc main_arg2)) := by
  rw [dense1_read, st1_main_arg0 V, st1_main_arg2 V]

theorem st2_main_v1 (V : Valuation τ sig (Elt F)) :
    (after (opsDense1 : List (HloOp τ sig (Elt F))) (after (opsIdx : List (HloOp τ sig (Elt F))) V)) (Proc.devRef .tc main_v1) = Cert.KernelIdeal.HostValue.edgeSrc (F := F) (V (Proc.devRef .tc main_arg1)) :=
  (keepsDense1 (by decide) _).trans (st1_main_v1 V)

theorem st2_main_v3 (V : Valuation τ sig (Elt F)) :
    (after (opsDense1 : List (HloOp τ sig (Elt F))) (after (opsIdx : List (HloOp τ sig (Elt F))) V)) (Proc.devRef .tc main_v3) = Cert.KernelIdeal.HostValue.edgeDst (F := F) (V (Proc.devRef .tc main_arg1)) :=
  (keepsDense1 (by decide) _).trans (st1_main_v3 V)

theorem st2_main_arg3 (V : Valuation τ sig (Elt F)) :
    (after (opsDense1 : List (HloOp τ sig (Elt F))) (after (opsIdx : List (HloOp τ sig (Elt F))) V)) (Proc.devRef .tc main_arg3) = V (Proc.devRef .tc main_arg3) :=
  (keepsDense1 (by decide) _).trans (st1_main_arg3 V)

theorem st2_main_arg4 (V : Valuation τ sig (Elt F)) :
    (after (opsDense1 : List (HloOp τ sig (Elt F))) (after (opsIdx : List (HloOp τ sig (Elt F))) V)) (Proc.devRef .tc main_arg4) = V (Proc.devRef .tc main_arg4) :=
  (keepsDense1 (by decide) _).trans (st1_main_arg4 V)

theorem st2_main_arg5 (V : Valuation τ sig (Elt F)) :
    (after (opsDense1 : List (HloOp τ sig (Elt F))) (after (opsIdx : List (HloOp τ sig (Elt F))) V)) (Proc.devRef .tc main_arg5) = V (Proc.devRef .tc main_arg5) :=
  (keepsDense1 (by decide) _).trans (st1_main_arg5 V)

theorem st2_main_arg6 (V : Valuation τ sig (Elt F)) :
    (after (opsDense1 : List (HloOp τ sig (Elt F))) (after (opsIdx : List (HloOp τ sig (Elt F))) V)) (Proc.devRef .tc main_arg6) = V (Proc.devRef .tc main_arg6) :=
  (keepsDense1 (by decide) _).trans (st1_main_arg6 V)

/-! After the first propagation. -/

theorem st3_main_v45 (V : Valuation τ sig (Elt F)) :
    (after (opsPass1 : List (HloOp τ sig (Elt F))) (after (opsDense1 : List (HloOp τ sig (Elt F))) (after (opsIdx : List (HloOp τ sig (Elt F))) V))) (Proc.devRef .tc main_v45)
      = Cert.KernelIdeal.HostValue.pass128 (F := F) (Host.dotGeneral (F := F) (φ₁ := .f32) (φ₂ := .f32) dot_S50000x256_S256x128_S50000x128_1_0_0_1_n_n none (V (Proc.devRef .tc main_arg0)) (V (Proc.devRef .tc main_arg2))) (V (Proc.devRef .tc main_arg3)) (Cert.KernelIdeal.HostValue.edgeSrc (F := F) (V (Proc.devRef .tc main_arg1))) (Cert.KernelIdeal.HostValue.edgeDst (F := F) (V (Proc.devRef .tc main_arg1))) := by
  rw [pass1_read, st2_main_v4 V, st2_main_arg3 V, st2_main_v1 V, st2_main_v3 V]

theorem st3_main_v1 (V : Valuation τ sig (Elt F)) :
    (after (opsPass1 : List (HloOp τ sig (Elt F))) (after (opsDense1 : List (HloOp τ sig (Elt F))) (after (opsIdx : List (HloOp τ sig (Elt F))) V))) (Proc.devRef .tc main_v1) = Cert.KernelIdeal.HostValue.edgeSrc (F := F) (V (Proc.devRef .tc main_arg1)) :=
  (keepsPass1 (by decide) _).trans (st2_main_v1 V)

theorem st3_main_v3 (V : Valuation τ sig (Elt F)) :
    (after (opsPass1 : List (HloOp τ sig (Elt F))) (after (opsDense1 : List (HloOp τ sig (Elt F))) (after (opsIdx : List (HloOp τ sig (Elt F))) V))) (Proc.devRef .tc main_v3) = Cert.KernelIdeal.HostValue.edgeDst (F := F) (V (Proc.devRef .tc main_arg1)) :=
  (keepsPass1 (by decide) _).trans (st2_main_v3 V)

theorem st3_main_arg4 (V : Valuation τ sig (Elt F)) :
    (after (opsPass1 : List (HloOp τ sig (Elt F))) (after (opsDense1 : List (HloOp τ sig (Elt F))) (after (opsIdx : List (HloOp τ sig (Elt F))) V))) (Proc.devRef .tc main_arg4) = V (Proc.devRef .tc main_arg4) :=
  (keepsPass1 (by decide) _).trans (st2_main_arg4 V)

theorem st3_main_arg5 (V : Valuation τ sig (Elt F)) :
    (after (opsPass1 : List (HloOp τ sig (Elt F))) (after (opsDense1 : List (HloOp τ sig (Elt F))) (after (opsIdx : List (HloOp τ sig (Elt F))) V))) (Proc.devRef .tc main_arg5) = V (Proc.devRef .tc main_arg5) :=
  (keepsPass1 (by decide) _).trans (st2_main_arg5 V)

theorem st3_main_arg6 (V : Valuation τ sig (Elt F)) :
    (after (opsPass1 : List (HloOp τ sig (Elt F))) (after (opsDense1 : List (HloOp τ sig (Elt F))) (after (opsIdx : List (HloOp τ sig (Elt F))) V))) (Proc.devRef .tc main_arg6) = V (Proc.devRef .tc main_arg6) :=
  (keepsPass1 (by decide) _).trans (st2_main_arg6 V)

/-! After relu. -/

theorem st4_main_v46 (V : Valuation τ sig (Elt F)) :
    (after (opsRelu : List (HloOp τ sig (Elt F))) (after (opsPass1 : List (HloOp τ sig (Elt F))) (after (opsDense1 : List (HloOp τ sig (Elt F))) (after (opsIdx : List (HloOp τ sig (Elt F))) V)))) (Proc.devRef .tc main_v46)
      = maximumf (F := F) (s := S50000x128) (φ := .f32) (Cert.KernelIdeal.HostValue.pass128 (F := F) (Host.dotGeneral (F := F) (φ₁ := .f32) (φ₂ := .f32) dot_S50000x256_S256x128_S50000x128_1_0_0_1_n_n none (V (Proc.devRef .tc main_arg0)) (V (Proc.devRef .tc main_arg2))) (V (Proc.devRef .tc main_arg3)) (Cert.KernelIdeal.HostValue.edgeSrc (F := F) (V (Proc.devRef .tc main_arg1))) (Cert.KernelIdeal.HostValue.edgeDst (F := F) (V (Proc.devRef .tc main_arg1)))) (broadcastInDim S50000x128 ![] bcast_S_S50000x128 (constant (F := F) S_ .f32 0x00000000#32)) := by
  rw [relu_read, st3_main_v45 V]

theorem st4_main_v1 (V : Valuation τ sig (Elt F)) :
    (after (opsRelu : List (HloOp τ sig (Elt F))) (after (opsPass1 : List (HloOp τ sig (Elt F))) (after (opsDense1 : List (HloOp τ sig (Elt F))) (after (opsIdx : List (HloOp τ sig (Elt F))) V)))) (Proc.devRef .tc main_v1) = Cert.KernelIdeal.HostValue.edgeSrc (F := F) (V (Proc.devRef .tc main_arg1)) :=
  (keepsRelu (by decide) _).trans (st3_main_v1 V)

theorem st4_main_v3 (V : Valuation τ sig (Elt F)) :
    (after (opsRelu : List (HloOp τ sig (Elt F))) (after (opsPass1 : List (HloOp τ sig (Elt F))) (after (opsDense1 : List (HloOp τ sig (Elt F))) (after (opsIdx : List (HloOp τ sig (Elt F))) V)))) (Proc.devRef .tc main_v3) = Cert.KernelIdeal.HostValue.edgeDst (F := F) (V (Proc.devRef .tc main_arg1)) :=
  (keepsRelu (by decide) _).trans (st3_main_v3 V)

theorem st4_main_arg4 (V : Valuation τ sig (Elt F)) :
    (after (opsRelu : List (HloOp τ sig (Elt F))) (after (opsPass1 : List (HloOp τ sig (Elt F))) (after (opsDense1 : List (HloOp τ sig (Elt F))) (after (opsIdx : List (HloOp τ sig (Elt F))) V)))) (Proc.devRef .tc main_arg4) = V (Proc.devRef .tc main_arg4) :=
  (keepsRelu (by decide) _).trans (st3_main_arg4 V)

theorem st4_main_arg5 (V : Valuation τ sig (Elt F)) :
    (after (opsRelu : List (HloOp τ sig (Elt F))) (after (opsPass1 : List (HloOp τ sig (Elt F))) (after (opsDense1 : List (HloOp τ sig (Elt F))) (after (opsIdx : List (HloOp τ sig (Elt F))) V)))) (Proc.devRef .tc main_arg5) = V (Proc.devRef .tc main_arg5) :=
  (keepsRelu (by decide) _).trans (st3_main_arg5 V)

theorem st4_main_arg6 (V : Valuation τ sig (Elt F)) :
    (after (opsRelu : List (HloOp τ sig (Elt F))) (after (opsPass1 : List (HloOp τ sig (Elt F))) (after (opsDense1 : List (HloOp τ sig (Elt F))) (after (opsIdx : List (HloOp τ sig (Elt F))) V)))) (Proc.devRef .tc main_arg6) = V (Proc.devRef .tc main_arg6) :=
  (keepsRelu (by decide) _).trans (st3_main_arg6 V)

/-! After the mask product. -/

theorem st5_main_v47 (V : Valuation τ sig (Elt F)) :
    (after (opsMask : List (HloOp τ sig (Elt F))) (after (opsRelu : List (HloOp τ sig (Elt F))) (after (opsPass1 : List (HloOp τ sig (Elt F))) (after (opsDense1 : List (HloOp τ sig (Elt F))) (after (opsIdx : List (HloOp τ sig (Elt F))) V))))) (Proc.devRef .tc main_v47)
      = mulf (F := F) (s := S50000x128) (φ := .f32) (maximumf (F := F) (s := S50000x128) (φ := .f32) (Cert.KernelIdeal.HostValue.pass128 (F := F) (Host.dotGeneral (F := F) (φ₁ := .f32) (φ₂ := .f32) dot_S50000x256_S256x128_S50000x128_1_0_0_1_n_n none (V (Proc.devRef .tc main_arg0)) (V (Proc.devRef .tc main_arg2))) (V (Proc.devRef .tc main_arg3)) (Cert.KernelIdeal.HostValue.edgeSrc (F := F) (V (Proc.devRef .tc main_arg1))) (Cert.KernelIdeal.HostValue.edgeDst (F := F) (V (Proc.devRef .tc main_arg1)))) (broadcastInDim S50000x128 ![] bcast_S_S50000x128 (constant (F := F) S_ .f32 0x00000000#32))) (V (Proc.devRef .tc main_arg6)) := by
  rw [mask_read, st4_main_v46 V, st4_main_arg6 V]

theorem st5_main_v1 (V : Valuation τ sig (Elt F)) :
    (after (opsMask : List (HloOp τ sig (Elt F))) (after (opsRelu : List (HloOp τ sig (Elt F))) (after (opsPass1 : List (HloOp τ sig (Elt F))) (after (opsDense1 : List (HloOp τ sig (Elt F))) (after (opsIdx : List (HloOp τ sig (Elt F))) V))))) (Proc.devRef .tc main_v1) = Cert.KernelIdeal.HostValue.edgeSrc (F := F) (V (Proc.devRef .tc main_arg1)) :=
  (keepsMask (by decide) _).trans (st4_main_v1 V)

theorem st5_main_v3 (V : Valuation τ sig (Elt F)) :
    (after (opsMask : List (HloOp τ sig (Elt F))) (after (opsRelu : List (HloOp τ sig (Elt F))) (after (opsPass1 : List (HloOp τ sig (Elt F))) (after (opsDense1 : List (HloOp τ sig (Elt F))) (after (opsIdx : List (HloOp τ sig (Elt F))) V))))) (Proc.devRef .tc main_v3) = Cert.KernelIdeal.HostValue.edgeDst (F := F) (V (Proc.devRef .tc main_arg1)) :=
  (keepsMask (by decide) _).trans (st4_main_v3 V)

theorem st5_main_arg4 (V : Valuation τ sig (Elt F)) :
    (after (opsMask : List (HloOp τ sig (Elt F))) (after (opsRelu : List (HloOp τ sig (Elt F))) (after (opsPass1 : List (HloOp τ sig (Elt F))) (after (opsDense1 : List (HloOp τ sig (Elt F))) (after (opsIdx : List (HloOp τ sig (Elt F))) V))))) (Proc.devRef .tc main_arg4) = V (Proc.devRef .tc main_arg4) :=
  (keepsMask (by decide) _).trans (st4_main_arg4 V)

theorem st5_main_arg5 (V : Valuation τ sig (Elt F)) :
    (after (opsMask : List (HloOp τ sig (Elt F))) (after (opsRelu : List (HloOp τ sig (Elt F))) (after (opsPass1 : List (HloOp τ sig (Elt F))) (after (opsDense1 : List (HloOp τ sig (Elt F))) (after (opsIdx : List (HloOp τ sig (Elt F))) V))))) (Proc.devRef .tc main_arg5) = V (Proc.devRef .tc main_arg5) :=
  (keepsMask (by decide) _).trans (st4_main_arg5 V)

/-! After the second dense product. -/

theorem st6_main_v48 (V : Valuation τ sig (Elt F)) :
    (after (opsDense2 : List (HloOp τ sig (Elt F))) (after (opsMask : List (HloOp τ sig (Elt F))) (after (opsRelu : List (HloOp τ sig (Elt F))) (after (opsPass1 : List (HloOp τ sig (Elt F))) (after (opsDense1 : List (HloOp τ sig (Elt F))) (after (opsIdx : List (HloOp τ sig (Elt F))) V)))))) (Proc.devRef .tc main_v48)
      = Host.dotGeneral (F := F) (φ₁ := .f32) (φ₂ := .f32) dot_S50000x128_S128x40_S50000x40_1_0_0_1_n_n none (mulf (F := F) (s := S50000x128) (φ := .f32) (maximumf (F := F) (s := S50000x128) (φ := .f32) (Cert.KernelIdeal.HostValue.pass128 (F := F) (Host.dotGeneral (F := F) (φ₁ := .f32) (φ₂ := .f32) dot_S50000x256_S256x128_S50000x128_1_0_0_1_n_n none (V (Proc.devRef .tc main_arg0)) (V (Proc.devRef .tc main_arg2))) (V (Proc.devRef .tc main_arg3)) (Cert.KernelIdeal.HostValue.edgeSrc (F := F) (V (Proc.devRef .tc main_arg1))) (Cert.KernelIdeal.HostValue.edgeDst (F := F) (V (Proc.devRef .tc main_arg1)))) (broadcastInDim S50000x128 ![] bcast_S_S50000x128 (constant (F := F) S_ .f32 0x00000000#32))) (V (Proc.devRef .tc main_arg6))) (V (Proc.devRef .tc main_arg4)) := by
  rw [dense2_read, st5_main_v47 V, st5_main_arg4 V]

theorem st6_main_v1 (V : Valuation τ sig (Elt F)) :
    (after (opsDense2 : List (HloOp τ sig (Elt F))) (after (opsMask : List (HloOp τ sig (Elt F))) (after (opsRelu : List (HloOp τ sig (Elt F))) (after (opsPass1 : List (HloOp τ sig (Elt F))) (after (opsDense1 : List (HloOp τ sig (Elt F))) (after (opsIdx : List (HloOp τ sig (Elt F))) V)))))) (Proc.devRef .tc main_v1) = Cert.KernelIdeal.HostValue.edgeSrc (F := F) (V (Proc.devRef .tc main_arg1)) :=
  (keepsDense2 (by decide) _).trans (st5_main_v1 V)

theorem st6_main_v3 (V : Valuation τ sig (Elt F)) :
    (after (opsDense2 : List (HloOp τ sig (Elt F))) (after (opsMask : List (HloOp τ sig (Elt F))) (after (opsRelu : List (HloOp τ sig (Elt F))) (after (opsPass1 : List (HloOp τ sig (Elt F))) (after (opsDense1 : List (HloOp τ sig (Elt F))) (after (opsIdx : List (HloOp τ sig (Elt F))) V)))))) (Proc.devRef .tc main_v3) = Cert.KernelIdeal.HostValue.edgeDst (F := F) (V (Proc.devRef .tc main_arg1)) :=
  (keepsDense2 (by decide) _).trans (st5_main_v3 V)

theorem st6_main_arg5 (V : Valuation τ sig (Elt F)) :
    (after (opsDense2 : List (HloOp τ sig (Elt F))) (after (opsMask : List (HloOp τ sig (Elt F))) (after (opsRelu : List (HloOp τ sig (Elt F))) (after (opsPass1 : List (HloOp τ sig (Elt F))) (after (opsDense1 : List (HloOp τ sig (Elt F))) (after (opsIdx : List (HloOp τ sig (Elt F))) V)))))) (Proc.devRef .tc main_arg5) = V (Proc.devRef .tc main_arg5) :=
  (keepsDense2 (by decide) _).trans (st5_main_arg5 V)

/-! After the second propagation. -/

theorem st7_main_v89 (V : Valuation τ sig (Elt F)) :
    (after (opsPass2 : List (HloOp τ sig (Elt F))) (after (opsDense2 : List (HloOp τ sig (Elt F))) (after (opsMask : List (HloOp τ sig (Elt F))) (after (opsRelu : List (HloOp τ sig (Elt F))) (after (opsPass1 : List (HloOp τ sig (Elt F))) (after (opsDense1 : List (HloOp τ sig (Elt F))) (after (opsIdx : List (HloOp τ sig (Elt F))) V))))))) (Proc.devRef .tc main_v89)
      = Cert.KernelIdeal.HostValue.pass40 (F := F) (Host.dotGeneral (F := F) (φ₁ := .f32) (φ₂ := .f32) dot_S50000x128_S128x40_S50000x40_1_0_0_1_n_n none (mulf (F := F) (s := S50000x128) (φ := .f32) (maximumf (F := F) (s := S50000x128) (φ := .f32) (Cert.KernelIdeal.HostValue.pass128 (F := F) (Host.dotGeneral (F := F) (φ₁ := .f32) (φ₂ := .f32) dot_S50000x256_S256x128_S50000x128_1_0_0_1_n_n none (V (Proc.devRef .tc main_arg0)) (V (Proc.devRef .tc main_arg2))) (V (Proc.devRef .tc main_arg3)) (Cert.KernelIdeal.HostValue.edgeSrc (F := F) (V (Proc.devRef .tc main_arg1))) (Cert.KernelIdeal.HostValue.edgeDst (F := F) (V (Proc.devRef .tc main_arg1)))) (broadcastInDim S50000x128 ![] bcast_S_S50000x128 (constant (F := F) S_ .f32 0x00000000#32))) (V (Proc.devRef .tc main_arg6))) (V (Proc.devRef .tc main_arg4))) (V (Proc.devRef .tc main_arg5)) (Cert.KernelIdeal.HostValue.edgeSrc (F := F) (V (Proc.devRef .tc main_arg1))) (Cert.KernelIdeal.HostValue.edgeDst (F := F) (V (Proc.devRef .tc main_arg1))) := by
  rw [pass2_read, st6_main_v48 V, st6_main_arg5 V, st6_main_v1 V, st6_main_v3 V]

/-! ## The whole program -/

/-- The model of the reference: the log-softmax of every row of the second propagation of the second dense product of
    the masked relu of the first propagation of the first dense product. -/
def refModel (x : (⟨S50000x256, .f32⟩ : BufTy).Contents (Elt Ideal)) (ei : (⟨S2x1600000, .i32⟩ : BufTy).Contents (Elt Ideal))
    (w1 : (⟨S256x128, .f32⟩ : BufTy).Contents (Elt Ideal)) (b1 : (⟨S128, .f32⟩ : BufTy).Contents (Elt Ideal))
    (w2 : (⟨S128x40, .f32⟩ : BufTy).Contents (Elt Ideal)) (b2 : (⟨S40, .f32⟩ : BufTy).Contents (Elt Ideal))
    (mask : (⟨S50000x128, .f32⟩ : BufTy).Contents (Elt Ideal)) : (⟨S50000x40, .f32⟩ : BufTy).Contents (Elt Ideal) :=
  Cert.Bridge.SoftmaxRows.lsmHost
    (Cert.KernelIdeal.HostValue.pass40 (F := Ideal)
      (Host.dotGeneral (F := Ideal) (φ₁ := .f32) (φ₂ := .f32) dot_S50000x128_S128x40_S50000x40_1_0_0_1_n_n none
        (mulf (F := Ideal) (s := S50000x128) (φ := .f32)
          (maximumf (F := Ideal) (s := S50000x128) (φ := .f32)
            (Cert.KernelIdeal.HostValue.pass128 (F := Ideal)
              (Host.dotGeneral (F := Ideal) (φ₁ := .f32) (φ₂ := .f32) dot_S50000x256_S256x128_S50000x128_1_0_0_1_n_n none x w1) b1
              (Cert.KernelIdeal.HostValue.edgeSrc (F := Ideal) ei) (Cert.KernelIdeal.HostValue.edgeDst (F := Ideal) ei))
            (broadcastInDim S50000x128 ![] bcast_S_S50000x128 (constant (F := Ideal) S_ .f32 0x00000000#32)))
          mask)
        w2)
      b2 (Cert.KernelIdeal.HostValue.edgeSrc (F := Ideal) ei) (Cert.KernelIdeal.HostValue.edgeDst (F := Ideal) ei))

/-- After the whole line the result buffer holds the model of the arguments' contents. -/
theorem ref_value (V : Valuation τ sig (Elt Ideal)) :
    after (ops : List (HloOp τ sig (Elt Ideal))) V (Proc.devRef .tc main_v90)
      = refModel (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [after_ops, lsm_read, st7_main_v89 V]
  rfl

end Cert.ReferenceIdeal.WholeValue

end
-- ==== Proof.Same.lean ====
/-
  The two programs compute the same function.

  Layer by layer the reference's host operations are the kernel regions' whole-array functions: a dot_general is the
  product summed over the contracted axis, maximum with the zero splat followed by the product with the mask is relu
  times mask, and the reference's log_softmax is the row-wise log-softmax (its extra maximum with the starting value
  of the row maximum changes nothing). The two message-passing stretches are one function on both sides. So the
  reference's composed value is the kernel's model of the same arguments.
-/
import proofs.«104665_j59622736003658_1_alg».proof.Proof.KernelValue
import proofs.«104665_j59622736003658_1_alg».proof.Proof.ReferenceValue

set_option maxRecDepth 16384

noncomputable section

namespace Cert.Bridge.Same

open Idealize.ShloMosaic Idealize.ShloMosaic.ValueIdx
open Cert.KernelIdeal.RegionValue Cert.KernelIdeal.HostValue Cert.KernelIdeal.WholeValue
open Cert.Bridge.DenseRows Cert.Bridge.SoftmaxRows

theorem split2 {a b : Nat} (i : (⟨2, ![a, b]⟩ : Shape).Idx) :
    i = ix2 (n0 := a) (n1 := b) ⟨(i 0).val, (i 0).isLt⟩ ⟨(i 1).val, (i 1).isLt⟩ := by
  funext d; match d with | ⟨0, _⟩ => rfl | ⟨1, _⟩ => rfl

/-- The first dot_general is the first dense product. -/
theorem dense1_same (x : (⟨Cert.ReferenceIdeal.S50000x256, .f32⟩ : BufTy).Contents (Elt Ideal))
    (w : (⟨Cert.ReferenceIdeal.S256x128, .f32⟩ : BufTy).Contents (Elt Ideal)) :
    Host.dotGeneral (F := Ideal) (φ₁ := .f32) (φ₂ := .f32) Cert.ReferenceIdeal.dot_S50000x256_S256x128_S50000x128_1_0_0_1_n_n none x w
      = denseArr1 x w := by
  funext i
  exact (congrArg (Host.dotGeneral (F := Ideal) (φ₁ := .f32) (φ₂ := .f32) Cert.ReferenceIdeal.dot_S50000x256_S256x128_S50000x128_1_0_0_1_n_n none x w) (split2 i)).trans
    (dense1_host x w _ _)

/-- The second dot_general is the second dense product. -/
theorem dense2_same (h : (⟨Cert.ReferenceIdeal.S50000x128, .f32⟩ : BufTy).Contents (Elt Ideal))
    (w : (⟨Cert.ReferenceIdeal.S128x40, .f32⟩ : BufTy).Contents (Elt Ideal)) :
    Host.dotGeneral (F := Ideal) (φ₁ := .f32) (φ₂ := .f32) Cert.ReferenceIdeal.dot_S50000x128_S128x40_S50000x40_1_0_0_1_n_n none h w
      = denseArr2 h w := by
  funext i
  exact (congrArg (Host.dotGeneral (F := Ideal) (φ₁ := .f32) (φ₂ := .f32) Cert.ReferenceIdeal.dot_S50000x128_S128x40_S50000x40_1_0_0_1_n_n none h w) (split2 i)).trans
    (dense2_host h w _ _)

/-- maximum with the zero splat, then the product with the mask, is relu times mask. -/
theorem relu_same (hb : Cert.ReferenceIdeal.S_.BroadcastsInDim Cert.ReferenceIdeal.S50000x128 (![] : Fin 0 → Fin Cert.ReferenceIdeal.S50000x128.rank))
    (h x6 : (⟨Cert.ReferenceIdeal.S50000x128, .f32⟩ : BufTy).Contents (Elt Ideal)) :
    mulf (F := Ideal) (s := Cert.ReferenceIdeal.S50000x128) (φ := .f32) (maximumf (F := Ideal) (s := Cert.ReferenceIdeal.S50000x128) (φ := .f32) h
      (broadcastInDim Cert.ReferenceIdeal.S50000x128 ![] hb (constant (F := Ideal) Cert.ReferenceIdeal.S_ .f32 0x00000000#32))) x6
      = reluMask h x6 :=
  funext fun i => relu_mask_host hb h x6 i

/-- The reference's log_softmax is the row-wise log-softmax. -/
theorem lsm_same (h : (⟨Cert.ReferenceIdeal.S50000x40, .f32⟩ : BufTy).Contents (Elt Ideal)) : lsmHost h = lsmArr h := by
  funext i
  exact (congrArg (lsmHost h) (split2 i)).trans (host_rows h _ _)

/-- The reference's composed value is the kernel's model of the same arguments. -/
theorem same (x : (⟨Cert.ReferenceIdeal.S50000x256, .f32⟩ : BufTy).Contents (Elt Ideal)) (ei : (⟨Cert.ReferenceIdeal.S2x1600000, .i32⟩ : BufTy).Contents (Elt Ideal))
    (w1 : (⟨Cert.ReferenceIdeal.S256x128, .f32⟩ : BufTy).Contents (Elt Ideal)) (b1 : (⟨Cert.ReferenceIdeal.S128, .f32⟩ : BufTy).Contents (Elt Ideal))
    (w2 : (⟨Cert.ReferenceIdeal.S128x40, .f32⟩ : BufTy).Contents (Elt Ideal)) (b2 : (⟨Cert.ReferenceIdeal.S40, .f32⟩ : BufTy).Contents (Elt Ideal))
    (mask : (⟨Cert.ReferenceIdeal.S50000x128, .f32⟩ : BufTy).Contents (Elt Ideal)) :
    Cert.ReferenceIdeal.WholeValue.refModel x ei w1 b1 w2 b2 mask = model x ei w1 b1 w2 b2 mask := by
  unfold Cert.ReferenceIdeal.WholeValue.refModel model
  rw [lsm_same, dense2_same, relu_same, dense1_same]

end Cert.Bridge.Same

end
-- ==== Proof.lean ====
/-
  The certificate's five claims.

  Kernel and reference are the same pipeline: a dense product of the node features with W1, a normalised aggregation over the
  graph with self-loops plus b1, relu times the dropout mask, a dense product with W2, the same aggregation plus b2, and a
  row-wise log-softmax. The kernel runs the two dense products, the relu times mask and the log-softmax as four regions
  tiled over blocks of 2000 rows, with float formats narrowed inside the products; at the ideal instance a change of
  format is the identity, a tiled product is the product, and the two aggregations are the same host operations on both
  sides. So both programs end with the same array (Proof/Same.lean), each result read off its program's run
  (Proof/KernelRun.lean, Proof/KernelValue.lean for the kernel; Proof/ReferenceRun.lean, Proof/ReferenceValue.lean for the
  reference). No input needs to be finite for this: nothing is cancelled or distributed.
  The frames are the generated ones for the two kernels and the reference's run with its value dropped; the idealization
  rewrote nothing, so preserves has nothing to state.
-/
import proofs.«104665_j59622736003658_1_alg».proof.Defs
import proofs.«104665_j59622736003658_1_alg».proof.Proof.Gen.Kernel
import proofs.«104665_j59622736003658_1_alg».proof.Proof.Gen.Kernel.Skeleton
import proofs.«104665_j59622736003658_1_alg».proof.Proof.Gen.Kernel.Launch
import proofs.«104665_j59622736003658_1_alg».proof.Proof.Gen.Kernel.Points
import proofs.«104665_j59622736003658_1_alg».proof.Proof.Gen.Kernel.Frame
import proofs.«104665_j59622736003658_1_alg».proof.Proof.Gen.KernelIdeal
import proofs.«104665_j59622736003658_1_alg».proof.Proof.Gen.KernelIdeal.Skeleton
import proofs.«104665_j59622736003658_1_alg».proof.Proof.Gen.KernelIdeal.Launch
import proofs.«104665_j59622736003658_1_alg».proof.Proof.Gen.KernelIdeal.Points
import proofs.«104665_j59622736003658_1_alg».proof.Proof.Gen.KernelIdeal.Frame
import proofs.«104665_j59622736003658_1_alg».proof.Proof.Gen.ReferenceIdeal
import proofs.«104665_j59622736003658_1_alg».proof.Proof.Gen.Pre_finite_inputs
import proofs.«104665_j59622736003658_1_alg».proof.Proof.KernelRun
import proofs.«104665_j59622736003658_1_alg».proof.Proof.KernelValue
import proofs.«104665_j59622736003658_1_alg».proof.Proof.ReferenceRun
import proofs.«104665_j59622736003658_1_alg».proof.Proof.ReferenceValue
import proofs.«104665_j59622736003658_1_alg».proof.Proof.Same
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its value dropped: no operation writes an argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.RunValue.kept_arg0 _),
     (h c Cert.ReferenceIdeal.main_arg1).trans (Cert.ReferenceIdeal.RunValue.kept_arg1 _),
     (h c Cert.ReferenceIdeal.main_arg2).trans (Cert.ReferenceIdeal.RunValue.kept_arg2 _),
     (h c Cert.ReferenceIdeal.main_arg3).trans (Cert.ReferenceIdeal.RunValue.kept_arg3 _),
     (h c Cert.ReferenceIdeal.main_arg4).trans (Cert.ReferenceIdeal.RunValue.kept_arg4 _),
     (h c Cert.ReferenceIdeal.main_arg5).trans (Cert.ReferenceIdeal.RunValue.kept_arg5 _),
     (h c Cert.ReferenceIdeal.main_arg6).trans (Cert.ReferenceIdeal.RunValue.kept_arg6 _)⟩)
    (Cert.ReferenceIdeal.RunValue.run_raw (F := Ideal) m ρ)

/-- Both programs end with the model of the kernel's arguments. -/
theorem algebraic : Cert.algebraic_KernelIdeal_ReferenceIdeal := by
  intro m ρ m' ρ' _ hagree
  refine ⟨fun c => Cert.KernelIdeal.WholeValue.model (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.WholeValue.result_value m ρ c), (h c).2⟩)
      (Cert.KernelIdeal.RunValue.run_named m ρ)
  · refine (θ_run Cert.ReferenceIdeal.defs _ _).mono (fun r h c =>
      ⟨?_, (h c Cert.ReferenceIdeal.main_arg0).trans (Cert.ReferenceIdeal.RunValue.kept_arg0 _),
       (h c Cert.ReferenceIdeal.main_arg1).trans (Cert.ReferenceIdeal.RunValue.kept_arg1 _),
       (h c Cert.ReferenceIdeal.main_arg2).trans (Cert.ReferenceIdeal.RunValue.kept_arg2 _),
       (h c Cert.ReferenceIdeal.main_arg3).trans (Cert.ReferenceIdeal.RunValue.kept_arg3 _),
       (h c Cert.ReferenceIdeal.main_arg4).trans (Cert.ReferenceIdeal.RunValue.kept_arg4 _),
       (h c Cert.ReferenceIdeal.main_arg5).trans (Cert.ReferenceIdeal.RunValue.kept_arg5 _),
       (h c Cert.ReferenceIdeal.main_arg6).trans (Cert.ReferenceIdeal.RunValue.kept_arg6 _)⟩)
      (Cert.ReferenceIdeal.RunValue.run_raw (F := Ideal) m' ρ')
    obtain ⟨a0, a1, a2, a3, a4, a5, a6⟩ := hagree c
    refine ((h c Cert.ReferenceIdeal.main_v90).trans (Cert.ReferenceIdeal.WholeValue.ref_value _)).trans ?_
    refine Eq.trans ?_ (Cert.Bridge.Same.same _ _ _ _ _ _ _)
    show Cert.ReferenceIdeal.WholeValue.refModel
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
      = _
    rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
